-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x512 : Shape := ⟨3, ![4096, 2, 512]⟩
abbrev S512x512 : Shape := ⟨2, ![512, 512]⟩
abbrev S512 : Shape := ⟨1, ![512]⟩
abbrev S1 : Shape := ⟨1, ![1]⟩
abbrev S_ : Shape := ⟨0, ![]⟩

class Facts : Prop where
  bcast_S_S4096x2x512 : S_.BroadcastsInDim S4096x2x512 (![] : Fin 0 → Fin S4096x2x512.rank)
  reducesTo_S4096x2x512_S_d0_1_2 : S4096x2x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S512x512 .f32) (main_arg8 : FVec F S512 .f32) (main_arg9 : FVec F S1 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_v33

def fn {F : FTy → Type} [FloatOps F] (main_arg0 : FVec F S4096x2x512 .f32) (main_arg1 : FVec F S4096x2x512 .f32) (main_arg2 : FVec F S4096x2x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S1 .f32) : IVec S_ 1 :=
  let main_v0 : FVec F S4096x2x512 .f32 := Host.absf main_arg0
  let main_cst : FVec F S_ .f32 := constant S_ .f32 0x7F800000#32
  let main_v1 : FVec F S4096x2x512 .f32 := broadcastInDim S4096x2x512 ![] bcast_S_S4096x2x512 main_cst
  let main_v2 : IVec S4096x2x512 1 := cmpf .olt main_v0 main_v1
  let main_c : IVec S_ 1 := constantI S_ 1 1#1
  let main_v3 : IVec S_ 1 := (fun x v => Host.reduce IntOp.andi x v reducesTo_S4096x2x512_S_d0_1_2 h_S_) main_v2 main_c
  let main_v4 : FVec F S4096x2x512 .f32 := Host.absf main_arg1
  let main_cst_0 : FVec F S_ .f32 := constant S_ .f32 0x7F800000#32
  let main_v5 : FVec F S4096x2x512 .f32 := broadcastInDim S4096x2x512 ![] bcast_S_S4096x2x512 main_cst_0
  let main_v6 : IVec S4096x2x512 1 := cmpf .olt main_v4 main_v5
  let main_c_1 : IVec S_ 1 := constantI S_ 1 1#1
  let main_v7 : IVec S_ 1 := (fun x v => Host.reduce IntOp.andi x v reducesTo_S4096x2x512_S_d0_1_2 h_S_) main_v6 main_c_1
  let main_v8 : IVec S_ 1 := andi main_v3 main_v7
  let main_v9 : FVec F S4096x2x512 .f32 := Host.absf main_arg2
  let main_cst_2 : FVec F S_ .f32 := constant S_ .f32 0x7F800000#32
  let main_v10 : FVec F S4096x2x512 .f32 := broadcastInDim S4096x2x512 ![] bcast_S_S4096x2x512 main_cst_2
  let main_v11 : IVec S4096x2x512 1 := cmpf .olt main_v9 main_v10
  let main_c_3 : IVec S_ 1 := constantI S_ 1 1#1
  let main_v12 : IVec S_ 1 := (fun x v => Host.reduce IntOp.andi x v reducesTo_S4096x2x512_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_v13 main_v16
-- ==== Kernel.lean ====
abbrev S4096x2x512 : Shape := ⟨3, ![4096, 2, 512]⟩
abbrev S512x512 : Shape := ⟨2, ![512, 512]⟩
abbrev S512 : Shape := ⟨1, ![512]⟩
abbrev S1 : Shape := ⟨1, ![1]⟩
abbrev S1x512 : Shape := ⟨2, ![1, 512]⟩
abbrev S1x1 : Shape := ⟨2, ![1, 1]⟩
abbrev S1024x2x512 : Shape := ⟨3, ![1024, 2, 512]⟩
abbrev S1024x1x512 : Shape := ⟨3, ![1024, 1, 512]⟩
abbrev S1024x512 : Shape := ⟨2, ![1024, 512]⟩
abbrev S2048x2x512 : Shape := ⟨3, ![2048, 2, 512]⟩
abbrev S2048x1x512 : Shape := ⟨3, ![2048, 1, 512]⟩
abbrev S2048x512 : Shape := ⟨2, ![2048, 512]⟩
abbrev S2048x1024 : Shape := ⟨2, ![2048, 1024]⟩

abbrev nBuf : Space → Nat
  | .hbm => 18
  | .vmem => 30
  | .smem => 0
  | _ => 0

abbrev bufTy : (tb : Table) → Fin (tcTables nBuf tb) → BufTy
  | .hbm, ⟨0, _⟩ => ⟨S4096x2x512, .f32⟩
  | .hbm, ⟨1, _⟩ => ⟨S4096x2x512, .f32⟩
  | .hbm, ⟨2, _⟩ => ⟨S4096x2x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S1, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x1, .f32⟩
  | .hbm, ⟨14, _⟩ => ⟨S4096x2x512, .bf16⟩
  | .hbm, ⟨15, _⟩ => ⟨S4096x2x512, .bf16⟩
  | .hbm, ⟨16, _⟩ => ⟨S4096x2x512, .bf16⟩
  | .hbm, ⟨17, _⟩ => ⟨S4096x2x512, .f32⟩
  | .local _ .vmem, ⟨0, _⟩ => ⟨S1024x2x512, .f32⟩
  | .local _ .vmem, ⟨1, _⟩ => ⟨S1024x2x512, .f32⟩
  | .local _ .vmem, ⟨2, _⟩ => ⟨S1024x2x512, .f32⟩
  | .local _ .vmem, ⟨3, _⟩ => ⟨S1024x2x512, .f32⟩
  | .local _ .vmem, ⟨4, _⟩ => ⟨S1024x2x512, .f32⟩
  | .local _ .vmem, ⟨5, _⟩ => ⟨S1024x2x512, .f32⟩
  | .local _ .vmem, ⟨6, _⟩ => ⟨S512x512, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S512x512, .f32⟩
  | .local _ .vmem, ⟨11, _⟩ => ⟨S1x512, .f32⟩
  | .local _ .vmem, ⟨12, _⟩ => ⟨S1024x2x512, .bf16⟩
  | .local _ .vmem, ⟨13, _⟩ => ⟨S1024x2x512, .bf16⟩
  | .local _ .vmem, ⟨14, _⟩ => ⟨S1024x2x512, .bf16⟩
  | .local _ .vmem, ⟨15, _⟩ => ⟨S1024x2x512, .bf16⟩
  | .local _ .vmem, ⟨16, _⟩ => ⟨S1024x2x512, .bf16⟩
  | .local _ .vmem, ⟨17, _⟩ => ⟨S1024x2x512, .bf16⟩
  | .local _ .vmem, ⟨18, _⟩ => ⟨S2048x2x512, .bf16⟩
  | .local _ .vmem, ⟨19, _⟩ => ⟨S2048x2x512, .bf16⟩
  | .local _ .vmem, ⟨20, _⟩ => ⟨S1024x2x512, .bf16⟩
  | .local _ .vmem, ⟨21, _⟩ => ⟨S1024x2x512, .bf16⟩
  | .local _ .vmem, ⟨22, _⟩ => ⟨S1024x2x512, .bf16⟩
  | .local _ .vmem, ⟨23, _⟩ => ⟨S1024x2x512, .bf16⟩
  | .local _ .vmem, ⟨24, _⟩ => ⟨S2048x2x512, .f32⟩
  | .local _ .vmem, ⟨25, _⟩ => ⟨S2048x2x512, .f32⟩
  | .local _ .vmem, ⟨26, _⟩ => ⟨S1x1, .f32⟩
  | .local _ .vmem, ⟨27, _⟩ => ⟨S2048x2x512, .f32⟩
  | .local _ .vmem, ⟨28, _⟩ => ⟨S2048x2x512, .f32⟩
  | .local _ .vmem, ⟨29, _⟩ => ⟨S2048x2x512, .f32⟩
  | _, _ => ⟨S4096x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg5_1 : Ref sig .tc := ⟨.vmem, 28, rfl⟩
abbrev cc1_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem5_0 : DmaSem sig := 27
abbrev cc1_sem5_1 : DmaSem sig := 28

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x2x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x2x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x2x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v37 : BitVec 1 := Scalar.cmpi .eq arg1 c3_i32
  let v38 : BitVec 32 := Scalar.extui v37
  let c0_i32_34 : BitVec 32 := 0#32
  let v39 : BitVec 1 := Scalar.cmpi .ne v38 c0_i32_34
  v39

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x2x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x2x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x2x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2048x2x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S512_S1x512 : S512.ShapeCasts S1x512
  shapeCasts_S1_S1x1 : S1.ShapeCasts S1x1
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x2x512_S1024x1x512_0_0_0 : ∀ a, (![0, 0, 0] : Fin 3 → Nat) a + S1024x1x512.size a ≤ S1024x2x512.size a
  h_S1024x1x512 : 0 < S1024x1x512.numel
  shapeCasts_S1024x1x512_S1024x512 : S1024x1x512.ShapeCasts S1024x512
  broadcasts_S1x512_S1024x512 : S1x512.Broadcasts S1024x512
  shapeCasts_S1024x512_S1024x1x512 : S1024x512.ShapeCasts S1024x1x512
  inb_S1024x2x512_S1024x2x512_0_0_0 : ∀ a, (![0, 0, 0] : Fin 3 → Nat) a + S1024x2x512.size a ≤ S1024x2x512.size a
  h_S1024x2x512 : 0 < S1024x2x512.numel
  slices_S1024x2x512_S1024x1x512_0_0_0 : S1024x2x512.Slices ![0, 0, 0] S1024x1x512
  packedbf16_S1024x2x512_S1024x2x512_0_0_0 : (Rect.unit (s := S1024x2x512) ![0, 0, 0] S1024x2x512.size inb_S1024x2x512_S1024x2x512_0_0_0).PackedRows (EltTy.packing .bf16)
  inb_S1024x2x512_S1024x1x512_0_1_0 : ∀ a, (![0, 1, 0] : Fin 3 → Nat) a + S1024x1x512.size a ≤ S1024x2x512.size a
  slices_S1024x2x512_S1024x1x512_0_1_0 : S1024x2x512.Slices ![0, 1, 0] S1024x1x512
  inb_S2048x2x512_S2048x2x512_0_0_0 : ∀ a, (![0, 0, 0] : Fin 3 → Nat) a + S2048x2x512.size a ≤ S2048x2x512.size a
  h_S2048x2x512 : 0 < S2048x2x512.numel
  shapeCasts_S2048x2x512_S2048x2x512 : S2048x2x512.ShapeCasts S2048x2x512
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S2048x2x512_S2048x1x512_0_0_0 : ∀ a, (![0, 0, 0] : Fin 3 → Nat) a + S2048x1x512.size a ≤ S2048x2x512.size a
  h_S2048x1x512 : 0 < S2048x1x512.numel
  shapeCasts_S2048x1x512_S2048x512 : S2048x1x512.ShapeCasts S2048x512
  shapeCasts_S2048x512_S2048x1x512 : S2048x512.ShapeCasts S2048x1x512
  inb_S2048x2x512_S2048x1x512_0_1_0 : ∀ a, (![0, 1, 0] : Fin 3 → Nat) a + S2048x1x512.size a ≤ S2048x2x512.size a
  dot_S1024x512_S512x512_S1024x512_1_1_0_0_n_n_wf : DotDims.WF S1024x512 S512x512 S1024x512 [1] [1] [0] [0] [] []
  dot_S2048x512_S1024x512_S2048x1024_1_1_0_0_n_n_wf : DotDims.WF S2048x512 S1024x512 S2048x1024 [1] [1] [0] [0] [] []
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2x512.size a ≤ S4096x2x512.size a
  hwx0_0 : ∀ i : grid0.Coords, EltTy.bits .f32 = 32 ∨ (Rect.block (s := S4096x2x512) S1024x2x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2x512.size a ≤ S4096x2x512.size a
  hwx0_1 : ∀ i : grid0.Coords, EltTy.bits .f32 = 32 ∨ (Rect.block (s := S4096x2x512) S1024x2x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2x512.size a ≤ S4096x2x512.size a
  hwx0_2 : ∀ i : grid0.Coords, EltTy.bits .f32 = 32 ∨ (Rect.block (s := S4096x2x512) S1024x2x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x2x512.size a ≤ S4096x2x512.size a
  hwx0_9 : ∀ i : grid0.Coords, EltTy.bits .bf16 = 32 ∨ (Rect.block (s := S4096x2x512) S1024x2x512.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x2x512.size a ≤ S4096x2x512.size a
  hwx0_10 : ∀ i : grid0.Coords, EltTy.bits .bf16 = 32 ∨ (Rect.block (s := S4096x2x512) S1024x2x512.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x2x512.size a ≤ S4096x2x512.size a
  hwx0_11 : ∀ i : grid0.Coords, EltTy.bits .bf16 = 32 ∨ (Rect.block (s := S4096x2x512) S1024x2x512.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2x512.size a ≤ S4096x2x512.size a
  hwx1_0 : ∀ i : grid1.Coords, EltTy.bits .bf16 = 32 ∨ (Rect.block (s := S4096x2x512) S2048x2x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2x512.size a ≤ S4096x2x512.size a
  hwx1_1 : ∀ i : grid1.Coords, EltTy.bits .bf16 = 32 ∨ (Rect.block (s := S4096x2x512) S1024x2x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2x512.size a ≤ S4096x2x512.size a
  hwx1_2 : ∀ i : grid1.Coords, EltTy.bits .bf16 = 32 ∨ (Rect.block (s := S4096x2x512) S1024x2x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x2x512.size a ≤ S4096x2x512.size a
  hwx1_3 : ∀ i : grid1.Coords, EltTy.bits .f32 = 32 ∨ (Rect.block (s := S4096x2x512) S2048x2x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x2x512.size a ≤ S4096x2x512.size a
  hwx1_5 : ∀ i : grid1.Coords, EltTy.bits .f32 = 32 ∨ (Rect.block (s := S4096x2x512) S2048x2x512.size (cc1_transform_5 i) (hinb1_5 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_arg0) S1024x2x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x2x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S1024x2x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S1024x2x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_2) S1024x2x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v4_0) S2048x2x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1024x2x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S1024x2x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S2048x2x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S2048x2x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4096x2x512 : Shape := ⟨3, ![4096, 2, 512]⟩
abbrev S512x512 : Shape := ⟨2, ![512, 512]⟩
abbrev S512 : Shape := ⟨1, ![512]⟩
abbrev S1 : Shape := ⟨1, ![1]⟩
abbrev S512x4096x2 : Shape := ⟨3, ![512, 4096, 2]⟩
abbrev S2x4096x512 : Shape := ⟨3, ![2, 4096, 512]⟩
abbrev S1x1x512 : Shape := ⟨3, ![1, 1, 512]⟩
abbrev S2x4096x4096 : Shape := ⟨3, ![2, 4096, 4096]⟩
abbrev S1x1x1 : Shape := ⟨3, ![1, 1, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x2x512, .f32⟩
  | .hbm, ⟨1, _⟩ => ⟨S4096x2x512, .f32⟩
  | .hbm, ⟨2, _⟩ => ⟨S4096x2x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S1, .f32⟩
  | .hbm, ⟨10, _⟩ => ⟨S512x4096x2, .f32⟩
  | .hbm, ⟨11, _⟩ => ⟨S2x4096x512, .f32⟩
  | .hbm, ⟨12, _⟩ => ⟨S1x1x512, .f32⟩
  | .hbm, ⟨13, _⟩ => ⟨S2x4096x512, .f32⟩
  | .hbm, ⟨14, _⟩ => ⟨S2x4096x512, .f32⟩
  | .hbm, ⟨15, _⟩ => ⟨S512x4096x2, .f32⟩
  | .hbm, ⟨16, _⟩ => ⟨S2x4096x512, .f32⟩
  | .hbm, ⟨17, _⟩ => ⟨S1x1x512, .f32⟩
  | .hbm, ⟨18, _⟩ => ⟨S2x4096x512, .f32⟩
  | .hbm, ⟨19, _⟩ => ⟨S2x4096x512, .f32⟩
  | .hbm, ⟨20, _⟩ => ⟨S512x4096x2, .f32⟩
  | .hbm, ⟨21, _⟩ => ⟨S2x4096x512, .f32⟩
  | .hbm, ⟨22, _⟩ => ⟨S1x1x512, .f32⟩
  | .hbm, ⟨23, _⟩ => ⟨S2x4096x512, .f32⟩
  | .hbm, ⟨24, _⟩ => ⟨S2x4096x512, .f32⟩
  | .hbm, ⟨25, _⟩ => ⟨S2x4096x4096, .f32⟩
  | .hbm, ⟨26, _⟩ => ⟨S2x4096x4096, .f32⟩
  | .hbm, ⟨27, _⟩ => ⟨S2x4096x512, .f32⟩
  | .hbm, ⟨28, _⟩ => ⟨S4096x2x512, .f32⟩
  | .hbm, ⟨29, _⟩ => ⟨S1x1x1, .f32⟩
  | .hbm, ⟨30, _⟩ => ⟨S4096x2x512, .f32⟩
  | .hbm, ⟨31, _⟩ => ⟨S4096x2x512, .f32⟩
  | .hbm, ⟨32, _⟩ => ⟨S4096x2x512, .f32⟩
  | _, _ => ⟨S4096x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  transposes_S512x4096x2_S2x4096x512_2_1_0 : S512x4096x2.Transposes [2, 1, 0] S2x4096x512
  bcast_S512_S1x1x512_2 : S512.BroadcastsInDim S1x1x512 (![2] : Fin 1 → Fin S1x1x512.rank)
  bcast_S1x1x512_S2x4096x512_0_1_2 : S1x1x512.BroadcastsInDim S2x4096x512 (![0, 1, 2] : Fin 3 → Fin S2x4096x512.rank)
  transposes_S2x4096x512_S4096x2x512_1_0_2 : S2x4096x512.Transposes [1, 0, 2] S4096x2x512
  bcast_S1_S1x1x1_2 : S1.BroadcastsInDim S1x1x1 (![2] : Fin 1 → Fin S1x1x1.rank)
  bcast_S1x1x1_S4096x2x512_0_1_2 : S1x1x1.BroadcastsInDim S4096x2x512 (![0, 1, 2] : Fin 3 → Fin S4096x2x512.rank)
  dot_S512x512_S4096x2x512_S512x4096x2_1_2_0_01_n_n_wf : DotDims.WF S512x512 S4096x2x512 S512x4096x2 [1] [2] [0] [0, 1] [] []
  dot_S2x4096x512_S2x4096x512_S2x4096x4096_2_2_1_1_0_0_wf : DotDims.WF S2x4096x512 S2x4096x512 S2x4096x4096 [2] [2] [1] [1] [0] [0]
  dot_S2x4096x4096_S2x4096x512_S2x4096x512_2_1_1_2_0_0_wf : DotDims.WF S2x4096x4096 S2x4096x512 S2x4096x512 [2] [1] [1] [2] [0] [0]

variable [Facts₀]

def dot_S512x512_S4096x2x512_S512x4096x2_1_2_0_01_n_n : DotDims S512x512 S4096x2x512 S512x4096x2 where
  lhsContracting := [1]
  rhsContracting := [2]
  lhsNonContracting := [0]
  rhsNonContracting := [0, 1]
  lhsBatch := []
  rhsBatch := []
  wf := dot_S512x512_S4096x2x512_S512x4096x2_1_2_0_01_n_n_wf
def dot_S2x4096x512_S2x4096x512_S2x4096x4096_2_2_1_1_0_0 : DotDims S2x4096x512 S2x4096x512 S2x4096x4096 where
  lhsContracting := [2]
  rhsContracting := [2]
  lhsNonContracting := [1]
  rhsNonContracting := [1]
  lhsBatch := [0]
  rhsBatch := [0]
  wf := dot_S2x4096x512_S2x4096x512_S2x4096x4096_2_2_1_1_0_0_wf
def dot_S2x4096x4096_S2x4096x512_S2x4096x512_2_1_1_2_0_0 : DotDims S2x4096x4096 S2x4096x512 S2x4096x512 where
  lhsContracting := [2]
  rhsContracting := [1]
  lhsNonContracting := [1]
  rhsNonContracting := [2]
  lhsBatch := [0]
  rhsBatch := [0]
  wf := dot_S2x4096x4096_S2x4096x512_S2x4096x512_2_1_1_2_0_0_wf

class Facts : Prop extends Facts₀ where

variable [Facts]
-- ==== Proof.LibRows2.lean ====
/-
  Two stores of one batch row each fill a block of two batch rows.

  A block of shape [1024, 2, 512] is written twice through its whole rectangle: first the block as found with
  batch row 0 replaced by A, then the block as it then stands with batch row 1 replaced by B. Whatever the block
  held before, it ends holding A at batch 0 and B at batch 1.
-/
import Idealize.ShloMosaic.Lib.Pipeline.FrameBody
import Idealize.ShloMosaic.Lib.Pipeline.Value

noncomputable section

namespace Cert.Rows

open Idealize.ShloMosaic

abbrev SBlk (n : Nat) : Shape := ⟨3, ![n, 2, 512]⟩
abbrev SRow (n : Nat) : Shape := ⟨3, ![n, 1, 512]⟩

/-- The row index (r, 0, d) of a block index (r, b, d). -/
def rowOf {n : Nat} (i : (SBlk n).Idx) : (SRow n).Idx := fun k => match k with
  | ⟨0, _⟩ => ⟨(i 0).val, (i 0).isLt⟩
  | ⟨1, _⟩ => ⟨0, Nat.one_pos⟩
  | ⟨2, _⟩ => ⟨(i 2).val, (i 2).isLt⟩

/-- Two batch rows side by side: entry (r, b, d) is A's at b = 0 and B's at b = 1. -/
def merge2 {α : Type} {n : Nat} (A B : (SRow n).Idx → α) : (SBlk n).Idx → α := fun i =>
  if (i 1).val = 0 then A (rowOf i) else B (rowOf i)

theorem updateSlice_rows {α : Type} {n : Nat} (d : (SBlk n).Idx → α) (A B : (SRow n).Idx → α)
    (h0 : (SBlk n).Slices ![0, 0, 0] (SRow n)) (h1 : (SBlk n).Slices ![0, 1, 0] (SRow n)) :
    updateSlice (updateSlice d A ![0, 0, 0] h0) B ![0, 1, 0] h1 = merge2 A B := by
  funext i
  have hi0 : (i 0).val < n := (i 0).isLt
  have hi1 : (i 1).val < 2 := (i 1).isLt
  have hi2 : (i 2).val < 512 := (i 2).isLt
  unfold merge2
  by_cases hb : (i 1).val = 0
  · rw [if_pos hb]
    unfold updateSlice
    rw [dif_neg (fun h => by have := (h 1).1; have e : (![0, 1, 0] : Fin 3 → Nat) 1 = 1 := rfl; rw [e] at this; omega)]
    rw [dif_pos (fun a => by
      match a with
      | ⟨0, _⟩ => exact ⟨Nat.zero_le _, by show (i 0).val < 0 + n; omega⟩
      | ⟨1, _⟩ => exact ⟨Nat.zero_le _, by show (i 1).val < 0 + 1; omega⟩
      | ⟨2, _⟩ => exact ⟨Nat.zero_le _, by show (i 2).val < 0 + 512; omega⟩)]
    refine congrArg A (funext fun k => Fin.ext ?_)
    match k with
    | ⟨0, _⟩ => rfl
    | ⟨1, _⟩ => exact hb
    | ⟨2, _⟩ => rfl
  · rw [if_neg hb]
    unfold updateSlice
    rw [dif_pos (fun a => by
      match a with
      | ⟨0, _⟩ => exact ⟨Nat.zero_le _, by show (i 0).val < 0 + n; omega⟩
      | ⟨1, _⟩ => exact ⟨by show 1 ≤ (i 1).val; omega, by show (i 1).val < 1 + 1; omega⟩
      | ⟨2, _⟩ => exact ⟨Nat.zero_le _, by show (i 2).val < 0 + 512; omega⟩)]
    refine congrArg B (funext fun k => Fin.ext ?_)
    match k with
    | ⟨0, _⟩ => rfl
    | ⟨1, _⟩ => show (i 1).val - 1 = 0; omega
    | ⟨2, _⟩ => rfl

theorem zero3 : (![0, 0, 0] : Fin 3 → Nat) = fun _ => 0 := by
  funext a; match a with | ⟨0, _⟩ => rfl | ⟨1, _⟩ => rfl | ⟨2, _⟩ => rfl

theorem mem_all {n : Nat} (inb : ∀ a, (![0, 0, 0] : Fin (SBlk n).rank → Nat) a + (SBlk n).size a ≤ (SBlk n).size a) (y : (SBlk n).Idx) :
    y ∈ (Rect.unit (s := SBlk n) ![0, 0, 0] (SBlk n).size inb).set := by
  have h := zero3
  revert inb; rw [show (![0, 0, 0] : Fin (SBlk n).rank → Nat) = fun _ => 0 from zero3]; intro inb
  show y ∈ (Rect.whole (SBlk n)).set; rw [Rect.set_whole]; exact Finset.mem_univ y

/-- A store through the whole rectangle, last, leaves its payload whatever came before. -/
theorem read_last_whole {Val : EltTy → Type} [∀ e, Nonempty (Val e)] {sig : RefSig} {κ : Kind} {sp : Space} {e : EltTy} {n : Nat}
    (v : View sig κ sp (SBlk n) e) (f : v.ty.Contents Val)
    (inb : ∀ a, (![0, 0, 0] : Fin (SBlk n).rank → Nat) a + (SBlk n).size a ≤ (SBlk n).size a)
    (W : (SBlk n).Idx → Val e) (L : List (View.Piece Val (SBlk n) e)) :
    v.read Val (v.writes Val f ((⟨Rect.unit (s := SBlk n) ![0, 0, 0] (SBlk n).size inb, W⟩ : View.Piece Val (SBlk n) e) :: L)) = W := by
  have hc : ∀ y, ∃ p ∈ ((⟨Rect.unit (s := SBlk n) ![0, 0, 0] (SBlk n).size inb, W⟩ : View.Piece Val (SBlk n) e) :: L), y ∈ p.1.set :=
    fun y => ⟨⟨Rect.unit (s := SBlk n) ![0, 0, 0] (SBlk n).size inb, W⟩, List.mem_cons_self, mem_all inb y⟩
  rw [View.read_writes_eq_canon v f _ hc]
  exact View.canon_cons_unit_zero (S := SBlk n) zero3 inb W L

/-- The block after the two stores, read through any view of it over any prior contents. -/
theorem read_two_rows {Val : EltTy → Type} [∀ e, Nonempty (Val e)] {sig : RefSig} {κ : Kind} {sp : Space} {e : EltTy} {n : Nat}
    (v : View sig κ sp (SBlk n) e) (f : v.ty.Contents Val) (old : (SBlk n).Idx → Val e) (A B : (SRow n).Idx → Val e)
    (inb : ∀ a, (![0, 0, 0] : Fin (SBlk n).rank → Nat) a + (SBlk n).size a ≤ (SBlk n).size a)
    (h0 : (SBlk n).Slices ![0, 0, 0] (SRow n)) (h1 : (SBlk n).Slices ![0, 1, 0] (SRow n)) :
    v.read Val (v.writes Val f
      [⟨Rect.unit (s := SBlk n) ![0, 0, 0] (SBlk n).size inb,
          updateSlice (v.readCov [⟨Rect.unit (s := SBlk n) ![0, 0, 0] (SBlk n).size inb, updateSlice old A ![0, 0, 0] h0⟩]
            (Rect.unit (s := SBlk n) ![0, 0, 0] (SBlk n).size inb).toLoadRect) B ![0, 1, 0] h1⟩,
        ⟨Rect.unit (s := SBlk n) ![0, 0, 0] (SBlk n).size inb, updateSlice old A ![0, 0, 0] h0⟩])
      = merge2 A B := by
  refine (read_last_whole v f inb _ _).trans ?_
  have h1' := View.readCov_unit_zero (S := SBlk n) v zero3 inb (updateSlice old A ![0, 0, 0] h0)
  rw [h1']
  exact updateSlice_rows old A B h0 h1

/-! ## Two row stores, one per batch row -/

section RowStores

variable {Val : EltTy → Type} [∀ e, Nonempty (Val e)] {e : EltTy} {n : Nat}
variable (inb : ∀ a, (![0, 0, 0] : Fin (SBlk n).rank → Nat) a + (SBlk n).size a ≤ (SBlk n).size a)
  (inb0 : ∀ a, (![0, 0, 0] : Fin (SBlk n).rank → Nat) a + (SRow n).size a ≤ (SBlk n).size a)
  (inb1 : ∀ a, (![0, 1, 0] : Fin (SBlk n).rank → Nat) a + (SRow n).size a ≤ (SBlk n).size a)

/-- The rectangle of batch row 0, of batch row 1, and the whole block. -/
abbrev R0 : Rect (SBlk n) := Rect.unit (s := SBlk n) ![0, 0, 0] (SRow n).size inb0
abbrev R1 : Rect (SBlk n) := Rect.unit (s := SBlk n) ![0, 1, 0] (SRow n).size inb1
abbrev RA : Rect (SBlk n) := Rect.unit (s := SBlk n) ![0, 0, 0] (SBlk n).size inb

theorem emb_row0 (i : (SBlk n).Idx) (hb : (i 1).val = 0) : (R0 inb0).emb (rowOf i) = i := by
  funext a; apply Fin.ext
  match a with
  | ⟨0, _⟩ => show 0 + 1 * (i 0).val = (i 0).val; omega
  | ⟨1, _⟩ => show 0 + 1 * 0 = (i 1).val; omega
  | ⟨2, _⟩ => show 0 + 1 * (i 2).val = (i 2).val; omega

theorem emb_row1 (i : (SBlk n).Idx) (hb : (i 1).val ≠ 0) : (R1 inb1).emb (rowOf i) = i := by
  have hi1 : (i 1).val < 2 := (i 1).isLt
  funext a; apply Fin.ext
  match a with
  | ⟨0, _⟩ => show 0 + 1 * (i 0).val = (i 0).val; omega
  | ⟨1, _⟩ => show 1 + 1 * 0 = (i 1).val; omega
  | ⟨2, _⟩ => show 0 + 1 * (i 2).val = (i 2).val; omega

theorem not_mem_row1 (i : (SBlk n).Idx) (hb : (i 1).val = 0) : i ∉ (R1 inb1).set := by
  intro hm
  have h := (Rect.mem_set_unit (s := SBlk n) (off := ![0, 1, 0]) (size := (SRow n).size) (inb := inb1) (i := i)).mp hm
  have h1 := (h 1).1
  have : 1 ≤ (i 1).val := h1
  omega

theorem mem_row0 (i : (SBlk n).Idx) (hb : (i 1).val = 0) : i ∈ (R0 inb0).set := by
  have hi0 : (i 0).val < n := (i 0).isLt
  have hi2 : (i 2).val < 512 := (i 2).isLt
  refine (Rect.mem_set_unit (s := SBlk n) (off := ![0, 0, 0]) (size := (SRow n).size) (inb := inb0) (i := i)).mpr fun a => ?_
  match a with
  | ⟨0, _⟩ => exact ⟨Nat.zero_le _, by show (i 0).val < 0 + n; omega⟩
  | ⟨1, _⟩ => exact ⟨Nat.zero_le _, by show (i 1).val < 0 + 1; omega⟩
  | ⟨2, _⟩ => exact ⟨Nat.zero_le _, by show (i 2).val < 0 + 512; omega⟩

theorem mem_row1 (i : (SBlk n).Idx) (hb : (i 1).val ≠ 0) : i ∈ (R1 inb1).set := by
  have hi0 : (i 0).val < n := (i 0).isLt
  have hi1 : (i 1).val < 2 := (i 1).isLt
  have hi2 : (i 2).val < 512 := (i 2).isLt
  refine (Rect.mem_set_unit (s := SBlk n) (off := ![0, 1, 0]) (size := (SRow n).size) (inb := inb1) (i := i)).mpr fun a => ?_
  match a with
  | ⟨0, _⟩ => exact ⟨Nat.zero_le _, by show (i 0).val < 0 + n; omega⟩
  | ⟨1, _⟩ => exact ⟨by show 1 ≤ (i 1).val; omega, by show (i 1).val < 1 + 1; omega⟩
  | ⟨2, _⟩ => exact ⟨Nat.zero_le _, by show (i 2).val < 0 + 512; omega⟩

/-- The row-1 rectangle misses the row-0 rectangle. -/
theorem row1_not_mem_row0 (j : (SRow n).Idx) : (R1 inb1).emb j ∉ (R0 inb0).set := by
  intro hm
  have h := (Rect.mem_set_unit (s := SBlk n) (off := ![0, 0, 0]) (size := (SRow n).size) (inb := inb0) (i := (R1 inb1).emb j)).mp hm
  have h1 := (h 1).2
  have : 1 + 1 * (j 1).val < 0 + 1 := h1
  omega

/-- Row 1 stored after row 0 (whatever was stored before): the block holds X at batch 0 and Y at batch 1. -/
theorem canon_rows (X Y : (SRow n).Idx → Val e) (L : List (View.Piece Val (SBlk n) e)) :
    View.canon ((⟨R1 inb1, Y⟩ : View.Piece Val (SBlk n) e) :: (⟨R0 inb0, X⟩ : View.Piece Val (SBlk n) e) :: L) = merge2 X Y := by
  funext i
  unfold merge2
  by_cases hb : (i 1).val = 0
  · rw [if_pos hb]
    refine (View.canon_cons_of_not_mem (⟨R1 inb1, Y⟩ : View.Piece Val (SBlk n) e) ((⟨R0 inb0, X⟩ : View.Piece Val (SBlk n) e) :: L)
      (not_mem_row1 inb1 i hb)).trans ?_
    have h := View.canon_cons_emb (R0 inb0) X L (rowOf i)
    rwa [emb_row0 inb0 i hb] at h
  · rw [if_neg hb]
    have h := View.canon_cons_emb (R1 inb1) Y ((⟨R0 inb0, X⟩ : View.Piece Val (SBlk n) e) :: L) (rowOf i)
    rwa [emb_row1 inb1 i hb] at h

theorem cover_rows (X Y : (SRow n).Idx → Val e) (L : List (View.Piece Val (SBlk n) e)) (y : (SBlk n).Idx) :
    ∃ p ∈ ((⟨R1 inb1, Y⟩ : View.Piece Val (SBlk n) e) :: (⟨R0 inb0, X⟩ : View.Piece Val (SBlk n) e) :: L), y ∈ p.1.set := by
  by_cases hb : (y 1).val = 0
  · exact ⟨(⟨R0 inb0, X⟩ : View.Piece Val (SBlk n) e), List.mem_cons_of_mem _ List.mem_cons_self, mem_row0 inb0 y hb⟩
  · exact ⟨(⟨R1 inb1, Y⟩ : View.Piece Val (SBlk n) e), List.mem_cons_self, mem_row1 inb1 y hb⟩

variable {sig : RefSig} {κ : Kind} {sp : Space}

/-- Read through any view over any prior contents. -/
theorem read_rows (v : View sig κ sp (SBlk n) e) (f : v.ty.Contents Val) (X Y : (SRow n).Idx → Val e) (L : List (View.Piece Val (SBlk n) e)) :
    v.read Val (v.writes Val f ((⟨R1 inb1, Y⟩ : View.Piece Val (SBlk n) e) :: (⟨R0 inb0, X⟩ : View.Piece Val (SBlk n) e) :: L)) = merge2 X Y :=
  (View.read_writes_eq_canon v f _ (cover_rows inb0 inb1 X Y L)).trans (canon_rows inb0 inb1 X Y L)

/-- A load of the whole block after the two row stores. -/
theorem readCov_rows (v : View sig κ sp (SBlk n) e) (X Y : (SRow n).Idx → Val e) :
    v.readCov [(⟨R1 inb1, Y⟩ : View.Piece Val (SBlk n) e), (⟨R0 inb0, X⟩ : View.Piece Val (SBlk n) e)] (RA inb).toLoadRect = merge2 X Y :=
  (View.readCov_eq_canon_ld v [(⟨R1 inb1, Y⟩ : View.Piece Val (SBlk n) e), (⟨R0 inb0, X⟩ : View.Piece Val (SBlk n) e)] (RA inb)
    (cover_rows inb0 inb1 X Y [])).trans
    ((congrArg (fun Z => View.ld Z (RA inb)) (canon_rows inb0 inb1 X Y [])).trans (View.ld_unit_zero (S := SBlk n) zero3 inb _))

/-- A load of batch row 0 after a store of the whole block reads the stored block's row 0. -/
theorem readCov_row0_of_all (v : View sig κ sp (SBlk n) e) (Z : (SBlk n).Idx → Val e) :
    v.readCov [(⟨RA inb, Z⟩ : View.Piece Val (SBlk n) e)] (R0 inb0).toLoadRect = View.ld Z (R0 inb0) :=
  (View.readCov_eq_canon_ld v [(⟨RA inb, Z⟩ : View.Piece Val (SBlk n) e)] (R0 inb0)
    (fun y => ⟨(⟨RA inb, Z⟩ : View.Piece Val (SBlk n) e), List.mem_singleton_self _, mem_all inb y⟩)).trans
    (congrArg (fun W => View.ld W (R0 inb0)) (View.canon_unit_zero (S := SBlk n) zero3 inb Z))

/-- A load of batch row 1 after a store of row 0 after a store of the whole block reads the whole block's row 1. -/
theorem readCov_row1_of_row0_all (v : View sig κ sp (SBlk n) e) (X : (SRow n).Idx → Val e) (Z : (SBlk n).Idx → Val e) :
    v.readCov [(⟨R0 inb0, X⟩ : View.Piece Val (SBlk n) e), (⟨RA inb, Z⟩ : View.Piece Val (SBlk n) e)] (R1 inb1).toLoadRect
      = View.ld Z (R1 inb1) := by
  refine (View.readCov_eq_canon' v [(⟨R0 inb0, X⟩ : View.Piece Val (SBlk n) e), (⟨RA inb, Z⟩ : View.Piece Val (SBlk n) e)] (R1 inb1).toLoadRect).trans ?_
  funext j
  show View.canon [(⟨R0 inb0, X⟩ : View.Piece Val (SBlk n) e), (⟨RA inb, Z⟩ : View.Piece Val (SBlk n) e)] ((R1 inb1).emb j) = Z ((R1 inb1).emb j)
  refine (View.canon_cons_of_not_mem (⟨R0 inb0, X⟩ : View.Piece Val (SBlk n) e) [(⟨RA inb, Z⟩ : View.Piece Val (SBlk n) e)]
    (row1_not_mem_row0 inb0 inb1 j)).trans ?_
  exact congrFun (View.canon_unit_zero (S := SBlk n) zero3 inb Z) _

/-- The block reset to Z, then row 0 stored as a function FX of the row-0 total read back, then row 1 as a function FY of the
    row-1 total read back: it ends holding FX of Z's row 0 at batch 0 and FY of Z's row 1 at batch 1. -/
theorem read_reset_rows (v : View sig κ sp (SBlk n) e) (f : v.ty.Contents Val) (Z : (SBlk n).Idx → Val e)
    (FX FY : ((SRow n).Idx → Val e) → (SRow n).Idx → Val e) :
    v.read Val (v.writes Val f
      [(⟨R1 inb1, FY (v.readCov [(⟨R0 inb0, FX (v.readCov [(⟨RA inb, Z⟩ : View.Piece Val (SBlk n) e)] (R0 inb0).toLoadRect)⟩ : View.Piece Val (SBlk n) e),
            (⟨RA inb, Z⟩ : View.Piece Val (SBlk n) e)] (R1 inb1).toLoadRect)⟩ : View.Piece Val (SBlk n) e),
        (⟨R0 inb0, FX (v.readCov [(⟨RA inb, Z⟩ : View.Piece Val (SBlk n) e)] (R0 inb0).toLoadRect)⟩ : View.Piece Val (SBlk n) e),
        (⟨RA inb, Z⟩ : View.Piece Val (SBlk n) e)])
      = merge2 (FX (View.ld Z (R0 inb0))) (FY (View.ld Z (R1 inb1))) := by
  have e0 := readCov_row0_of_all inb inb0 v Z
  have e1 := readCov_row1_of_row0_all inb inb0 inb1 v (FX (v.readCov [(⟨RA inb, Z⟩ : View.Piece Val (SBlk n) e)] (R0 inb0).toLoadRect)) Z
  rw [e1, e0]
  exact read_rows inb0 inb1 v f _ _ _

end RowStores

end Cert.Rows

end
-- ==== Proof.K_Region0.lean ====
import proofs.«180238_j18949395710129_2_alg».proof.Proof.Gen.Kernel.Launch
import proofs.«180238_j18949395710129_2_alg».proof.Proof.Gen.Kernel.Skeleton
import proofs.«180238_j18949395710129_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180238_j18949395710129_2_alg».proof.Proof.LibRows2
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection region (the first kernel launch), at the contents V the region is entered with

Each grid point takes 1024 positions of query, key and value (both batch rows) and the three weight matrices and
biases whole, and leaves in each of three output blocks the projection of its input block: batch row 0 and batch
row 1 stored one after the other through the block's whole rectangle. -/

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rb0 : Rect S1024x2x512 := Rect.unit (s := S1024x2x512) ![0, 0, 0] S1024x1x512.size inb_S1024x2x512_S1024x1x512_0_0_0
abbrev rb1 : Rect S1024x2x512 := Rect.unit (s := S1024x2x512) ![0, 1, 0] S1024x1x512.size inb_S1024x2x512_S1024x1x512_0_1_0
abbrev rW : Rect S512x512 := Rect.unit (s := S512x512) ![0, 0] S512x512.size inb_S512x512_S512x512_0_0
abbrev rB : Rect S1x512 := Rect.unit (s := S1x512) ![0, 0] S1x512.size inb_S1x512_S1x512_0_0

/-! ## What the body leaves in each output block: the two batch rows' projections side by side -/

def outQ (x : Vec F S1024x2x512 .f32) (w : Vec F S512x512 .f32) (b : Vec F S1x512 .f32) : Vec F S1024x2x512 .bf16 :=
  Cert.Rows.merge2 (n := 1024) (k0_pay12 (k0_pay11 (View.ld w rW) (View.ld b rB) (View.ld x rb0)))
    (k0_pay16 (k0_pay3 (View.ld w rW)) (k0_pay6 (View.ld b rB)) (View.ld x rb1))
def outK (x : Vec F S1024x2x512 .f32) (w : Vec F S512x512 .f32) (b : Vec F S1x512 .f32) : Vec F S1024x2x512 .bf16 :=
  Cert.Rows.merge2 (n := 1024) (k0_pay13 (k0_pay9 (View.ld w rW) (View.ld b rB) (View.ld x rb0)))
    (k0_pay1 (k0_pay17 (k0_pay4 (View.ld w rW)) (k0_pay7 (View.ld b rB)) (View.ld x rb1)))
def outV (x : Vec F S1024x2x512 .f32) (w : Vec F S512x512 .f32) (b : Vec F S1x512 .f32) : Vec F S1024x2x512 .bf16 :=
  Cert.Rows.merge2 (n := 1024) (k0_pay14 (k0_pay10 (View.ld w rW) (View.ld b rB) (View.ld x rb0)))
    (k0_pay2 (k0_pay15 (k0_pay5 (View.ld w rW)) (k0_pay8 (View.ld b rB)) (View.ld x rb1)))

/-! ## The body's triple -/

set_option maxHeartbeats 4000000 in
/-- On whole staging memrefs, the inputs' at contents x and the outputs' at anything, the body runs to the continuation
    holding the inputs' as they were and the three outputs' at the projections of the inputs. -/
theorem sound_kernel0 (c : Dev nD) (E : Set ℕ) (i : grid0.Coords)
    (arg1 : Memref sig .tc .vmem S1024x2x512 .f32) (harg1 : arg1.IsWhole) (arg2 : Memref sig .tc .vmem S1024x2x512 .f32) (harg2 : arg2.IsWhole) (arg3 : Memref sig .tc .vmem S1024x2x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1024x2x512 .bf16) (harg10 : arg10.IsWhole) (arg11 : Memref sig .tc .vmem S1024x2x512 .bf16) (harg11 : arg11.IsWhole) (arg12 : Memref sig .tc .vmem S1024x2x512 .bf16) (harg12 : arg12.IsWhole)
    (x1 x2 x3 : Vec F S1024x2x512 .f32) (x4 : Vec F S512x512 .f32) (x5 : Vec F S1x512 .f32) (x6 : Vec F S512x512 .f32) (x7 : Vec F S1x512 .f32) (x8 : Vec F S512x512 .f32) (x9 : Vec F S1x512 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (outQ x1 x4 x5) ∗ owns (c : Thread nD τ) arg11 fullShare (outK x2 x6 x7) ∗ owns (c : Thread nD τ) arg12 fullShare (outV x3 x8 x9)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12) K := by
  simp only [cc0__proj_kernel_eq_skeleton, k0_part1_eq_skeleton, k0_part2_eq_skeleton]; unfold cc0__proj_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf1 hf2 hf3 hf4 hf5 hf6 hf7 hf8 hf9
  sl_exec
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact Cert.Rows.read_two_rows (n := 1024) _ _ _ _ _ _ _ _
  isplitl [H11]
  · iexists _; isplitr
    swap; · iexact H11
    ipureintro
    exact Cert.Rows.read_two_rows (n := 1024) _ _ _ _ _ _ _ _
  iexists _; isplitr
  swap; · iexact H12
  ipureintro
  exact Cert.Rows.read_two_rows (n := 1024) _ _ _ _ _ _ _ _

/-! ## The pipeline's proof data -/

/-- The proof data of the projection pipeline on core c: the arrays as the region finds them; after the body at point t
    each input's buffer at its block and each output's at the projection of the point's input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => outQ (iblk0 V c 0 t) (iblk0 V c 3 t) (iblk0 V c 4 t)
    | ⟨10, _⟩ => outK (iblk0 V c 1 t) (iblk0 V c 5 t) (iblk0 V c 6 t)
    | ⟨11, _⟩ => outV (iblk0 V c 2 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = outQ (iblk0 V c 0 t) (iblk0 V c 3 t) (iblk0 V c 4 t) := by dsimp only [dat0]
theorem after0_10 (c : Dev nD) (t : Fin cfg0.N) : (dat0 V c).after 10 t = outK (iblk0 V c 1 t) (iblk0 V c 5 t) (iblk0 V c 6 t) := by dsimp only [dat0]
theorem after0_11 (c : Dev nD) (t : Fin cfg0.N) : (dat0 V c).after 11 t = outV (iblk0 V c 2 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K_Region1.lean ====
import proofs.«180238_j18949395710129_2_alg».proof.Proof.Gen.Kernel.Launch
import proofs.«180238_j18949395710129_2_alg».proof.Proof.Gen.Kernel.Skeleton
import proofs.«180238_j18949395710129_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180238_j18949395710129_2_alg».proof.Proof.LibRows2
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region (the second kernel launch), at the contents V the region is entered with

The grid is 2 x 4: for each of two blocks of 2048 query positions the four blocks of 1024 key positions are visited in
turn. A scratch block carries the running total: reset to zero at the first key block, increased at every key block by
that block's tanh-weighted values (batch row 0, then batch row 1), and at the last key block the output block is
stored as gamma times the total plus the value block. -/

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, decided over the grid -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The body's accesses -/

abbrev qb0 : Rect S2048x2x512 := Rect.unit (s := S2048x2x512) ![0, 0, 0] S2048x1x512.size inb_S2048x2x512_S2048x1x512_0_0_0
abbrev qb1 : Rect S2048x2x512 := Rect.unit (s := S2048x2x512) ![0, 1, 0] S2048x1x512.size inb_S2048x2x512_S2048x1x512_0_1_0
abbrev qAll : Rect S2048x2x512 := Rect.unit (s := S2048x2x512) ![0, 0, 0] S2048x2x512.size inb_S2048x2x512_S2048x2x512_0_0_0
abbrev kb0 : Rect S1024x2x512 := Rect.unit (s := S1024x2x512) ![0, 0, 0] S1024x1x512.size inb_S1024x2x512_S1024x1x512_0_0_0
abbrev kb1 : Rect S1024x2x512 := Rect.unit (s := S1024x2x512) ![0, 1, 0] S1024x1x512.size inb_S1024x2x512_S1024x1x512_0_1_0
abbrev rG : Rect S1x1 := Rect.unit (s := S1x1) ![0, 0] S1x1.size inb_S1x1_S1x1_0_0

/-- One key block's step on the running total S: each batch row's total plus that row's tanh-weighted values. -/
def accStep (S : Vec F S2048x2x512 .f32) (q : Vec F S2048x2x512 .bf16) (k v : Vec F S1024x2x512 .bf16) : Vec F S2048x2x512 .f32 :=
  Cert.Rows.merge2 (n := 2048) (k1_pay5 (View.ld q qb0) (View.ld k kb0) (View.ld v kb0) (View.ld S qb0))
    (k1_pay1 (k1_pay6 (View.ld q qb1)) (k1_pay7 (View.ld k kb1)) (View.ld v kb1) (View.ld S qb1))

/-- The output block: gamma times the total plus the value block. -/
def outFinal (g : Vec F S1x1 .f32) (S : Vec F S2048x2x512 .f32) (val : Vec F S2048x2x512 .f32) : Vec F S2048x2x512 .f32 :=
  k1_pay2 (k1_pay4 (View.ld g rG)) S (View.ld val qAll)

/-! ## The body's triple, case by case -/

set_option maxHeartbeats 4000000 in
theorem kernel1_A (c : Dev nD) (E : Set ℕ) (i : grid1.Coords)
    (arg2 : Memref sig .tc .vmem S2048x2x512 .bf16) (harg2 : arg2.IsWhole) (arg3 : Memref sig .tc .vmem S1024x2x512 .bf16) (harg3 : arg3.IsWhole) (arg4 : Memref sig .tc .vmem S1024x2x512 .bf16) (harg4 : arg4.IsWhole) (arg5 : Memref sig .tc .vmem S2048x2x512 .f32) (harg5 : arg5.IsWhole) (arg6 : Memref sig .tc .vmem S1x1 .f32) (harg6 : arg6.IsWhole) (arg7 : Memref sig .tc .vmem S2048x2x512 .f32) (harg7 : arg7.IsWhole) (arg8 : Memref sig .tc .vmem S2048x2x512 .f32) (harg8 : arg8.IsWhole)
    (hc0 : cond1_0 i) (hc1 : ¬cond1_1 i)
    (x2 : Vec F S2048x2x512 .bf16) (x3 x4 : Vec F S1024x2x512 .bf16) (x5 : Vec F S2048x2x512 .f32) (x6 : Vec F S1x1 .f32) (x7 : Vec F S2048x2x512 .f32)
    (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg7 fullShare x7 ∗ (∃ d, owns (c : Thread nD τ) arg8 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare (accStep k1_pay3 x2 x3 x4)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton, k1_part1_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf2 hf3 hf4 hf5 hf6 hf7
  sl_exec (disch := first | exact hc0 | exact hc1)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact Cert.Rows.read_reset_rows (n := 2048) inb_S2048x2x512_S2048x2x512_0_0_0 inb_S2048x2x512_S2048x1x512_0_0_0 inb_S2048x2x512_S2048x1x512_0_1_0 arg8.view f8 k1_pay3
    (fun s => k1_pay5 (View.ld (arg2.view.read (Elt F) f2) qb0) (View.ld (arg3.view.read (Elt F) f3) kb0) (View.ld (arg4.view.read (Elt F) f4) kb0) s)
    (fun s => k1_pay1 (k1_pay6 (View.ld (arg2.view.read (Elt F) f2) qb1)) (k1_pay7 (View.ld (arg3.view.read (Elt F) f3) kb1)) (View.ld (arg4.view.read (Elt F) f4) kb1) s)

set_option maxHeartbeats 4000000 in
theorem kernel1_B (c : Dev nD) (E : Set ℕ) (i : grid1.Coords)
    (arg2 : Memref sig .tc .vmem S2048x2x512 .bf16) (harg2 : arg2.IsWhole) (arg3 : Memref sig .tc .vmem S1024x2x512 .bf16) (harg3 : arg3.IsWhole) (arg4 : Memref sig .tc .vmem S1024x2x512 .bf16) (harg4 : arg4.IsWhole) (arg5 : Memref sig .tc .vmem S2048x2x512 .f32) (harg5 : arg5.IsWhole) (arg6 : Memref sig .tc .vmem S1x1 .f32) (harg6 : arg6.IsWhole) (arg7 : Memref sig .tc .vmem S2048x2x512 .f32) (harg7 : arg7.IsWhole) (arg8 : Memref sig .tc .vmem S2048x2x512 .f32) (harg8 : arg8.IsWhole)
    (hc0 : ¬cond1_0 i) (hc1 : ¬cond1_1 i)
    (x2 : Vec F S2048x2x512 .bf16) (x3 x4 : Vec F S1024x2x512 .bf16) (x5 : Vec F S2048x2x512 .f32) (x6 : Vec F S1x1 .f32) (x7 x8 : Vec F S2048x2x512 .f32)
    (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare (accStep x8 x2 x3 x4)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton, k1_part1_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  sl_exec (disch := first | exact hc0 | exact hc1)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact Cert.Rows.read_rows (n := 2048) inb_S2048x2x512_S2048x1x512_0_0_0 inb_S2048x2x512_S2048x1x512_0_1_0 arg8.view f8 _ _ _

set_option maxHeartbeats 4000000 in
theorem kernel1_C (c : Dev nD) (E : Set ℕ) (i : grid1.Coords)
    (arg2 : Memref sig .tc .vmem S2048x2x512 .bf16) (harg2 : arg2.IsWhole) (arg3 : Memref sig .tc .vmem S1024x2x512 .bf16) (harg3 : arg3.IsWhole) (arg4 : Memref sig .tc .vmem S1024x2x512 .bf16) (harg4 : arg4.IsWhole) (arg5 : Memref sig .tc .vmem S2048x2x512 .f32) (harg5 : arg5.IsWhole) (arg6 : Memref sig .tc .vmem S1x1 .f32) (harg6 : arg6.IsWhole) (arg7 : Memref sig .tc .vmem S2048x2x512 .f32) (harg7 : arg7.IsWhole) (arg8 : Memref sig .tc .vmem S2048x2x512 .f32) (harg8 : arg8.IsWhole)
    (hc0 : ¬cond1_0 i) (hc1 : cond1_1 i)
    (x2 : Vec F S2048x2x512 .bf16) (x3 x4 : Vec F S1024x2x512 .bf16) (x5 : Vec F S2048x2x512 .f32) (x6 : Vec F S1x1 .f32) (x8 : Vec F S2048x2x512 .f32)
    (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ owns (c : Thread nD τ) arg8 fullShare x8
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (outFinal x6 (accStep x8 x2 x3 x4) x5) ∗ owns (c : Thread nD τ) arg8 fullShare (accStep x8 x2 x3 x4)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton, k1_part1_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf2 hf3 hf4 hf5 hf6 hf8
  sl_exec (disch := first | exact hc0 | exact hc1)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (Cert.Rows.read_last_whole (n := 2048) arg7.view f7 inb_S2048x2x512_S2048x2x512_0_0_0 _ []).trans ?_
    rw [Cert.Rows.readCov_rows (n := 2048) inb_S2048x2x512_S2048x2x512_0_0_0 inb_S2048x2x512_S2048x1x512_0_0_0 inb_S2048x2x512_S2048x1x512_0_1_0 arg8.view _ _]
    rfl
  iexists _; isplitr
  swap; · iexact H8
  ipureintro
  exact Cert.Rows.read_rows (n := 2048) inb_S2048x2x512_S2048x1x512_0_0_0 inb_S2048x2x512_S2048x1x512_0_1_0 arg8.view f8 _ _ _

/-! ## What the scratch holds after each point -/

/-- The running total after point n: restarted from zero at a first key block, else stepped from the point before. -/
def accAt (c : Dev nD) : (n : ℕ) → n < cfg1.N → Vec F S2048x2x512 .f32
  | 0, h => accStep k1_pay3 (iblk1 V c 0 ⟨0, h⟩) (iblk1 V c 1 ⟨0, h⟩) (iblk1 V c 2 ⟨0, h⟩)
  | n + 1, h =>
    if (n + 1) % 4 = 0 then accStep k1_pay3 (iblk1 V c 0 ⟨n + 1, h⟩) (iblk1 V c 1 ⟨n + 1, h⟩) (iblk1 V c 2 ⟨n + 1, h⟩)
    else accStep (accAt c n (Nat.lt_of_succ_lt h)) (iblk1 V c 0 ⟨n + 1, h⟩) (iblk1 V c 1 ⟨n + 1, h⟩) (iblk1 V c 2 ⟨n + 1, h⟩)

theorem accAt_reset (c : Dev nD) (t : Fin cfg1.N) (h0 : t.val % 4 = 0) :
    accAt V c t.val t.isLt = accStep k1_pay3 (iblk1 V c 0 t) (iblk1 V c 1 t) (iblk1 V c 2 t) := by
  obtain ⟨n, hn⟩ := t
  cases n with
  | zero => rfl
  | succ n => exact if_pos h0

theorem accAt_step (c : Dev nD) (t : Fin cfg1.N) (h0 : ¬t.val % 4 = 0) :
    accAt V c t.val t.isLt = accStep (accAt V c (t.val - 1) (Nat.lt_of_le_of_lt (Nat.sub_le _ _) t.isLt)) (iblk1 V c 0 t) (iblk1 V c 1 t) (iblk1 V c 2 t) := by
  obtain ⟨n, hn⟩ := t
  cases n with
  | zero => exact absurd (Nat.zero_mod _) h0
  | succ n => exact if_neg h0

/-! ## The region invariant: the scoped buffers no window stages, the scratch among them at the running total -/

abbrev scM1 : Memref sig .tc .vmem S2048x2x512 .f32 := Memref.whole cc1_scratch0

/-- The core's scoped buffers that are no staging buffer of this launch, the scratch apart: each at some contents;
    and P for the scratch. -/
def scoped1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ P)

theorem scoped1_out (c : Dev nD) (P : sProp 𝕄) : scoped1 c P ⊢ iprop(scoped1 c iprop(emp) ∗ P) := by
  unfold scoped1
  iintro ⟨T0, T1, T2, T3, T4, T5, T6, T7, T8, T9, T10, T11, T12, T13, T14, T15, T16, T17, HP⟩
  isplitr [HP]
  · isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    iempintro
  · iexact HP

theorem scoped1_in (c : Dev nD) (P : sProp 𝕄) : iprop(scoped1 c iprop(emp) ∗ P) ⊢ scoped1 c P := by
  unfold scoped1
  iintro ⟨⟨T0, T1, T2, T3, T4, T5, T6, T7, T8, T9, T10, T11, T12, T13, T14, T15, T16, T17, -⟩, HP⟩
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  iexact HP

theorem PhiA1_eq (c : Dev nD) :
    (Pipeline.ΦA spec1 c : sProp 𝕄) = iprop(scoped1 c (iprop(∃ d, owns (c : Thread nD τ) scM1 fullShare d)) ∗ (∃ r, prngReg c r)) := by
  unfold Pipeline.ΦA scoped1; rw [scopedRest1_eq]; simp only [scM1, owns_whole]; try rfl

def PhiS (c : Dev nD) : (n : ℕ) → n ≤ cfg1.N → sProp 𝕄
  | 0, _ => Pipeline.ΦA spec1 c
  | n + 1, hn => iprop(scoped1 c (owns (c : Thread nD τ) scM1 fullShare (accAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scoped1 c (owns (c : Thread nD τ) scM1 fullShare (accAt V c n hn)) ∗ (∃ r, prngReg c r)) := rfl
theorem PhiS_pos (c : Dev nD) (n : ℕ) (h : n ≤ cfg1.N) (hz : n ≠ 0) :
    PhiS V c n h = iprop(scoped1 c (owns (c : Thread nD τ) scM1 fullShare (accAt V c (n - 1) (by omega))) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outFinal (iblk1 V c 4 t) (accAt V c t.val t.isLt) (iblk1 V c 3 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outFinal (iblk1 V c 4 t) (accAt V c t.val t.isLt) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have hN : t.val < 8 := lt_of_lt_of_eq t.isLt (show cfg1.N = 8 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 t hc1) (noFlush1_5 t hc1)]
    rw [accAt_reset V c t h0]
    have hΦ : (dat1 V c).Φ t.castSucc ⊢ iprop(scoped1 c (iprop(∃ d, owns (c : Thread nD τ) scM1 fullShare d)) ∗ (∃ r, prngReg c r)) := by
      by_cases hz : t.val = 0
      · rw [PhiS_castSucc V c t, PhiS_zero V c _ _ hz, PhiA1_eq]
      · rw [PhiS_castSucc V c t, PhiS_pos V c _ _ hz]
        iintro ⟨HS, Hg⟩
        isplitl [HS]
        · ihave HS' := (scoped1_out c _) $$ HS
          icases HS' with ⟨HR, H8⟩
          iapply (scoped1_in c _)
          isplitl [HR]; · iexact HR
          iexists _; iexact H8
        iexact Hg
    iintro ⟨HΦ, Ho, ⟨%d0, H0⟩, ⟨%d1, H1⟩, ⟨%d2, H2⟩, ⟨%d3, H3⟩, ⟨%d4, H4⟩, ⟨%d5, H5⟩⟩
    ihave HΦ' := hΦ $$ HΦ
    icases HΦ' with ⟨HS, Hg⟩
    ihave HS' := (scoped1_out c _) $$ HS
    icases HS' with ⟨HR, H8⟩
    iapply (kernel1_A c Set.univ (grid1.coords t) _ _ _ _ _ _ _ _ _ _ _ _ _ _ hc0 hc1 (iblk1 V c 0 t) (iblk1 V c 1 t) (iblk1 V c 2 t) (iblk1 V c 3 t) (iblk1 V c 4 t) _ _)
    isplitl [H0]; · iexact H0
    isplitl [H1]; · iexact H1
    isplitl [H2]; · iexact H2
    isplitl [H3]; · iexact H3
    isplitl [H4]; · iexact H4
    isplitl [H5]; · iexact H5
    isplitl [H8]; · iexact H8
    iintro ⟨H0, H1, H2, H3, H4, H5, H8⟩
    isplitl [HR H8 Hg]
    · isplitl [HR H8]
      · iapply (scoped1_in c _)
        isplitl [HR]; · iexact HR
        iexact H8
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hc0 : ¬cond1_0 (grid1.coords t) := fun h => h0 ((hcond1_0 t).mp h)
    have hz : t.val ≠ 0 := fun hz => h0 (by rw [hz])
    rw [accAt_step V c t h0]
    rw [PhiS_castSucc V c t, PhiS_pos V c _ _ hz]
    by_cases h1 : t.val % 4 = 3
    · have hc1 : cond1_1 (grid1.coords t) := (hcond1_1 t).mpr h1
      rw [show (dat1 V c).leavesExact 5 t = owns (c : Thread nD τ) (st1_5 t) fullShare ((dat1 V c).after 5 t) from by
        unfold Dat.leavesExact; rw [liveAt1_5 t hc1], after1_5, accAt_step V c t h0]
      iintro ⟨⟨HS, Hg⟩, Ho, ⟨%d0, H0⟩, ⟨%d1, H1⟩, ⟨%d2, H2⟩, ⟨%d3, H3⟩, ⟨%d4, H4⟩, ⟨%d5, H5⟩⟩
      ihave HS' := (scoped1_out c _) $$ HS
      icases HS' with ⟨HR, H8⟩
      iapply (kernel1_C c Set.univ (grid1.coords t) _ _ _ _ _ _ _ _ _ _ _ _ _ _ hc0 hc1 (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [H8]; · iexact H8
      iintro ⟨H0, H1, H2, H3, H4, H5, H8⟩
      isplitl [HR H8 Hg]
      · isplitl [HR H8]
        · iapply (scoped1_in c _)
          isplitl [HR]; · iexact HR
          iexact H8
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h1 ((hcond1_1 t).mp h)
      rw [Dat.leavesExact_idle (dat1 V c) 5 t (idleAt1_5 t hc1) (noFlush1_5 t hc1)]
      iintro ⟨⟨HS, Hg⟩, Ho, ⟨%d0, H0⟩, ⟨%d1, H1⟩, ⟨%d2, H2⟩, ⟨%d3, H3⟩, ⟨%d4, H4⟩, ⟨%d5, H5⟩⟩
      ihave HS' := (scoped1_out c _) $$ HS
      icases HS' with ⟨HR, H8⟩
      iapply (kernel1_B c Set.univ (grid1.coords t) _ _ _ _ _ _ _ _ _ _ _ _ _ _ hc0 hc1 (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexact H5
      isplitl [H8]; · iexact H8
      iintro ⟨H0, H1, H2, H3, H4, H5, H8⟩
      isplitl [HR H8 Hg]
      · isplitl [HR H8]
        · iapply (scoped1_in c _)
          isplitl [HR]; · iexact HR
          iexact H8
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point; -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- after the last point the invariant gives it back, the scratch's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 8 := N_1; omega), PhiA1_eq]
  iintro ⟨HS, Hg⟩
  isplitl [HS]
  · ihave HS' := (scoped1_out c _) $$ HS
    icases HS' with ⟨HR, H8⟩
    iapply (scoped1_in c _)
    isplitl [HR]; · iexact HR
    iexists _; iexact H8
  iexact Hg

end Region1

end Cert.Kernel.Hand

end
-- ==== Proof.K_Frame.lean ====
import proofs.«180238_j18949395710129_2_alg».proof.Proof.Gen.Kernel.Launch
import proofs.«180238_j18949395710129_2_alg».proof.Proof.Gen.Kernel.Skeleton
import proofs.«180238_j18949395710129_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180238_j18949395710129_2_alg».proof.Proof.K_Region0
import proofs.«180238_j18949395710129_2_alg».proof.Proof.K_Region1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: the host reshapes, the projection region, the attention region

The buffer contents at every boundary are a fold from the launch memory: after the four reshapes; then with the
projection region's arrays at what its write-backs leave; then with the attention region's. Every unscoped buffer is
read back off the last of these at the end: the ten arguments as launched, the result at what the attention region's
write-backs leave. -/

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### No host operation and no region writes an argument -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 3).trans (((dat1 (V2 m ρ) c).arrAt_in 3 rfl _).trans (A_eq1 (V2 m ρ) c 3))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 7).trans (((dat0 (V1 m ρ) c).arrAt_in 7 rfl _).trans (A_eq0 (V1 m ρ) c 7))
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Idealize.SL.BI.Entails.refl _).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of @main terminates, nothing faulting, and every final state holds every unscoped
    buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c)⟩) (run_main m ρ)

/-- The result array ends at what the attention region's write-backs leave. -/
theorem result_at (c : Dev nD) : W3 m ρ c (Proc.devRef .tc main_v5) = (dat1 (V2 m ρ) c).arrAt 5 cfg1.N := W3_arr m ρ c 5

end Cert.Kernel.Hand

end
-- ==== Proof.KI_Region0.lean ====
import proofs.«180238_j18949395710129_2_alg».proof.Proof.Gen.KernelIdeal.Launch
import proofs.«180238_j18949395710129_2_alg».proof.Proof.Gen.KernelIdeal.Skeleton
import proofs.«180238_j18949395710129_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180238_j18949395710129_2_alg».proof.Proof.LibRows2
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection region (the first kernel launch), at the contents V the region is entered with

Each grid point takes 1024 positions of query, key and value (both batch rows) and the three weight matrices and
biases whole, and leaves in each of three output blocks the projection of its input block: batch row 0 and batch
row 1 stored one after the other through the block's whole rectangle. -/

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rb0 : Rect S1024x2x512 := Rect.unit (s := S1024x2x512) ![0, 0, 0] S1024x1x512.size inb_S1024x2x512_S1024x1x512_0_0_0
abbrev rb1 : Rect S1024x2x512 := Rect.unit (s := S1024x2x512) ![0, 1, 0] S1024x1x512.size inb_S1024x2x512_S1024x1x512_0_1_0
abbrev rW : Rect S512x512 := Rect.unit (s := S512x512) ![0, 0] S512x512.size inb_S512x512_S512x512_0_0
abbrev rB : Rect S1x512 := Rect.unit (s := S1x512) ![0, 0] S1x512.size inb_S1x512_S1x512_0_0

/-! ## What the body leaves in each output block: the two batch rows' projections side by side -/

def outQ (x : Vec F S1024x2x512 .f32) (w : Vec F S512x512 .f32) (b : Vec F S1x512 .f32) : Vec F S1024x2x512 .bf16 :=
  Cert.Rows.merge2 (n := 1024) (k0_pay12 (k0_pay11 (View.ld w rW) (View.ld b rB) (View.ld x rb0)))
    (k0_pay16 (k0_pay3 (View.ld w rW)) (k0_pay6 (View.ld b rB)) (View.ld x rb1))
def outK (x : Vec F S1024x2x512 .f32) (w : Vec F S512x512 .f32) (b : Vec F S1x512 .f32) : Vec F S1024x2x512 .bf16 :=
  Cert.Rows.merge2 (n := 1024) (k0_pay13 (k0_pay9 (View.ld w rW) (View.ld b rB) (View.ld x rb0)))
    (k0_pay1 (k0_pay17 (k0_pay4 (View.ld w rW)) (k0_pay7 (View.ld b rB)) (View.ld x rb1)))
def outV (x : Vec F S1024x2x512 .f32) (w : Vec F S512x512 .f32) (b : Vec F S1x512 .f32) : Vec F S1024x2x512 .bf16 :=
  Cert.Rows.merge2 (n := 1024) (k0_pay14 (k0_pay10 (View.ld w rW) (View.ld b rB) (View.ld x rb0)))
    (k0_pay2 (k0_pay15 (k0_pay5 (View.ld w rW)) (k0_pay8 (View.ld b rB)) (View.ld x rb1)))

/-! ## The body's triple -/

set_option maxHeartbeats 4000000 in
/-- On whole staging memrefs, the inputs' at contents x and the outputs' at anything, the body runs to the continuation
    holding the inputs' as they were and the three outputs' at the projections of the inputs. -/
theorem sound_kernel0 (c : Dev nD) (E : Set ℕ) (i : grid0.Coords)
    (arg1 : Memref sig .tc .vmem S1024x2x512 .f32) (harg1 : arg1.IsWhole) (arg2 : Memref sig .tc .vmem S1024x2x512 .f32) (harg2 : arg2.IsWhole) (arg3 : Memref sig .tc .vmem S1024x2x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1024x2x512 .bf16) (harg10 : arg10.IsWhole) (arg11 : Memref sig .tc .vmem S1024x2x512 .bf16) (harg11 : arg11.IsWhole) (arg12 : Memref sig .tc .vmem S1024x2x512 .bf16) (harg12 : arg12.IsWhole)
    (x1 x2 x3 : Vec F S1024x2x512 .f32) (x4 : Vec F S512x512 .f32) (x5 : Vec F S1x512 .f32) (x6 : Vec F S512x512 .f32) (x7 : Vec F S1x512 .f32) (x8 : Vec F S512x512 .f32) (x9 : Vec F S1x512 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (outQ x1 x4 x5) ∗ owns (c : Thread nD τ) arg11 fullShare (outK x2 x6 x7) ∗ owns (c : Thread nD τ) arg12 fullShare (outV x3 x8 x9)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12) K := by
  simp only [cc0__proj_kernel_eq_skeleton, k0_part1_eq_skeleton, k0_part2_eq_skeleton]; unfold cc0__proj_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf1 hf2 hf3 hf4 hf5 hf6 hf7 hf8 hf9
  sl_exec
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact Cert.Rows.read_two_rows (n := 1024) _ _ _ _ _ _ _ _
  isplitl [H11]
  · iexists _; isplitr
    swap; · iexact H11
    ipureintro
    exact Cert.Rows.read_two_rows (n := 1024) _ _ _ _ _ _ _ _
  iexists _; isplitr
  swap; · iexact H12
  ipureintro
  exact Cert.Rows.read_two_rows (n := 1024) _ _ _ _ _ _ _ _

/-! ## The pipeline's proof data -/

/-- The proof data of the projection pipeline on core c: the arrays as the region finds them; after the body at point t
    each input's buffer at its block and each output's at the projection of the point's input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => outQ (iblk0 V c 0 t) (iblk0 V c 3 t) (iblk0 V c 4 t)
    | ⟨10, _⟩ => outK (iblk0 V c 1 t) (iblk0 V c 5 t) (iblk0 V c 6 t)
    | ⟨11, _⟩ => outV (iblk0 V c 2 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = outQ (iblk0 V c 0 t) (iblk0 V c 3 t) (iblk0 V c 4 t) := by dsimp only [dat0]
theorem after0_10 (c : Dev nD) (t : Fin cfg0.N) : (dat0 V c).after 10 t = outK (iblk0 V c 1 t) (iblk0 V c 5 t) (iblk0 V c 6 t) := by dsimp only [dat0]
theorem after0_11 (c : Dev nD) (t : Fin cfg0.N) : (dat0 V c).after 11 t = outV (iblk0 V c 2 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI_Region1.lean ====
import proofs.«180238_j18949395710129_2_alg».proof.Proof.Gen.KernelIdeal.Launch
import proofs.«180238_j18949395710129_2_alg».proof.Proof.Gen.KernelIdeal.Skeleton
import proofs.«180238_j18949395710129_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180238_j18949395710129_2_alg».proof.Proof.LibRows2
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region (the second kernel launch), at the contents V the region is entered with

The grid is 2 x 4: for each of two blocks of 2048 query positions the four blocks of 1024 key positions are visited in
turn. A scratch block carries the running total: reset to zero at the first key block, increased at every key block by
that block's tanh-weighted values (batch row 0, then batch row 1), and at the last key block the output block is
stored as gamma times the total plus the value block. -/

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, decided over the grid -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The body's accesses -/

abbrev qb0 : Rect S2048x2x512 := Rect.unit (s := S2048x2x512) ![0, 0, 0] S2048x1x512.size inb_S2048x2x512_S2048x1x512_0_0_0
abbrev qb1 : Rect S2048x2x512 := Rect.unit (s := S2048x2x512) ![0, 1, 0] S2048x1x512.size inb_S2048x2x512_S2048x1x512_0_1_0
abbrev qAll : Rect S2048x2x512 := Rect.unit (s := S2048x2x512) ![0, 0, 0] S2048x2x512.size inb_S2048x2x512_S2048x2x512_0_0_0
abbrev kb0 : Rect S1024x2x512 := Rect.unit (s := S1024x2x512) ![0, 0, 0] S1024x1x512.size inb_S1024x2x512_S1024x1x512_0_0_0
abbrev kb1 : Rect S1024x2x512 := Rect.unit (s := S1024x2x512) ![0, 1, 0] S1024x1x512.size inb_S1024x2x512_S1024x1x512_0_1_0
abbrev rG : Rect S1x1 := Rect.unit (s := S1x1) ![0, 0] S1x1.size inb_S1x1_S1x1_0_0

/-- One key block's step on the running total S: each batch row's total plus that row's tanh-weighted values. -/
def accStep (S : Vec F S2048x2x512 .f32) (q : Vec F S2048x2x512 .bf16) (k v : Vec F S1024x2x512 .bf16) : Vec F S2048x2x512 .f32 :=
  Cert.Rows.merge2 (n := 2048) (k1_pay5 (View.ld q qb0) (View.ld k kb0) (View.ld v kb0) (View.ld S qb0))
    (k1_pay1 (k1_pay6 (View.ld q qb1)) (k1_pay7 (View.ld k kb1)) (View.ld v kb1) (View.ld S qb1))

/-- The output block: gamma times the total plus the value block. -/
def outFinal (g : Vec F S1x1 .f32) (S : Vec F S2048x2x512 .f32) (val : Vec F S2048x2x512 .f32) : Vec F S2048x2x512 .f32 :=
  k1_pay2 (k1_pay4 (View.ld g rG)) S (View.ld val qAll)

/-! ## The body's triple, case by case -/

set_option maxHeartbeats 4000000 in
theorem kernel1_A (c : Dev nD) (E : Set ℕ) (i : grid1.Coords)
    (arg2 : Memref sig .tc .vmem S2048x2x512 .bf16) (harg2 : arg2.IsWhole) (arg3 : Memref sig .tc .vmem S1024x2x512 .bf16) (harg3 : arg3.IsWhole) (arg4 : Memref sig .tc .vmem S1024x2x512 .bf16) (harg4 : arg4.IsWhole) (arg5 : Memref sig .tc .vmem S2048x2x512 .f32) (harg5 : arg5.IsWhole) (arg6 : Memref sig .tc .vmem S1x1 .f32) (harg6 : arg6.IsWhole) (arg7 : Memref sig .tc .vmem S2048x2x512 .f32) (harg7 : arg7.IsWhole) (arg8 : Memref sig .tc .vmem S2048x2x512 .f32) (harg8 : arg8.IsWhole)
    (hc0 : cond1_0 i) (hc1 : ¬cond1_1 i)
    (x2 : Vec F S2048x2x512 .bf16) (x3 x4 : Vec F S1024x2x512 .bf16) (x5 : Vec F S2048x2x512 .f32) (x6 : Vec F S1x1 .f32) (x7 : Vec F S2048x2x512 .f32)
    (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg7 fullShare x7 ∗ (∃ d, owns (c : Thread nD τ) arg8 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare (accStep k1_pay3 x2 x3 x4)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton, k1_part1_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf2 hf3 hf4 hf5 hf6 hf7
  sl_exec (disch := first | exact hc0 | exact hc1)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact Cert.Rows.read_reset_rows (n := 2048) inb_S2048x2x512_S2048x2x512_0_0_0 inb_S2048x2x512_S2048x1x512_0_0_0 inb_S2048x2x512_S2048x1x512_0_1_0 arg8.view f8 k1_pay3
    (fun s => k1_pay5 (View.ld (arg2.view.read (Elt F) f2) qb0) (View.ld (arg3.view.read (Elt F) f3) kb0) (View.ld (arg4.view.read (Elt F) f4) kb0) s)
    (fun s => k1_pay1 (k1_pay6 (View.ld (arg2.view.read (Elt F) f2) qb1)) (k1_pay7 (View.ld (arg3.view.read (Elt F) f3) kb1)) (View.ld (arg4.view.read (Elt F) f4) kb1) s)

set_option maxHeartbeats 4000000 in
theorem kernel1_B (c : Dev nD) (E : Set ℕ) (i : grid1.Coords)
    (arg2 : Memref sig .tc .vmem S2048x2x512 .bf16) (harg2 : arg2.IsWhole) (arg3 : Memref sig .tc .vmem S1024x2x512 .bf16) (harg3 : arg3.IsWhole) (arg4 : Memref sig .tc .vmem S1024x2x512 .bf16) (harg4 : arg4.IsWhole) (arg5 : Memref sig .tc .vmem S2048x2x512 .f32) (harg5 : arg5.IsWhole) (arg6 : Memref sig .tc .vmem S1x1 .f32) (harg6 : arg6.IsWhole) (arg7 : Memref sig .tc .vmem S2048x2x512 .f32) (harg7 : arg7.IsWhole) (arg8 : Memref sig .tc .vmem S2048x2x512 .f32) (harg8 : arg8.IsWhole)
    (hc0 : ¬cond1_0 i) (hc1 : ¬cond1_1 i)
    (x2 : Vec F S2048x2x512 .bf16) (x3 x4 : Vec F S1024x2x512 .bf16) (x5 : Vec F S2048x2x512 .f32) (x6 : Vec F S1x1 .f32) (x7 x8 : Vec F S2048x2x512 .f32)
    (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare (accStep x8 x2 x3 x4)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton, k1_part1_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  sl_exec (disch := first | exact hc0 | exact hc1)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact Cert.Rows.read_rows (n := 2048) inb_S2048x2x512_S2048x1x512_0_0_0 inb_S2048x2x512_S2048x1x512_0_1_0 arg8.view f8 _ _ _

set_option maxHeartbeats 4000000 in
theorem kernel1_C (c : Dev nD) (E : Set ℕ) (i : grid1.Coords)
    (arg2 : Memref sig .tc .vmem S2048x2x512 .bf16) (harg2 : arg2.IsWhole) (arg3 : Memref sig .tc .vmem S1024x2x512 .bf16) (harg3 : arg3.IsWhole) (arg4 : Memref sig .tc .vmem S1024x2x512 .bf16) (harg4 : arg4.IsWhole) (arg5 : Memref sig .tc .vmem S2048x2x512 .f32) (harg5 : arg5.IsWhole) (arg6 : Memref sig .tc .vmem S1x1 .f32) (harg6 : arg6.IsWhole) (arg7 : Memref sig .tc .vmem S2048x2x512 .f32) (harg7 : arg7.IsWhole) (arg8 : Memref sig .tc .vmem S2048x2x512 .f32) (harg8 : arg8.IsWhole)
    (hc0 : ¬cond1_0 i) (hc1 : cond1_1 i)
    (x2 : Vec F S2048x2x512 .bf16) (x3 x4 : Vec F S1024x2x512 .bf16) (x5 : Vec F S2048x2x512 .f32) (x6 : Vec F S1x1 .f32) (x8 : Vec F S2048x2x512 .f32)
    (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ owns (c : Thread nD τ) arg8 fullShare x8
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (outFinal x6 (accStep x8 x2 x3 x4) x5) ∗ owns (c : Thread nD τ) arg8 fullShare (accStep x8 x2 x3 x4)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton, k1_part1_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf2 hf3 hf4 hf5 hf6 hf8
  sl_exec (disch := first | exact hc0 | exact hc1)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (Cert.Rows.read_last_whole (n := 2048) arg7.view f7 inb_S2048x2x512_S2048x2x512_0_0_0 _ []).trans ?_
    rw [Cert.Rows.readCov_rows (n := 2048) inb_S2048x2x512_S2048x2x512_0_0_0 inb_S2048x2x512_S2048x1x512_0_0_0 inb_S2048x2x512_S2048x1x512_0_1_0 arg8.view _ _]
    rfl
  iexists _; isplitr
  swap; · iexact H8
  ipureintro
  exact Cert.Rows.read_rows (n := 2048) inb_S2048x2x512_S2048x1x512_0_0_0 inb_S2048x2x512_S2048x1x512_0_1_0 arg8.view f8 _ _ _

/-! ## What the scratch holds after each point -/

/-- The running total after point n: restarted from zero at a first key block, else stepped from the point before. -/
def accAt (c : Dev nD) : (n : ℕ) → n < cfg1.N → Vec F S2048x2x512 .f32
  | 0, h => accStep k1_pay3 (iblk1 V c 0 ⟨0, h⟩) (iblk1 V c 1 ⟨0, h⟩) (iblk1 V c 2 ⟨0, h⟩)
  | n + 1, h =>
    if (n + 1) % 4 = 0 then accStep k1_pay3 (iblk1 V c 0 ⟨n + 1, h⟩) (iblk1 V c 1 ⟨n + 1, h⟩) (iblk1 V c 2 ⟨n + 1, h⟩)
    else accStep (accAt c n (Nat.lt_of_succ_lt h)) (iblk1 V c 0 ⟨n + 1, h⟩) (iblk1 V c 1 ⟨n + 1, h⟩) (iblk1 V c 2 ⟨n + 1, h⟩)

theorem accAt_reset (c : Dev nD) (t : Fin cfg1.N) (h0 : t.val % 4 = 0) :
    accAt V c t.val t.isLt = accStep k1_pay3 (iblk1 V c 0 t) (iblk1 V c 1 t) (iblk1 V c 2 t) := by
  obtain ⟨n, hn⟩ := t
  cases n with
  | zero => rfl
  | succ n => exact if_pos h0

theorem accAt_step (c : Dev nD) (t : Fin cfg1.N) (h0 : ¬t.val % 4 = 0) :
    accAt V c t.val t.isLt = accStep (accAt V c (t.val - 1) (Nat.lt_of_le_of_lt (Nat.sub_le _ _) t.isLt)) (iblk1 V c 0 t) (iblk1 V c 1 t) (iblk1 V c 2 t) := by
  obtain ⟨n, hn⟩ := t
  cases n with
  | zero => exact absurd (Nat.zero_mod _) h0
  | succ n => exact if_neg h0

/-! ## The region invariant: the scoped buffers no window stages, the scratch among them at the running total -/

abbrev scM1 : Memref sig .tc .vmem S2048x2x512 .f32 := Memref.whole cc1_scratch0

/-- The core's scoped buffers that are no staging buffer of this launch, the scratch apart: each at some contents;
    and P for the scratch. -/
def scoped1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ P)

theorem scoped1_out (c : Dev nD) (P : sProp 𝕄) : scoped1 c P ⊢ iprop(scoped1 c iprop(emp) ∗ P) := by
  unfold scoped1
  iintro ⟨T0, T1, T2, T3, T4, T5, T6, T7, T8, T9, T10, T11, T12, T13, T14, T15, T16, T17, HP⟩
  isplitr [HP]
  · isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    iempintro
  · iexact HP

theorem scoped1_in (c : Dev nD) (P : sProp 𝕄) : iprop(scoped1 c iprop(emp) ∗ P) ⊢ scoped1 c P := by
  unfold scoped1
  iintro ⟨⟨T0, T1, T2, T3, T4, T5, T6, T7, T8, T9, T10, T11, T12, T13, T14, T15, T16, T17, -⟩, HP⟩
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  iexact HP

theorem PhiA1_eq (c : Dev nD) :
    (Pipeline.ΦA spec1 c : sProp 𝕄) = iprop(scoped1 c (iprop(∃ d, owns (c : Thread nD τ) scM1 fullShare d)) ∗ (∃ r, prngReg c r)) := by
  unfold Pipeline.ΦA scoped1; rw [scopedRest1_eq]; simp only [scM1, owns_whole]; try rfl

def PhiS (c : Dev nD) : (n : ℕ) → n ≤ cfg1.N → sProp 𝕄
  | 0, _ => Pipeline.ΦA spec1 c
  | n + 1, hn => iprop(scoped1 c (owns (c : Thread nD τ) scM1 fullShare (accAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scoped1 c (owns (c : Thread nD τ) scM1 fullShare (accAt V c n hn)) ∗ (∃ r, prngReg c r)) := rfl
theorem PhiS_pos (c : Dev nD) (n : ℕ) (h : n ≤ cfg1.N) (hz : n ≠ 0) :
    PhiS V c n h = iprop(scoped1 c (owns (c : Thread nD τ) scM1 fullShare (accAt V c (n - 1) (by omega))) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outFinal (iblk1 V c 4 t) (accAt V c t.val t.isLt) (iblk1 V c 3 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outFinal (iblk1 V c 4 t) (accAt V c t.val t.isLt) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have hN : t.val < 8 := lt_of_lt_of_eq t.isLt (show cfg1.N = 8 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 t hc1) (noFlush1_5 t hc1)]
    rw [accAt_reset V c t h0]
    have hΦ : (dat1 V c).Φ t.castSucc ⊢ iprop(scoped1 c (iprop(∃ d, owns (c : Thread nD τ) scM1 fullShare d)) ∗ (∃ r, prngReg c r)) := by
      by_cases hz : t.val = 0
      · rw [PhiS_castSucc V c t, PhiS_zero V c _ _ hz, PhiA1_eq]
      · rw [PhiS_castSucc V c t, PhiS_pos V c _ _ hz]
        iintro ⟨HS, Hg⟩
        isplitl [HS]
        · ihave HS' := (scoped1_out c _) $$ HS
          icases HS' with ⟨HR, H8⟩
          iapply (scoped1_in c _)
          isplitl [HR]; · iexact HR
          iexists _; iexact H8
        iexact Hg
    iintro ⟨HΦ, Ho, ⟨%d0, H0⟩, ⟨%d1, H1⟩, ⟨%d2, H2⟩, ⟨%d3, H3⟩, ⟨%d4, H4⟩, ⟨%d5, H5⟩⟩
    ihave HΦ' := hΦ $$ HΦ
    icases HΦ' with ⟨HS, Hg⟩
    ihave HS' := (scoped1_out c _) $$ HS
    icases HS' with ⟨HR, H8⟩
    iapply (kernel1_A c Set.univ (grid1.coords t) _ _ _ _ _ _ _ _ _ _ _ _ _ _ hc0 hc1 (iblk1 V c 0 t) (iblk1 V c 1 t) (iblk1 V c 2 t) (iblk1 V c 3 t) (iblk1 V c 4 t) _ _)
    isplitl [H0]; · iexact H0
    isplitl [H1]; · iexact H1
    isplitl [H2]; · iexact H2
    isplitl [H3]; · iexact H3
    isplitl [H4]; · iexact H4
    isplitl [H5]; · iexact H5
    isplitl [H8]; · iexact H8
    iintro ⟨H0, H1, H2, H3, H4, H5, H8⟩
    isplitl [HR H8 Hg]
    · isplitl [HR H8]
      · iapply (scoped1_in c _)
        isplitl [HR]; · iexact HR
        iexact H8
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hc0 : ¬cond1_0 (grid1.coords t) := fun h => h0 ((hcond1_0 t).mp h)
    have hz : t.val ≠ 0 := fun hz => h0 (by rw [hz])
    rw [accAt_step V c t h0]
    rw [PhiS_castSucc V c t, PhiS_pos V c _ _ hz]
    by_cases h1 : t.val % 4 = 3
    · have hc1 : cond1_1 (grid1.coords t) := (hcond1_1 t).mpr h1
      rw [show (dat1 V c).leavesExact 5 t = owns (c : Thread nD τ) (st1_5 t) fullShare ((dat1 V c).after 5 t) from by
        unfold Dat.leavesExact; rw [liveAt1_5 t hc1], after1_5, accAt_step V c t h0]
      iintro ⟨⟨HS, Hg⟩, Ho, ⟨%d0, H0⟩, ⟨%d1, H1⟩, ⟨%d2, H2⟩, ⟨%d3, H3⟩, ⟨%d4, H4⟩, ⟨%d5, H5⟩⟩
      ihave HS' := (scoped1_out c _) $$ HS
      icases HS' with ⟨HR, H8⟩
      iapply (kernel1_C c Set.univ (grid1.coords t) _ _ _ _ _ _ _ _ _ _ _ _ _ _ hc0 hc1 (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [H8]; · iexact H8
      iintro ⟨H0, H1, H2, H3, H4, H5, H8⟩
      isplitl [HR H8 Hg]
      · isplitl [HR H8]
        · iapply (scoped1_in c _)
          isplitl [HR]; · iexact HR
          iexact H8
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h1 ((hcond1_1 t).mp h)
      rw [Dat.leavesExact_idle (dat1 V c) 5 t (idleAt1_5 t hc1) (noFlush1_5 t hc1)]
      iintro ⟨⟨HS, Hg⟩, Ho, ⟨%d0, H0⟩, ⟨%d1, H1⟩, ⟨%d2, H2⟩, ⟨%d3, H3⟩, ⟨%d4, H4⟩, ⟨%d5, H5⟩⟩
      ihave HS' := (scoped1_out c _) $$ HS
      icases HS' with ⟨HR, H8⟩
      iapply (kernel1_B c Set.univ (grid1.coords t) _ _ _ _ _ _ _ _ _ _ _ _ _ _ hc0 hc1 (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexact H5
      isplitl [H8]; · iexact H8
      iintro ⟨H0, H1, H2, H3, H4, H5, H8⟩
      isplitl [HR H8 Hg]
      · isplitl [HR H8]
        · iapply (scoped1_in c _)
          isplitl [HR]; · iexact HR
          iexact H8
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point; -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- after the last point the invariant gives it back, the scratch's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 8 := N_1; omega), PhiA1_eq]
  iintro ⟨HS, Hg⟩
  isplitl [HS]
  · ihave HS' := (scoped1_out c _) $$ HS
    icases HS' with ⟨HR, H8⟩
    iapply (scoped1_in c _)
    isplitl [HR]; · iexact HR
    iexists _; iexact H8
  iexact Hg

end Region1

end Cert.KernelIdeal.Hand

end
-- ==== Proof.KI_Frame.lean ====
import proofs.«180238_j18949395710129_2_alg».proof.Proof.Gen.KernelIdeal.Launch
import proofs.«180238_j18949395710129_2_alg».proof.Proof.Gen.KernelIdeal.Skeleton
import proofs.«180238_j18949395710129_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180238_j18949395710129_2_alg».proof.Proof.KI_Region0
import proofs.«180238_j18949395710129_2_alg».proof.Proof.KI_Region1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: the host reshapes, the projection region, the attention region

The buffer contents at every boundary are a fold from the launch memory: after the four reshapes; then with the
projection region's arrays at what its write-backs leave; then with the attention region's. Every unscoped buffer is
read back off the last of these at the end: the ten arguments as launched, the result at what the attention region's
write-backs leave. -/

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### No host operation and no region writes an argument -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 3).trans (((dat1 (V2 m ρ) c).arrAt_in 3 rfl _).trans (A_eq1 (V2 m ρ) c 3))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 7).trans (((dat0 (V1 m ρ) c).arrAt_in 7 rfl _).trans (A_eq0 (V1 m ρ) c 7))
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Idealize.SL.BI.Entails.refl _).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of @main terminates, nothing faulting, and every final state holds every unscoped
    buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c)⟩) (run_main m ρ)

/-- The result array ends at what the attention region's write-backs leave. -/
theorem result_at (c : Dev nD) : W3 m ρ c (Proc.devRef .tc main_v5) = (dat1 (V2 m ρ) c).arrAt 5 cfg1.N := W3_arr m ρ c 5

end Cert.KernelIdeal.Hand

end
-- ==== Proof.Spec.lean ====
/-
  The mathematics both programs compute, as one function of the ten argument arrays, over the extended reals.

  Inputs: query, key, value : [4096, 2, 512] (position s, batch b, feature i); three weight matrices W : [512, 512]
  (output feature e, input feature i) with biases [512]; a scalar gamma : [1].
  * a projection is  P(s, b, e) = (sum over i of x(s, b, i) * W(e, i)) + bias(e);
  * the score of positions s, t in batch b is  sum over e of Q(s, b, e) * K(t, b, e);
  * the attention output is  O(s, b, d) = sum over t of tanh(score(s, b, t)) * V(t, b, d)  (tanh weights, no normalisation);
  * the result is  gamma * O(s, b, d) + value(s, b, d).
-/
import Idealize.ShloMosaic.PureOps.Ideal
import Idealize.ShloMosaic.Lib.ValueIdx

noncomputable section

namespace Cert.Spec

open Idealize.ShloMosaic Idealize.ShloMosaic.ValueIdx

/-- The shapes of the argument arrays, spelt literally (each program's own shape names unfold to these). -/
abbrev SX : Shape := ⟨3, ![4096, 2, 512]⟩
abbrev SW : Shape := ⟨2, ![512, 512]⟩
abbrev SB : Shape := ⟨1, ![512]⟩
abbrev SG : Shape := ⟨1, ![1]⟩

/-- A linear projection with bias: P(s, b, e) = (sum over i of x(s, b, i) * W(e, i)) + bias(e). -/
def proj (x : SX.Idx → EReal) (W : SW.Idx → EReal) (bias : SB.Idx → EReal) (s : Fin 4096) (b : Fin 2) (e : Fin 512) : EReal :=
  (∑ i : Fin 512, x (ix3 s b i) * W (ix2 e i)) + bias (ix1 e)

/-- The score of positions s and t in batch b: the inner product of the projected query at s and key at t. -/
def score (Q K : Fin 4096 → Fin 2 → Fin 512 → EReal) (s : Fin 4096) (b : Fin 2) (t : Fin 4096) : EReal :=
  ∑ e : Fin 512, Q s b e * K t b e

/-- One key position's contribution to the attention output: the tanh weight times the projected value. -/
def term (Q K V : Fin 4096 → Fin 2 → Fin 512 → EReal) (s : Fin 4096) (b : Fin 2) (d : Fin 512) (t : Fin 4096) : EReal :=
  Ideal.tanh (score Q K s b t) * V t b d

/-- The attention output: all key positions' contributions summed. -/
def attn (Q K V : Fin 4096 → Fin 2 → Fin 512 → EReal) (s : Fin 4096) (b : Fin 2) (d : Fin 512) : EReal :=
  ∑ t : Fin 4096, term Q K V s b d t

/-- The whole result array as a function of the ten arguments. -/
def G (query key value : SX.Idx → EReal) (Wq : SW.Idx → EReal) (bq : SB.Idx → EReal) (Wk : SW.Idx → EReal) (bk : SB.Idx → EReal)
    (Wv : SW.Idx → EReal) (bv : SB.Idx → EReal) (gamma : SG.Idx → EReal) : SX.Idx → EReal :=
  fun j => gamma (ix1 0) * attn (proj query Wq bq) (proj key Wk bk) (proj value Wv bv) (j 0) (j 1) (j 2) + value j

end Cert.Spec

end
-- ==== Proof.Arrays.lean ====
/-
  The arrays the two kernel launches leave, as functions of the arrays they find (over the extended reals).

  * projArr: the projection of a whole [4096, 2, 512] array by a [512, 512] weight matrix and a bias held as a
    [1, 512] array: entry (s, b, e) is (sum over i of x(s, b, i) * W(e, i)) + bias(0, e).
  * termAt / attnArr: the tanh-attention result: entry (s, b, d) is gamma(0, 0) times the sum over ALL key positions t of
    tanh(sum over e of Q(s, b, e) * K(t, b, e)) * V(t, b, d), plus val(s, b, d).
-/
import Idealize.ShloMosaic.PureOps.Ideal
import Idealize.ShloMosaic.Lib.ValueIdx

noncomputable section

namespace Cert.Arrays

open Idealize.ShloMosaic Idealize.ShloMosaic.ValueIdx

abbrev SX : Shape := ⟨3, ![4096, 2, 512]⟩
abbrev SW : Shape := ⟨2, ![512, 512]⟩
abbrev SB2 : Shape := ⟨2, ![1, 512]⟩
abbrev SG2 : Shape := ⟨2, ![1, 1]⟩

/-- The projection of a whole [4096, 2, 512] array. -/
def projArr (x : SX.Idx → EReal) (w : SW.Idx → EReal) (b2 : SB2.Idx → EReal) : SX.Idx → EReal :=
  fun i => (∑ k : Fin 512, x (ix3 (⟨(i 0).val, (i 0).isLt⟩ : Fin 4096) (⟨(i 1).val, (i 1).isLt⟩ : Fin 2) k) * w (ix2 (⟨(i 2).val, (i 2).isLt⟩ : Fin 512) k))
    + b2 (ix2 (0 : Fin 1) (⟨(i 2).val, (i 2).isLt⟩ : Fin 512))

/-- One key position's contribution. -/
def termAt (Q K Vv : SX.Idx → EReal) (s : Fin 4096) (b : Fin 2) (d : Fin 512) (t : Fin 4096) : EReal :=
  Ideal.tanh (∑ e : Fin 512, Q (ix3 s b e) * K (ix3 t b e)) * Vv (ix3 t b d)

/-- The attention result as a function of the arrays the launch finds. -/
def attnArr (Q K Vv val : SX.Idx → EReal) (g : SG2.Idx → EReal) : SX.Idx → EReal :=
  fun i => g (ix2 (0 : Fin 1) (0 : Fin 1))
      * (∑ t : Fin 4096, termAt Q K Vv (⟨(i 0).val, (i 0).isLt⟩ : Fin 4096) (⟨(i 1).val, (i 1).isLt⟩ : Fin 2) (⟨(i 2).val, (i 2).isLt⟩ : Fin 512) t)
    + val i

end Cert.Arrays

end
-- ==== Proof.Bridge.lean ====
/-
  The arrays the two launches leave are the specification.

  The projection of a whole array with its bias held as a [1, 512] row is, entry by entry, the specification's projection
  with the bias held as a [512] vector (the row is the vector with a unit axis added). One key position's contribution
  over the three projected arrays is then the specification's term over the three projections, and the attention
  result — the scalar held as a [1, 1] array times the sum over all key positions, plus the value array — is the
  specification's result. Congruence only: no sum is reordered and nothing is assumed finite.
-/
import proofs.«180238_j18949395710129_2_alg».proof.Proof.Arrays
import proofs.«180238_j18949395710129_2_alg».proof.Proof.Spec
import Idealize.ShloMosaic.Lib.ValueLayout
import Idealize.ShloMosaic.Lib.Pipeline.Value
import Idealize.ShloMosaic.Lib.ValueIdx

noncomputable section

namespace Cert.Bridge

open Idealize.ShloMosaic Idealize.ShloMosaic.ValueIdx

/-- The projected array at (position s, batch bb, feature e) is the specification's projection there: the same sum,
    and the bias row's entry (0, e) is the bias vector's entry e. -/
theorem projArr_apply (x : Cert.Spec.SX.Idx → EReal) (W : Cert.Spec.SW.Idx → EReal) (b : Cert.Spec.SB.Idx → EReal)
    (hb : Cert.Spec.SB.ShapeCasts Cert.Arrays.SB2) (s : Fin 4096) (bb : Fin 2) (e : Fin 512) :
    Cert.Arrays.projArr x W (shapeCast Cert.Arrays.SB2 b hb) (ix3 s bb e) = Cert.Spec.proj x W b s bb e := by
  unfold Cert.Arrays.projArr Cert.Spec.proj
  exact congrArg₂ (· + ·) rfl (shapeCast_a_1a_apply (a := 512) b hb (0 : Fin 1) e)

/-- One key position's contribution over three arrays that are, entry by entry, three functions of coordinates is the
    specification's term over those functions. -/
theorem termAt_eq (Q K V : Cert.Arrays.SX.Idx → EReal) (Q' K' V' : Fin 4096 → Fin 2 → Fin 512 → EReal)
    (hQ : ∀ s b e, Q (ix3 s b e) = Q' s b e) (hK : ∀ s b e, K (ix3 s b e) = K' s b e) (hV : ∀ s b e, V (ix3 s b e) = V' s b e)
    (s : Fin 4096) (b : Fin 2) (d : Fin 512) (t : Fin 4096) :
    Cert.Arrays.termAt Q K V s b d t = Cert.Spec.term Q' K' V' s b d t := by
  unfold Cert.Arrays.termAt Cert.Spec.term Cert.Spec.score
  exact congrArg₂ (· * ·)
    (congrArg Ideal.tanh (Finset.sum_congr rfl fun e _ => congrArg₂ (· * ·) (hQ s b e) (hK t b e))) (hV t b d)

/-- The attention result over the three projected arrays, with the biases held as [1, 512] rows and the scalar as a
    [1, 1] array, is the specification's result. -/
theorem result_eq (q k v : Cert.Spec.SX.Idx → EReal) (Wq Wk Wv : Cert.Spec.SW.Idx → EReal) (bq bk bv : Cert.Spec.SB.Idx → EReal)
    (gamma : Cert.Spec.SG.Idx → EReal) (hb : Cert.Spec.SB.ShapeCasts Cert.Arrays.SB2) (hg : Cert.Spec.SG.ShapeCasts Cert.Arrays.SG2) :
    Cert.Arrays.attnArr (Cert.Arrays.projArr q Wq (shapeCast Cert.Arrays.SB2 bq hb))
        (Cert.Arrays.projArr k Wk (shapeCast Cert.Arrays.SB2 bk hb)) (Cert.Arrays.projArr v Wv (shapeCast Cert.Arrays.SB2 bv hb)) v
        (shapeCast Cert.Arrays.SG2 gamma hg)
      = Cert.Spec.G q k v Wq bq Wk bk Wv bv gamma := by
  funext j
  unfold Cert.Arrays.attnArr Cert.Spec.G Cert.Spec.attn
  exact congrArg₂ (· + ·)
    (congrArg₂ (· * ·) (shapeCast_a_1a_apply (a := 1) gamma hg (0 : Fin 1) (0 : Fin 1))
      (Finset.sum_congr rfl fun t _ =>
        termAt_eq _ _ _ _ _ _ (projArr_apply q Wq bq hb) (projArr_apply k Wk bk hb) (projArr_apply v Wv bv hb)
          ⟨(j 0).val, (j 0).isLt⟩ ⟨(j 1).val, (j 1).isLt⟩ ⟨(j 2).val, (j 2).isLt⟩ t))
    rfl

end Cert.Bridge

end
-- ==== Proof.LibGram.lean ====
/-
  Three array forms read at an index written by coordinates, at the ideal instance (floats are extended reals).

  * A matrix product contracted on BOTH operands' last axes, `[M, K] × [N, K] → [M, N]` (a Gram matrix `X · Xᵀ` when the
    two operands are one array), into the zero accumulator: entry `(r, c)` is `∑ k, L (r, k) · R (c, k)`.
  * The sum of a column `[a, 1]` over its first axis, into `[1]`, from the neutral word: `∑ k, v (k, 0)`.
  * A `[1, 1]` value broadcast to `[a, b]`: every entry is the one value.
  Imports only the library.
-/
import Idealize.ShloMosaic.PureOps.Ideal.Laws
import Idealize.ShloMosaic.Lib.ValueIdx
import Idealize.ShloMosaic.Lib.Pipeline.Value

namespace Cert.LibGram

open Idealize.ShloMosaic Idealize.ShloMosaic.ValueIdx

variable {M K N : ℕ}

/-- The left operand's index keeps the output's row. -/
theorem lhsIdx_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's index takes the contraction position as its column. -/
theorem lhsIdx_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's index takes the output's column as its row. -/
theorem rhsIdx_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's index takes the contraction position as its column. -/
theorem rhsIdx_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- A product contracted on both last axes into the zero accumulator, at `(r, c)`: `∑ k, L (r, k) · R (c, k)`. -/
theorem matmul_transposedRhs_zero_apply {φ₁ φ₂ : FTy} (prec : Option ContractPrecision)
    (L : FVec Ideal ⟨2, ![M, K]⟩ φ₁) (R : FVec Ideal ⟨2, ![N, K]⟩ φ₂) (r : Fin M) (c : Fin N) :
    FloatOps.matmul (DotDims.transposedRhs M K N) prec L R (constant ⟨2, ![M, N]⟩ .f32 0x00000000#32) (ix2 r c)
      = ∑ k : Fin K, L (ix2 r k) * R (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact lhsIdx_row _ _
      | ⟨1, _⟩ => exact (lhsIdx_col _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact rhsIdx_row _ _
      | ⟨1, _⟩ => exact (rhsIdx_col _ _).trans hk)
  rw [el, er]

variable {a b : ℕ}

/-- The reduced index `0` with the row `k` put back is `(k, 0)`. -/
theorem lift_first (h : (⟨2, ![a, 1]⟩ : Shape).Reduces [0] ⟨1, ![1]⟩) (u : Fin 1) (k : Fin a) :
    h.lift (ix1 u) k = ix2 k (0 : Fin 1) :=
  funext fun c => Fin.ext (by
    match c with
    | ⟨0, _⟩ => rfl
    | ⟨1, _⟩ =>
      have h1 : ((h.lift (ix1 u) k) 1).val < 1 := idx2_lt1 _
      show ((h.lift (ix1 u) k) 1).val = 0
      omega)

/-- A column summed over its first axis from the neutral word: `∑ k, v (k, 0)`. -/
theorem colSum_apply {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ k : Fin a, src (ix2 k (0 : Fin 1)) :=
  (Ideal.multiReduction_add_single src acc h hφ hacc (ix1 u)).trans
    (Finset.sum_congr rfl fun k _ => congrArg src (lift_first h u k))

variable {α : Type}

/-- A `[1, 1]` value broadcast to `[a, b]` reads, everywhere, the one value. -/
theorem broadcastTo_11_ab_apply (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibGram
-- ==== Proof.KI_Value0Pt.lean ====
/-
  The projection launch's output blocks, read at an index.

  Each grid point of the first launch leaves, in each of its three output blocks, the projections of the two batch rows
  of its input block side by side. One batch row's projection is: the row block [1024, 1, 512] flattened to
  [1024, 512], the matrix product with the weight matrix contracted on both last axes into the zero accumulator, plus
  the bias row broadcast over the 1024 positions, unflattened to [1024, 1, 512]; the changes of float format are the
  identity on the extended reals. Read at (position r, 0, feature d) this is the sum over the input feature k of
  X(r, 0, k) * w(d, k), plus b(0, d). The six payload compositions (query, key, value; batch row 0 and batch row 1) are
  this one function, so each output block at (r, batch, d) is that sum over the block's batch row.
-/
import proofs.«180238_j18949395710129_2_alg».proof.Proof.KI_Region0
import proofs.«180238_j18949395710129_2_alg».proof.Proof.LibGram
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The two shape casts and the matrix product at an index -/

/-- A [n, 1, c] array flattened to [n, c] reads, at (r, d), the operand at (r, 0, d). -/
theorem shapeCast_a1c_ac_apply {α : Type} {n c : ℕ} (x : (⟨3, ![n, 1, c]⟩ : Shape).Idx → α)
    (h : (⟨3, ![n, 1, c]⟩ : Shape).ShapeCasts ⟨2, ![n, c]⟩) (r : Fin n) (d : Fin c) :
    shapeCast ⟨2, ![n, c]⟩ x h (ix2 r d) = x (ix3 r (0 : Fin 1) d) :=
  shapeCast_apply x h _ _ (by
    rw [Shape.rowMajor_val_three, Shape.rowMajor_val_two]
    show (r.val * 1 + 0) * c + d.val = r.val * c + d.val
    rw [Nat.mul_one, Nat.add_zero])

/-- A [n, c] array unflattened to [n, 1, c] reads, at (r, u, d), the operand at (r, d). -/
theorem shapeCast_ac_a1c_apply {α : Type} {n c : ℕ} (x : (⟨2, ![n, c]⟩ : Shape).Idx → α)
    (h : (⟨2, ![n, c]⟩ : Shape).ShapeCasts ⟨3, ![n, 1, c]⟩) (r : Fin n) (u : Fin 1) (d : Fin c) :
    shapeCast ⟨3, ![n, 1, c]⟩ x h (ix3 r u d) = x (ix2 r d) :=
  shapeCast_apply x h _ _ (by
    have hu : u.val = 0 := by omega
    rw [Shape.rowMajor_val_three, Shape.rowMajor_val_two]
    show r.val * c + d.val = (r.val * 1 + u.val) * c + d.val
    rw [hu, Nat.mul_one, Nat.add_zero])

/-- The printed dimension numbers are those of a product contracted on both operands' last axes. -/
theorem dot_eq_transposedRhs : dot_S1024x512_S512x512_S1024x512_1_1_0_0_n_n = DotDims.transposedRhs 1024 512 512 := rfl

/-! ## One batch row's projection -/

/-- One batch row's projection, as the body computes it. -/
def rowProj (w : Vec Ideal S512x512 .f32) (b : Vec Ideal S1x512 .f32) (X : Vec Ideal S1024x1x512 .f32) : FVec Ideal S1024x1x512 .bf16 :=
  shapeCast S1024x1x512
    (truncf .bf16
      (addf
        (matmul dot_S1024x512_S512x512_S1024x512_1_1_0_0_n_n none
          (truncf .bf16 (shapeCast S1024x512 X shapeCasts_S1024x1x512_S1024x512) bitsLt_bf16_f32)
          (truncf .bf16 w bitsLt_bf16_f32) (constant (F := Ideal) S1024x512 .f32 0x00000000#32))
        (broadcastTo S1024x512 (shapeCast S1x512 b shapeCasts_S1x512_S1x512) broadcasts_S1x512_S1024x512))
      bitsLt_bf16_f32)
    shapeCasts_S1024x512_S1024x1x512

/-- At (position r, 0, feature d) the row's projection is the sum over the input feature k of X(r, 0, k) * w(d, k),
    plus the bias b(0, d). -/
theorem rowProj_apply (w : Vec Ideal S512x512 .f32) (b : Vec Ideal S1x512 .f32) (X : Vec Ideal S1024x1x512 .f32)
    (r : Fin 1024) (u : Fin 1) (d : Fin 512) :
    rowProj w b X (ix3 r u d) = (∑ k : Fin 512, X (ix3 r (0 : Fin 1) k) * w (ix2 d k)) + b (ix2 (0 : Fin 1) d) := by
  unfold rowProj
  refine (shapeCast_ac_a1c_apply (n := 1024) (c := 512) _ shapeCasts_S1024x512_S1024x1x512 r u d).trans ?_
  refine (truncf_apply (ψ := .bf16) _ bitsLt_bf16_f32 (ix2 r d)).trans ?_
  refine (addf_apply _ _ (ix2 r d)).trans ?_
  refine congrArg₂ (· + ·) ?_ ?_
  · refine (show _ = FloatOps.matmul (DotDims.transposedRhs 1024 512 512) none
        (truncf .bf16 (shapeCast S1024x512 X shapeCasts_S1024x1x512_S1024x512) bitsLt_bf16_f32)
        (truncf .bf16 w bitsLt_bf16_f32) (constant (F := Ideal) ⟨2, ![1024, 512]⟩ .f32 0x00000000#32) (ix2 r d) from rfl).trans ?_
    refine (Cert.LibGram.matmul_transposedRhs_zero_apply (M := 1024) (K := 512) (N := 512) none _ _ r d).trans ?_
    refine Finset.sum_congr rfl fun k _ => congrArg₂ (· * ·) ?_ rfl
    exact shapeCast_a1c_ac_apply (n := 1024) (c := 512) X shapeCasts_S1024x1x512_S1024x512 r k
  · refine (broadcastTo_1b_ab_apply (a := 1024) (b := 512) _ broadcasts_S1x512_S1024x512 r d).trans ?_
    exact congrFun (shapeCast_self b shapeCasts_S1x512_S1x512) _

/-! ## The six payload compositions are the row's projection -/

theorem payQ_row0 (w : Vec Ideal S512x512 .f32) (b : Vec Ideal S1x512 .f32) (X : Vec Ideal S1024x1x512 .f32) :
    k0_pay12 (F := Ideal) (k0_pay11 w b X) = rowProj w b X := rfl
theorem payQ_row1 (w : Vec Ideal S512x512 .f32) (b : Vec Ideal S1x512 .f32) (X : Vec Ideal S1024x1x512 .f32) :
    k0_pay16 (F := Ideal) (k0_pay3 w) (k0_pay6 b) X = rowProj w b X := rfl
theorem payK_row0 (w : Vec Ideal S512x512 .f32) (b : Vec Ideal S1x512 .f32) (X : Vec Ideal S1024x1x512 .f32) :
    k0_pay13 (F := Ideal) (k0_pay9 w b X) = rowProj w b X := rfl
theorem payK_row1 (w : Vec Ideal S512x512 .f32) (b : Vec Ideal S1x512 .f32) (X : Vec Ideal S1024x1x512 .f32) :
    k0_pay1 (F := Ideal) (k0_pay17 (k0_pay4 w) (k0_pay7 b) X) = rowProj w b X := rfl
theorem payV_row0 (w : Vec Ideal S512x512 .f32) (b : Vec Ideal S1x512 .f32) (X : Vec Ideal S1024x1x512 .f32) :
    k0_pay14 (F := Ideal) (k0_pay10 w b X) = rowProj w b X := rfl
theorem payV_row1 (w : Vec Ideal S512x512 .f32) (b : Vec Ideal S1x512 .f32) (X : Vec Ideal S1024x1x512 .f32) :
    k0_pay2 (F := Ideal) (k0_pay15 (k0_pay5 w) (k0_pay8 b) X) = rowProj w b X := rfl

/-! ## The loads -/

theorem zero2 : (![0, 0] : Fin 2 → Nat) = fun _ => 0 := by
  funext a; match a with | ⟨0, _⟩ => rfl | ⟨1, _⟩ => rfl

/-- The weight matrix and the bias row are loaded whole. -/
theorem ld_rW (w : Vec Ideal S512x512 .f32) : View.ld w rW = w :=
  View.ld_unit_zero (S := S512x512) zero2 inb_S512x512_S512x512_0_0 w
theorem ld_rB (b : Vec Ideal S1x512 .f32) : View.ld b rB = b :=
  View.ld_unit_zero (S := S1x512) zero2 inb_S1x512_S1x512_0_0 b

/-- Batch row 0 of the input block, at (r, 0, k), is the block at (r, 0, k). -/
theorem ld_rb0 (x : Vec Ideal S1024x2x512 .f32) (r : Fin 1024) (k : Fin 512) :
    View.ld x rb0 (ix3 r (0 : Fin 1) k) = x (ix3 r (0 : Fin 2) k) := by
  show x (rb0.emb (ix3 r (0 : Fin 1) k)) = _
  refine congrArg x (funext fun a => Fin.ext ?_)
  match a with
  | ⟨0, _⟩ => show 0 + 1 * r.val = r.val; omega
  | ⟨1, _⟩ => show 0 + 1 * 0 = 0; rfl
  | ⟨2, _⟩ => show 0 + 1 * k.val = k.val; omega

/-- Batch row 1 of the input block, at (r, 0, k), is the block at (r, 1, k). -/
theorem ld_rb1 (x : Vec Ideal S1024x2x512 .f32) (r : Fin 1024) (k : Fin 512) :
    View.ld x rb1 (ix3 r (0 : Fin 1) k) = x (ix3 r (1 : Fin 2) k) := by
  show x (rb1.emb (ix3 r (0 : Fin 1) k)) = _
  refine congrArg x (funext fun a => Fin.ext ?_)
  match a with
  | ⟨0, _⟩ => show 0 + 1 * r.val = r.val; omega
  | ⟨1, _⟩ => show 1 + 1 * 0 = 1; rfl
  | ⟨2, _⟩ => show 0 + 1 * k.val = k.val; omega

/-! ## The two rows side by side -/

/-- The row index of (r, batch, d) is (r, 0, d). -/
theorem rowOf_ix3 (r : Fin 1024) (bb : Fin 2) (d : Fin 512) :
    Cert.Rows.rowOf (n := 1024) (ix3 r bb d) = ix3 r (0 : Fin 1) d := by
  funext a; match a with | ⟨0, _⟩ => rfl | ⟨1, _⟩ => rfl | ⟨2, _⟩ => rfl

/-- The two batch rows' projections side by side, at (position r, batch, feature d): the sum over the input feature k
    of x(r, batch, k) * w(d, k), plus the bias b(0, d). -/
theorem merge2_rowProj_apply (x : Vec Ideal S1024x2x512 .f32) (w : Vec Ideal S512x512 .f32) (b : Vec Ideal S1x512 .f32)
    (r : Fin 1024) (bb : Fin 2) (d : Fin 512) :
    Cert.Rows.merge2 (n := 1024) (rowProj (View.ld w rW) (View.ld b rB) (View.ld x rb0))
        (rowProj (View.ld w rW) (View.ld b rB) (View.ld x rb1)) (ix3 r bb d)
      = (∑ k : Fin 512, x (ix3 r bb k) * w (ix2 d k)) + b (ix2 (0 : Fin 1) d) := by
  rw [ld_rW, ld_rB]
  unfold Cert.Rows.merge2
  rw [rowOf_ix3]
  match bb with
  | ⟨0, _⟩ =>
    refine (if_pos (show ((ix3 r (⟨0, by omega⟩ : Fin 2) d : S1024x2x512.Idx) 1).val = 0 from rfl)).trans ?_
    refine (rowProj_apply w b _ r 0 d).trans ?_
    exact congrArg₂ (· + ·) (Finset.sum_congr rfl fun k _ => congrArg₂ (· * ·) (ld_rb0 x r k) rfl) rfl
  | ⟨1, _⟩ =>
    refine (if_neg (show ¬((ix3 r (⟨1, by omega⟩ : Fin 2) d : S1024x2x512.Idx) 1).val = 0 from Nat.one_ne_zero)).trans ?_
    refine (rowProj_apply w b _ r 0 d).trans ?_
    exact congrArg₂ (· + ·) (Finset.sum_congr rfl fun k _ => congrArg₂ (· * ·) (ld_rb1 x r k) rfl) rfl

/-! ## The three output blocks at an index -/

/-- The query output block at (position r, batch, feature d). -/
theorem outQ_apply (x : Vec Ideal S1024x2x512 .f32) (w : Vec Ideal S512x512 .f32) (b : Vec Ideal S1x512 .f32)
    (r : Fin 1024) (bb : Fin 2) (d : Fin 512) :
    outQ (F := Ideal) x w b (ix3 r bb d) = (∑ k : Fin 512, x (ix3 r bb k) * w (ix2 d k)) + b (ix2 (0 : Fin 1) d) := by
  unfold outQ
  rw [payQ_row0, payQ_row1]
  exact merge2_rowProj_apply x w b r bb d

/-- The key output block at (position r, batch, feature d). -/
theorem outK_apply (x : Vec Ideal S1024x2x512 .f32) (w : Vec Ideal S512x512 .f32) (b : Vec Ideal S1x512 .f32)
    (r : Fin 1024) (bb : Fin 2) (d : Fin 512) :
    outK (F := Ideal) x w b (ix3 r bb d) = (∑ k : Fin 512, x (ix3 r bb k) * w (ix2 d k)) + b (ix2 (0 : Fin 1) d) := by
  unfold outK
  rw [payK_row0, payK_row1]
  exact merge2_rowProj_apply x w b r bb d

/-- The value output block at (position r, batch, feature d). -/
theorem outV_apply (x : Vec Ideal S1024x2x512 .f32) (w : Vec Ideal S512x512 .f32) (b : Vec Ideal S1x512 .f32)
    (r : Fin 1024) (bb : Fin 2) (d : Fin 512) :
    outV (F := Ideal) x w b (ix3 r bb d) = (∑ k : Fin 512, x (ix3 r bb k) * w (ix2 d k)) + b (ix2 (0 : Fin 1) d) := by
  unfold outV
  rw [payV_row0, payV_row1]
  exact merge2_rowProj_apply x w b r bb d

end Cert.KernelIdeal.Hand

end
-- ==== Proof.KI_Value0.lean ====
import proofs.«180238_j18949395710129_2_alg».proof.Proof.KI_Region0
import proofs.«180238_j18949395710129_2_alg».proof.Proof.KI_Value0Pt
import proofs.«180238_j18949395710129_2_alg».proof.Proof.Arrays
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Arrays (projArr)

/-! # What the projection region leaves in its three output arrays

Each grid point writes back the projection of its 1024 positions; the four points' blocks tile the 4096 positions; so
each output array ends holding the projection of the whole input array: entry (s, b, e) is the sum over i of
x(s, b, i) * W(e, i), plus bias(0, e) (the bias as the region finds it, a [1, 512] array). -/

section
variable (V : (c : Dev nD) → (b : Ref sig .tc) → Buf (Elt Ideal) ((c : Thread nD τ).loc b))

/-- The output block's contents at a block index. -/
theorem outQ_at (x : Vec Ideal S1024x2x512 .f32) (w : Vec Ideal S512x512 .f32) (b : Vec Ideal S1x512 .f32) (j : S1024x2x512.Idx) :
    outQ (F := Ideal) x w b j = (∑ k : Fin 512, x (ix3 (⟨(j 0).val, (j 0).isLt⟩ : Fin 1024) (⟨(j 1).val, (j 1).isLt⟩ : Fin 2) k) * w (ix2 (⟨(j 2).val, (j 2).isLt⟩ : Fin 512) k))
      + b (ix2 (0 : Fin 1) (⟨(j 2).val, (j 2).isLt⟩ : Fin 512)) := by
  have ej : j = ix3 (⟨(j 0).val, (j 0).isLt⟩ : Fin 1024) (⟨(j 1).val, (j 1).isLt⟩ : Fin 2) (⟨(j 2).val, (j 2).isLt⟩ : Fin 512) :=
    funext fun a => Fin.ext (by match a with | ⟨0, _⟩ => rfl | ⟨1, _⟩ => rfl | ⟨2, _⟩ => rfl)
  exact (congrArg (outQ (F := Ideal) x w b) ej).trans (outQ_apply x w b _ _ _)

/-- The printed index maps, decided over the grid. -/
theorem idx_facts9 : ∀ t : Fin cfg0.N,
    win0_0.index t (0 : Fin 3) = win0_9.index t (0 : Fin 3) ∧ win0_0.index t (1 : Fin 3) = 0 ∧ win0_0.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_9.index t (1 : Fin 3) = 0 ∧ win0_9.index t (2 : Fin 3) = 0 ∧ win0_9.index t (0 : Fin 3) ≤ 3 :=
  (by decide +kernel : ∀ t : Fin grid0.N, _)

/-- Every block of the array is some point's. -/
theorem idx_onto9 : ∀ q0 : Fin 4, ∃ t : Fin cfg0.N, win0_9.index t = ![q0.val, 0, 0] :=
  (by decide +kernel : ∀ q0 : Fin 4, ∃ t : Fin grid0.N, win0_9.index t = ![q0.val, 0, 0])

/-- What point t writes back is block t of the whole array's projection. -/
theorem flushed9_eq (c : Dev nD) (t : Fin cfg0.N) :
    (dat0 V c).flushed 9 t = ((cfg0.win 9).blk t).view.read (Elt Ideal) (projArr (V c main_arg0) (V c main_arg3) (V c main_v0)) := by
  show (cfg0.win 9).cut (grid0.coords t) ((dat0 V c).after 9 t) = _
  rw [after0_9]
  obtain ⟨e0, e1, e2, e3, e4, e5, e6, e7, e8, e9⟩ := idx_facts9 t
  funext j
  have hj0 : (j 0).val < 1024 := (j 0).isLt
  have hj1 : (j 1).val < 2 := (j 1).isLt
  have hj2 : (j 2).val < 512 := (j 2).isLt
  refine (outQ_at (iblk0 V c 0 t) (iblk0 V c 3 t) (iblk0 V c 4 t) j).trans ?_
  show _ = projArr (V c main_arg0) (V c main_arg3) (V c main_v0) (((cfg0.win 9).blk t).view.emb j)
  unfold projArr
  refine congr (congrArg HAdd.hAdd (Finset.sum_congr rfl fun k _ => ?_)) ?_
  · refine congr (congrArg HMul.hMul ?_) ?_
    · show V c main_arg0 (((cfg0.win 0).blk t).view.emb (ix3 (⟨(j 0).val, (j 0).isLt⟩ : Fin 1024) (⟨(j 1).val, (j 1).isLt⟩ : Fin 2) k)) = V c main_arg0 _
      refine congrArg _ (funext fun a => Fin.ext ?_)
      match a with
      | ⟨0, _⟩ => show win0_0.index t (0 : Fin 3) * 1024 + 1 * (j 0).val = win0_9.index t (0 : Fin 3) * 1024 + 1 * (j 0).val; omega
      | ⟨1, _⟩ => show win0_0.index t (1 : Fin 3) * 2 + 1 * (j 1).val = win0_9.index t (1 : Fin 3) * 2 + 1 * (j 1).val; omega
      | ⟨2, _⟩ => show win0_0.index t (2 : Fin 3) * 512 + 1 * k.val = k.val; omega
    · show V c main_arg3 (((cfg0.win 3).blk t).view.emb (ix2 (⟨(j 2).val, (j 2).isLt⟩ : Fin 512) k)) = V c main_arg3 _
      refine congrArg _ (funext fun a => Fin.ext ?_)
      match a with
      | ⟨0, _⟩ => show win0_3.index t (0 : Fin 2) * 512 + 1 * (j 2).val = win0_9.index t (2 : Fin 3) * 512 + 1 * (j 2).val; omega
      | ⟨1, _⟩ => show win0_3.index t (1 : Fin 2) * 512 + 1 * k.val = k.val; omega
  · show V c main_v0 (((cfg0.win 4).blk t).view.emb (ix2 (0 : Fin 1) (⟨(j 2).val, (j 2).isLt⟩ : Fin 512))) = V c main_v0 _
    refine congrArg _ (funext fun a => Fin.ext ?_)
    match a with
    | ⟨0, _⟩ => show win0_4.index t (0 : Fin 2) * 1 + 1 * 0 = 0; omega
    | ⟨1, _⟩ => show win0_4.index t (1 : Fin 2) * 512 + 1 * (j 2).val = win0_9.index t (2 : Fin 3) * 512 + 1 * (j 2).val; omega

/-- An index of the array is in point t's block iff each coordinate is in the block's range on its axis. -/
theorem mem_blk9 (t : Fin cfg0.N) (i : S4096x2x512.Idx) :
    i ∈ ((cfg0.win 9).blk t).view.set ↔ ∀ a : Fin 3, win0_9.index t a * S1024x2x512.size a ≤ (i a).val ∧ (i a).val < win0_9.index t a * S1024x2x512.size a + S1024x2x512.size a := by
  show i ∈ ((View.whole main_v4_0).slice (win0_9.rect t)).set ↔ _
  rw [View.set_slice_whole, Rect.mem_set_unit]
  exact Iff.rfl

/-- Every index is in the block of the point its position's block belongs to. -/
theorem cover9 (i : S4096x2x512.Idx) : ∃ t : Fin cfg0.N, (cfg0.win 9).flush t = true ∧ i ∈ ((cfg0.win 9).blk t).view.set := by
  have hi0 : (i 0).val < 4096 := (i 0).isLt
  have hi1 : (i 1).val < 2 := (i 1).isLt
  have hi2 : (i 2).val < 512 := (i 2).isLt
  obtain ⟨t, ht⟩ := idx_onto9 ⟨(i 0).val / 1024, by omega⟩
  have q0 : win0_9.index t (0 : Fin 3) = (i 0).val / 1024 := congrFun ht 0
  have q1 : win0_9.index t (1 : Fin 3) = 0 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 1024 ≤ (i 0).val ∧ (i 0).val < win0_9.index t (0 : Fin 3) * 1024 + 1024; omega
  | ⟨1, _⟩ => show win0_9.index t (1 : Fin 3) * 2 ≤ (i 1).val ∧ (i 1).val < win0_9.index t (1 : Fin 3) * 2 + 2; omega
  | ⟨2, _⟩ => show win0_9.index t (2 : Fin 3) * 512 ≤ (i 2).val ∧ (i 2).val < win0_9.index t (2 : Fin 3) * 512 + 512; omega

/-- The array after the region: the whole projection. -/
theorem final9 (c : Dev nD) : (dat0 V c).arrAt 9 cfg0.N = projArr (V c main_arg0) (V c main_arg3) (V c main_v0) :=
  (dat0 V c).arrAt_eq_of_cover 9 _ (fun t _ => flushed9_eq V c t) cover9

/-- The output block's contents at a block index. -/
theorem outK_at (x : Vec Ideal S1024x2x512 .f32) (w : Vec Ideal S512x512 .f32) (b : Vec Ideal S1x512 .f32) (j : S1024x2x512.Idx) :
    outK (F := Ideal) x w b j = (∑ k : Fin 512, x (ix3 (⟨(j 0).val, (j 0).isLt⟩ : Fin 1024) (⟨(j 1).val, (j 1).isLt⟩ : Fin 2) k) * w (ix2 (⟨(j 2).val, (j 2).isLt⟩ : Fin 512) k))
      + b (ix2 (0 : Fin 1) (⟨(j 2).val, (j 2).isLt⟩ : Fin 512)) := by
  have ej : j = ix3 (⟨(j 0).val, (j 0).isLt⟩ : Fin 1024) (⟨(j 1).val, (j 1).isLt⟩ : Fin 2) (⟨(j 2).val, (j 2).isLt⟩ : Fin 512) :=
    funext fun a => Fin.ext (by match a with | ⟨0, _⟩ => rfl | ⟨1, _⟩ => rfl | ⟨2, _⟩ => rfl)
  exact (congrArg (outK (F := Ideal) x w b) ej).trans (outK_apply x w b _ _ _)

/-- The printed index maps, decided over the grid. -/
theorem idx_facts10 : ∀ t : Fin cfg0.N,
    win0_1.index t (0 : Fin 3) = win0_10.index t (0 : Fin 3) ∧ win0_1.index t (1 : Fin 3) = 0 ∧ win0_1.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_10.index t (1 : Fin 3) = 0 ∧ win0_10.index t (2 : Fin 3) = 0 ∧ win0_10.index t (0 : Fin 3) ≤ 3 :=
  (by decide +kernel : ∀ t : Fin grid0.N, _)

/-- Every block of the array is some point's. -/
theorem idx_onto10 : ∀ q0 : Fin 4, ∃ t : Fin cfg0.N, win0_10.index t = ![q0.val, 0, 0] :=
  (by decide +kernel : ∀ q0 : Fin 4, ∃ t : Fin grid0.N, win0_10.index t = ![q0.val, 0, 0])

/-- What point t writes back is block t of the whole array's projection. -/
theorem flushed10_eq (c : Dev nD) (t : Fin cfg0.N) :
    (dat0 V c).flushed 10 t = ((cfg0.win 10).blk t).view.read (Elt Ideal) (projArr (V c main_arg1) (V c main_arg5) (V c main_v1)) := by
  show (cfg0.win 10).cut (grid0.coords t) ((dat0 V c).after 10 t) = _
  rw [after0_10]
  obtain ⟨e0, e1, e2, e3, e4, e5, e6, e7, e8, e9⟩ := idx_facts10 t
  funext j
  have hj0 : (j 0).val < 1024 := (j 0).isLt
  have hj1 : (j 1).val < 2 := (j 1).isLt
  have hj2 : (j 2).val < 512 := (j 2).isLt
  refine (outK_at (iblk0 V c 1 t) (iblk0 V c 5 t) (iblk0 V c 6 t) j).trans ?_
  show _ = projArr (V c main_arg1) (V c main_arg5) (V c main_v1) (((cfg0.win 10).blk t).view.emb j)
  unfold projArr
  refine congr (congrArg HAdd.hAdd (Finset.sum_congr rfl fun k _ => ?_)) ?_
  · refine congr (congrArg HMul.hMul ?_) ?_
    · show V c main_arg1 (((cfg0.win 1).blk t).view.emb (ix3 (⟨(j 0).val, (j 0).isLt⟩ : Fin 1024) (⟨(j 1).val, (j 1).isLt⟩ : Fin 2) k)) = V c main_arg1 _
      refine congrArg _ (funext fun a => Fin.ext ?_)
      match a with
      | ⟨0, _⟩ => show win0_1.index t (0 : Fin 3) * 1024 + 1 * (j 0).val = win0_10.index t (0 : Fin 3) * 1024 + 1 * (j 0).val; omega
      | ⟨1, _⟩ => show win0_1.index t (1 : Fin 3) * 2 + 1 * (j 1).val = win0_10.index t (1 : Fin 3) * 2 + 1 * (j 1).val; omega
      | ⟨2, _⟩ => show win0_1.index t (2 : Fin 3) * 512 + 1 * k.val = k.val; omega
    · show V c main_arg5 (((cfg0.win 5).blk t).view.emb (ix2 (⟨(j 2).val, (j 2).isLt⟩ : Fin 512) k)) = V c main_arg5 _
      refine congrArg _ (funext fun a => Fin.ext ?_)
      match a with
      | ⟨0, _⟩ => show win0_5.index t (0 : Fin 2) * 512 + 1 * (j 2).val = win0_10.index t (2 : Fin 3) * 512 + 1 * (j 2).val; omega
      | ⟨1, _⟩ => show win0_5.index t (1 : Fin 2) * 512 + 1 * k.val = k.val; omega
  · show V c main_v1 (((cfg0.win 6).blk t).view.emb (ix2 (0 : Fin 1) (⟨(j 2).val, (j 2).isLt⟩ : Fin 512))) = V c main_v1 _
    refine congrArg _ (funext fun a => Fin.ext ?_)
    match a with
    | ⟨0, _⟩ => show win0_6.index t (0 : Fin 2) * 1 + 1 * 0 = 0; omega
    | ⟨1, _⟩ => show win0_6.index t (1 : Fin 2) * 512 + 1 * (j 2).val = win0_10.index t (2 : Fin 3) * 512 + 1 * (j 2).val; omega

/-- An index of the array is in point t's block iff each coordinate is in the block's range on its axis. -/
theorem mem_blk10 (t : Fin cfg0.N) (i : S4096x2x512.Idx) :
    i ∈ ((cfg0.win 10).blk t).view.set ↔ ∀ a : Fin 3, win0_10.index t a * S1024x2x512.size a ≤ (i a).val ∧ (i a).val < win0_10.index t a * S1024x2x512.size a + S1024x2x512.size a := by
  show i ∈ ((View.whole main_v4_1).slice (win0_10.rect t)).set ↔ _
  rw [View.set_slice_whole, Rect.mem_set_unit]
  exact Iff.rfl

/-- Every index is in the block of the point its position's block belongs to. -/
theorem cover10 (i : S4096x2x512.Idx) : ∃ t : Fin cfg0.N, (cfg0.win 10).flush t = true ∧ i ∈ ((cfg0.win 10).blk t).view.set := by
  have hi0 : (i 0).val < 4096 := (i 0).isLt
  have hi1 : (i 1).val < 2 := (i 1).isLt
  have hi2 : (i 2).val < 512 := (i 2).isLt
  obtain ⟨t, ht⟩ := idx_onto10 ⟨(i 0).val / 1024, by omega⟩
  have q0 : win0_10.index t (0 : Fin 3) = (i 0).val / 1024 := congrFun ht 0
  have q1 : win0_10.index t (1 : Fin 3) = 0 := congrFun ht 1
  have q2 : win0_10.index t (2 : Fin 3) = 0 := congrFun ht 2
  refine ⟨t, flush0_10 t, ?_⟩
  rw [mem_blk10]
  intro a
  match a with
  | ⟨0, _⟩ => show win0_10.index t (0 : Fin 3) * 1024 ≤ (i 0).val ∧ (i 0).val < win0_10.index t (0 : Fin 3) * 1024 + 1024; omega
  | ⟨1, _⟩ => show win0_10.index t (1 : Fin 3) * 2 ≤ (i 1).val ∧ (i 1).val < win0_10.index t (1 : Fin 3) * 2 + 2; omega
  | ⟨2, _⟩ => show win0_10.index t (2 : Fin 3) * 512 ≤ (i 2).val ∧ (i 2).val < win0_10.index t (2 : Fin 3) * 512 + 512; omega

/-- The array after the region: the whole projection. -/
theorem final10 (c : Dev nD) : (dat0 V c).arrAt 10 cfg0.N = projArr (V c main_arg1) (V c main_arg5) (V c main_v1) :=
  (dat0 V c).arrAt_eq_of_cover 10 _ (fun t _ => flushed10_eq V c t) cover10

/-- The output block's contents at a block index. -/
theorem outV_at (x : Vec Ideal S1024x2x512 .f32) (w : Vec Ideal S512x512 .f32) (b : Vec Ideal S1x512 .f32) (j : S1024x2x512.Idx) :
    outV (F := Ideal) x w b j = (∑ k : Fin 512, x (ix3 (⟨(j 0).val, (j 0).isLt⟩ : Fin 1024) (⟨(j 1).val, (j 1).isLt⟩ : Fin 2) k) * w (ix2 (⟨(j 2).val, (j 2).isLt⟩ : Fin 512) k))
      + b (ix2 (0 : Fin 1) (⟨(j 2).val, (j 2).isLt⟩ : Fin 512)) := by
  have ej : j = ix3 (⟨(j 0).val, (j 0).isLt⟩ : Fin 1024) (⟨(j 1).val, (j 1).isLt⟩ : Fin 2) (⟨(j 2).val, (j 2).isLt⟩ : Fin 512) :=
    funext fun a => Fin.ext (by match a with | ⟨0, _⟩ => rfl | ⟨1, _⟩ => rfl | ⟨2, _⟩ => rfl)
  exact (congrArg (outV (F := Ideal) x w b) ej).trans (outV_apply x w b _ _ _)

/-- The printed index maps, decided over the grid. -/
theorem idx_facts11 : ∀ t : Fin cfg0.N,
    win0_2.index t (0 : Fin 3) = win0_11.index t (0 : Fin 3) ∧ win0_2.index t (1 : Fin 3) = 0 ∧ win0_2.index t (2 : Fin 3) = 0
    ∧ win0_7.index t (0 : Fin 2) = 0 ∧ win0_7.index t (1 : Fin 2) = 0
    ∧ win0_8.index t (0 : Fin 2) = 0 ∧ win0_8.index t (1 : Fin 2) = 0
    ∧ win0_11.index t (1 : Fin 3) = 0 ∧ win0_11.index t (2 : Fin 3) = 0 ∧ win0_11.index t (0 : Fin 3) ≤ 3 :=
  (by decide +kernel : ∀ t : Fin grid0.N, _)

/-- Every block of the array is some point's. -/
theorem idx_onto11 : ∀ q0 : Fin 4, ∃ t : Fin cfg0.N, win0_11.index t = ![q0.val, 0, 0] :=
  (by decide +kernel : ∀ q0 : Fin 4, ∃ t : Fin grid0.N, win0_11.index t = ![q0.val, 0, 0])

/-- What point t writes back is block t of the whole array's projection. -/
theorem flushed11_eq (c : Dev nD) (t : Fin cfg0.N) :
    (dat0 V c).flushed 11 t = ((cfg0.win 11).blk t).view.read (Elt Ideal) (projArr (V c main_arg2) (V c main_arg7) (V c main_v2)) := by
  show (cfg0.win 11).cut (grid0.coords t) ((dat0 V c).after 11 t) = _
  rw [after0_11]
  obtain ⟨e0, e1, e2, e3, e4, e5, e6, e7, e8, e9⟩ := idx_facts11 t
  funext j
  have hj0 : (j 0).val < 1024 := (j 0).isLt
  have hj1 : (j 1).val < 2 := (j 1).isLt
  have hj2 : (j 2).val < 512 := (j 2).isLt
  refine (outV_at (iblk0 V c 2 t) (iblk0 V c 7 t) (iblk0 V c 8 t) j).trans ?_
  show _ = projArr (V c main_arg2) (V c main_arg7) (V c main_v2) (((cfg0.win 11).blk t).view.emb j)
  unfold projArr
  refine congr (congrArg HAdd.hAdd (Finset.sum_congr rfl fun k _ => ?_)) ?_
  · refine congr (congrArg HMul.hMul ?_) ?_
    · show V c main_arg2 (((cfg0.win 2).blk t).view.emb (ix3 (⟨(j 0).val, (j 0).isLt⟩ : Fin 1024) (⟨(j 1).val, (j 1).isLt⟩ : Fin 2) k)) = V c main_arg2 _
      refine congrArg _ (funext fun a => Fin.ext ?_)
      match a with
      | ⟨0, _⟩ => show win0_2.index t (0 : Fin 3) * 1024 + 1 * (j 0).val = win0_11.index t (0 : Fin 3) * 1024 + 1 * (j 0).val; omega
      | ⟨1, _⟩ => show win0_2.index t (1 : Fin 3) * 2 + 1 * (j 1).val = win0_11.index t (1 : Fin 3) * 2 + 1 * (j 1).val; omega
      | ⟨2, _⟩ => show win0_2.index t (2 : Fin 3) * 512 + 1 * k.val = k.val; omega
    · show V c main_arg7 (((cfg0.win 7).blk t).view.emb (ix2 (⟨(j 2).val, (j 2).isLt⟩ : Fin 512) k)) = V c main_arg7 _
      refine congrArg _ (funext fun a => Fin.ext ?_)
      match a with
      | ⟨0, _⟩ => show win0_7.index t (0 : Fin 2) * 512 + 1 * (j 2).val = win0_11.index t (2 : Fin 3) * 512 + 1 * (j 2).val; omega
      | ⟨1, _⟩ => show win0_7.index t (1 : Fin 2) * 512 + 1 * k.val = k.val; omega
  · show V c main_v2 (((cfg0.win 8).blk t).view.emb (ix2 (0 : Fin 1) (⟨(j 2).val, (j 2).isLt⟩ : Fin 512))) = V c main_v2 _
    refine congrArg _ (funext fun a => Fin.ext ?_)
    match a with
    | ⟨0, _⟩ => show win0_8.index t (0 : Fin 2) * 1 + 1 * 0 = 0; omega
    | ⟨1, _⟩ => show win0_8.index t (1 : Fin 2) * 512 + 1 * (j 2).val = win0_11.index t (2 : Fin 3) * 512 + 1 * (j 2).val; omega

/-- An index of the array is in point t's block iff each coordinate is in the block's range on its axis. -/
theorem mem_blk11 (t : Fin cfg0.N) (i : S4096x2x512.Idx) :
    i ∈ ((cfg0.win 11).blk t).view.set ↔ ∀ a : Fin 3, win0_11.index t a * S1024x2x512.size a ≤ (i a).val ∧ (i a).val < win0_11.index t a * S1024x2x512.size a + S1024x2x512.size a := by
  show i ∈ ((View.whole main_v4_2).slice (win0_11.rect t)).set ↔ _
  rw [View.set_slice_whole, Rect.mem_set_unit]
  exact Iff.rfl

/-- Every index is in the block of the point its position's block belongs to. -/
theorem cover11 (i : S4096x2x512.Idx) : ∃ t : Fin cfg0.N, (cfg0.win 11).flush t = true ∧ i ∈ ((cfg0.win 11).blk t).view.set := by
  have hi0 : (i 0).val < 4096 := (i 0).isLt
  have hi1 : (i 1).val < 2 := (i 1).isLt
  have hi2 : (i 2).val < 512 := (i 2).isLt
  obtain ⟨t, ht⟩ := idx_onto11 ⟨(i 0).val / 1024, by omega⟩
  have q0 : win0_11.index t (0 : Fin 3) = (i 0).val / 1024 := congrFun ht 0
  have q1 : win0_11.index t (1 : Fin 3) = 0 := congrFun ht 1
  have q2 : win0_11.index t (2 : Fin 3) = 0 := congrFun ht 2
  refine ⟨t, flush0_11 t, ?_⟩
  rw [mem_blk11]
  intro a
  match a with
  | ⟨0, _⟩ => show win0_11.index t (0 : Fin 3) * 1024 ≤ (i 0).val ∧ (i 0).val < win0_11.index t (0 : Fin 3) * 1024 + 1024; omega
  | ⟨1, _⟩ => show win0_11.index t (1 : Fin 3) * 2 ≤ (i 1).val ∧ (i 1).val < win0_11.index t (1 : Fin 3) * 2 + 2; omega
  | ⟨2, _⟩ => show win0_11.index t (2 : Fin 3) * 512 ≤ (i 2).val ∧ (i 2).val < win0_11.index t (2 : Fin 3) * 512 + 512; omega

/-- The array after the region: the whole projection. -/
theorem final11 (c : Dev nD) : (dat0 V c).arrAt 11 cfg0.N = projArr (V c main_arg2) (V c main_arg7) (V c main_v2) :=
  (dat0 V c).arrAt_eq_of_cover 11 _ (fun t _ => flushed11_eq V c t) cover11

end

end Cert.KernelIdeal.Hand

end
-- ==== Proof.LibMatmulPlain.lean ====
/-
  A plain matrix product read at an index written by coordinates.

  For the dimension numbers "rows × contraction times contraction × columns" (`DotDims.plain M K N`: the left operand
  `[M, K]` contracted on its last axis against the first axis of the right operand `[K, N]`, no batch axis), a
  `tpu.matmul` into the zero accumulator, read on the extended reals at `(r, c)`, is the sum over `k` of the left
  operand at `(r, k)` times the right operand at `(k, c)`: the library reads the product as a sum over the dot's own
  contraction index, whose operand indices are named coordinate by coordinate here, and the one-axis contraction index
  is exchanged for `Fin K`.
-/
import Idealize.ShloMosaic.PureOps.Ideal.Laws
import Idealize.ShloMosaic.Lib.ValueIdx

namespace Cert.LibMatmulPlain

open Idealize.ShloMosaic Idealize.ShloMosaic.ValueIdx

variable {M K N : ℕ}

/-- The left operand's index keeps the output's row. -/
theorem lhsIdx_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's index takes the contraction position as its column. -/
theorem lhsIdx_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index takes the contraction position as its row. -/
theorem rhsIdx_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's index keeps the output's column. -/
theorem rhsIdx_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- A plain `[M, K] × [K, N]` product into the zero accumulator, at `(r, c)`: `∑ k, L (r, k) · R (k, c)`. -/
theorem matmul_plain_zero_apply {φ₁ φ₂ : FTy} (prec : Option ContractPrecision)
    (L : FVec Ideal ⟨2, ![M, K]⟩ φ₁) (R : FVec Ideal ⟨2, ![K, N]⟩ φ₂) (r : Fin M) (c : Fin N) :
    FloatOps.matmul (DotDims.plain M K N) prec L R (constant ⟨2, ![M, N]⟩ .f32 0x00000000#32) (ix2 r c)
      = ∑ k : Fin K, L (ix2 r k) * R (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhsIdx_row _ _
      | ⟨1, _⟩ => exact (lhsIdx_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhsIdx_row _ _).trans hk
      | ⟨1, _⟩ => exact rhsIdx_col _ _)
  rw [el, er]

end Cert.LibMatmulPlain
-- ==== Proof.KI_Value1Pt.lean ====
import proofs.«180238_j18949395710129_2_alg».proof.Proof.KI_Region1
import proofs.«180238_j18949395710129_2_alg».proof.Proof.LibGram
import proofs.«180238_j18949395710129_2_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

/-! # The attention region's two values, read at one element, on the extended reals

One key block's step adds to the running total, per batch row, the tanh-weighted values of that key block:
at (r, b, d) the total grows by the sum over the key positions t of tanh(q(r, b, ·) · k(t, b, ·)) times v(t, b, d).
The output block is gamma times the total plus the value block. Both are read here element by element: the two
matrix products become sums over their contraction axis, the casts between [n, 1, 512] and [n, 512] keep the
element, the narrowing to the 16-bit format is the identity on extended reals, and the zero block reads 0. -/

noncomputable section

namespace Cert.KernelIdeal.Hand

open Cert.KernelIdeal Cert.KernelIdeal.Gen Idealize.ShloMosaic Idealize.ShloMosaic.ValueIdx

/-! ## The two products' dimension numbers -/

/-- Queries times keys: both operands contracted on their last axis. -/
theorem dotQK_eq : dot_S2048x512_S1024x512_S2048x1024_1_1_0_0_n_n = DotDims.transposedRhs 2048 512 1024 := rfl

/-- Weights times values: rows by contraction times contraction by columns. -/
theorem dotWV_eq : dot_S2048x1024_S1024x512_S2048x512_1_0_0_1_n_n = DotDims.plain 2048 1024 512 := rfl

/-! ## A unit middle axis dropped or added by a shape cast -/

section Cast
variable {α : Type} {n m : ℕ}

/-- An [n, 1, m] array cast to [n, m] reads, at (i, j), the operand at (i, 0, j). -/
theorem cast_drop_mid (x : (⟨3, ![n, 1, m]⟩ : Shape).Idx → α) (h : (⟨3, ![n, 1, m]⟩ : Shape).ShapeCasts ⟨2, ![n, m]⟩)
    (i : Fin n) (j : Fin m) : shapeCast ⟨2, ![n, m]⟩ x h (ix2 i j) = x (ix3 i (0 : Fin 1) j) :=
  shapeCast_apply x h _ _ (by
    rw [Shape.rowMajor_val_three, Shape.rowMajor_val_two]
    show (i.val * 1 + 0) * m + j.val = i.val * m + j.val
    rw [Nat.mul_one, Nat.add_zero])

/-- An [n, m] array cast to [n, 1, m] reads, at (i, u, j), the operand at (i, j). -/
theorem cast_add_mid (x : (⟨2, ![n, m]⟩ : Shape).Idx → α) (h : (⟨2, ![n, m]⟩ : Shape).ShapeCasts ⟨3, ![n, 1, m]⟩)
    (i : Fin n) (u : Fin 1) (j : Fin m) : shapeCast ⟨3, ![n, 1, m]⟩ x h (ix3 i u j) = x (ix2 i j) :=
  shapeCast_apply x h _ _ (by
    have hu : u.val = 0 := by omega
    rw [Shape.rowMajor_val_three, Shape.rowMajor_val_two]
    show i.val * m + j.val = (i.val * 1 + u.val) * m + j.val
    rw [hu, Nat.mul_one, Nat.add_zero])

end Cast

/-! ## The two products at an element -/

/-- Queries times keys into the zero block, at (r, c): the sum over e of L (r, e) times R (c, e). -/
theorem mmQK_apply (L : FVec Ideal S2048x512 .bf16) (R : FVec Ideal S1024x512 .bf16) (r : Fin 2048) (c : Fin 1024) :
    matmul dot_S2048x512_S1024x512_S2048x1024_1_1_0_0_n_n none L R (constant S2048x1024 .f32 0x00000000#32) (ix2 r c)
      = ∑ e : Fin 512, L (ix2 r e) * R (ix2 c e) := by
  rw [dotQK_eq]
  exact Cert.LibGram.matmul_transposedRhs_zero_apply none L R r c

/-- Weights times values into the zero block, at (r, c): the sum over t of L (r, t) times R (t, c). -/
theorem mmWV_apply (L : FVec Ideal S2048x1024 .bf16) (R : FVec Ideal S1024x512 .bf16) (r : Fin 2048) (c : Fin 512) :
    matmul dot_S2048x1024_S1024x512_S2048x512_1_0_0_1_n_n none L R (constant S2048x512 .f32 0x00000000#32) (ix2 r c)
      = ∑ t : Fin 1024, L (ix2 r t) * R (ix2 t c) := by
  rw [dotWV_eq]
  exact Cert.LibMatmulPlain.matmul_plain_zero_apply none L R r c

/-! ## The zero block -/

theorem zeros_apply (i : S2048x2x512.Idx) : (k1_pay3 (F := Ideal)) i = 0 := by
  unfold k1_pay3
  show Ideal.ofBits .f32 0x00000000#32 = 0
  exact Ideal.ofBits_zero_f32

/-! ## tanh, then the narrowing to the 16-bit format, at an element -/

/-- On extended reals the narrowing is the identity, so the narrowed tanh of a block reads tanh of the element. -/
theorem truncf_tanh_apply {s : Shape} (X : FVec Ideal s .f32) (h : FTy.bits .bf16 < FTy.bits .f32) (i : s.Idx) :
    (truncf .bf16 (tanh X) h : FVec Ideal s .bf16) i = Ideal.tanh (X i) := rfl

/-! ## One batch row's step -/

/-- The first batch row's step at (r, u, d): the row total there plus the sum over the key positions t of
    tanh of the query-key product at (r, t) times the value at (t, d). -/
theorem pay5_apply (Q : Vec Ideal S2048x1x512 .bf16) (Kk Vv : Vec Ideal S1024x1x512 .bf16) (T : Vec Ideal S2048x1x512 .f32)
    (r : Fin 2048) (u : Fin 1) (d : Fin 512) :
    k1_pay5 (F := Ideal) Q Kk Vv T (ix3 r u d)
      = T (ix3 r (0 : Fin 1) d)
        + ∑ t : Fin 1024, Ideal.tanh (∑ e : Fin 512, Q (ix3 r (0 : Fin 1) e) * Kk (ix3 t (0 : Fin 1) e)) * Vv (ix3 t (0 : Fin 1) d) := by
  unfold k1_pay5
  refine (cast_add_mid _ _ r u d).trans ?_
  refine congrArg₂ (· + ·) (cast_drop_mid T _ r d) ?_
  refine (mmWV_apply _ _ r d).trans ?_
  refine Finset.sum_congr rfl fun t _ => ?_
  refine congrArg₂ (· * ·) ?_ (cast_drop_mid Vv _ t d)
  refine (truncf_tanh_apply _ _ (ix2 r t)).trans (congrArg Ideal.tanh ?_)
  refine (mmQK_apply _ _ r t).trans ?_
  refine Finset.sum_congr rfl fun e _ => ?_
  exact congrArg₂ (· * ·) (cast_drop_mid Q _ r e) (cast_drop_mid Kk _ t e)

/-- The second batch row's step at (r, u, d): the same sum, its query and key rows cast beforehand. -/
theorem pay1_apply (Q : Vec Ideal S2048x1x512 .bf16) (Kk Vv : Vec Ideal S1024x1x512 .bf16) (T : Vec Ideal S2048x1x512 .f32)
    (r : Fin 2048) (u : Fin 1) (d : Fin 512) :
    k1_pay1 (F := Ideal) (k1_pay6 Q) (k1_pay7 Kk) Vv T (ix3 r u d)
      = T (ix3 r (0 : Fin 1) d)
        + ∑ t : Fin 1024, Ideal.tanh (∑ e : Fin 512, Q (ix3 r (0 : Fin 1) e) * Kk (ix3 t (0 : Fin 1) e)) * Vv (ix3 t (0 : Fin 1) d) := by
  unfold k1_pay1 k1_pay6 k1_pay7
  refine (cast_add_mid _ _ r u d).trans ?_
  refine congrArg₂ (· + ·) (cast_drop_mid T _ r d) ?_
  refine (mmWV_apply _ _ r d).trans ?_
  refine Finset.sum_congr rfl fun t _ => ?_
  refine congrArg₂ (· * ·) ?_ (cast_drop_mid Vv _ t d)
  refine (truncf_tanh_apply _ _ (ix2 r t)).trans (congrArg Ideal.tanh ?_)
  refine (mmQK_apply _ _ r t).trans ?_
  refine Finset.sum_congr rfl fun e _ => ?_
  exact congrArg₂ (· * ·) (cast_drop_mid Q _ r e) (cast_drop_mid Kk _ t e)

/-! ## One batch row of a block of two, loaded through its rectangle -/

section Rows
variable {α : Type} {Val : EltTy → Type} {e : EltTy} {n : ℕ}

/-- The rectangle of batch row 0 reads, at (r, u, d), the block at (r, 0, d). -/
theorem ld_row0 (X : (⟨3, ![n, 2, 512]⟩ : Shape).Idx → Val e)
    (inb : ∀ a, (![0, 0, 0] : Fin 3 → Nat) a + (⟨3, ![n, 1, 512]⟩ : Shape).size a ≤ (⟨3, ![n, 2, 512]⟩ : Shape).size a)
    (r : Fin n) (u : Fin 1) (d : Fin 512) (b : Fin 2) (hb : b.val = 0) :
    View.ld X (Rect.unit (s := ⟨3, ![n, 2, 512]⟩) ![0, 0, 0] (⟨3, ![n, 1, 512]⟩ : Shape).size inb) (ix3 r u d) = X (ix3 r b d) :=
  congrArg X (funext fun a => Fin.ext (by
    have hu : u.val < 1 := u.isLt
    match a with
    | ⟨0, _⟩ => show 0 + 1 * r.val = r.val; omega
    | ⟨1, _⟩ => show 0 + 1 * u.val = b.val; omega
    | ⟨2, _⟩ => show 0 + 1 * d.val = d.val; omega))

/-- The rectangle of batch row 1 reads, at (r, u, d), the block at (r, 1, d). -/
theorem ld_row1 (X : (⟨3, ![n, 2, 512]⟩ : Shape).Idx → Val e)
    (inb : ∀ a, (![0, 1, 0] : Fin 3 → Nat) a + (⟨3, ![n, 1, 512]⟩ : Shape).size a ≤ (⟨3, ![n, 2, 512]⟩ : Shape).size a)
    (r : Fin n) (u : Fin 1) (d : Fin 512) (b : Fin 2) (hb : b.val = 1) :
    View.ld X (Rect.unit (s := ⟨3, ![n, 2, 512]⟩) ![0, 1, 0] (⟨3, ![n, 1, 512]⟩ : Shape).size inb) (ix3 r u d) = X (ix3 r b d) :=
  congrArg X (funext fun a => Fin.ext (by
    have hu : u.val < 1 := u.isLt
    match a with
    | ⟨0, _⟩ => show 0 + 1 * r.val = r.val; omega
    | ⟨1, _⟩ => show 1 + 1 * u.val = b.val; omega
    | ⟨2, _⟩ => show 0 + 1 * d.val = d.val; omega))

/-- The row index of (r, b, d) is (r, 0, d). -/
theorem rowOf_ix3' (r : Fin n) (b : Fin 2) (d : Fin 512) : Cert.Rows.rowOf (n := n) (ix3 r b d) = ix3 r (0 : Fin 1) d := by
  funext a; match a with | ⟨0, _⟩ => rfl | ⟨1, _⟩ => rfl | ⟨2, _⟩ => rfl

/-- Two rows side by side read the first row at batch 0 ... -/
theorem merge2_row0 (A B : (Cert.Rows.SRow n).Idx → α) (r : Fin n) (b : Fin 2) (d : Fin 512) (hb : b.val = 0) :
    Cert.Rows.merge2 A B (ix3 r b d) = A (ix3 r (0 : Fin 1) d) :=
  (if_pos hb).trans (congrArg A (rowOf_ix3' r b d))

/-- ... and the second row at batch 1. -/
theorem merge2_row1 (A B : (Cert.Rows.SRow n).Idx → α) (r : Fin n) (b : Fin 2) (d : Fin 512) (hb : b.val = 1) :
    Cert.Rows.merge2 A B (ix3 r b d) = B (ix3 r (0 : Fin 1) d) :=
  (if_neg (fun h : b.val = 0 => by omega)).trans (congrArg B (rowOf_ix3' r b d))

end Rows

/-! ## The key block's step and the output block at an element -/

theorem accStep_apply (S : Vec Ideal S2048x2x512 .f32) (q : Vec Ideal S2048x2x512 .bf16) (k v : Vec Ideal S1024x2x512 .bf16)
    (r : Fin 2048) (bb : Fin 2) (d : Fin 512) :
    accStep (F := Ideal) S q k v (ix3 r bb d)
      = S (ix3 r bb d) + ∑ t : Fin 1024, Ideal.tanh (∑ e : Fin 512, q (ix3 r bb e) * k (ix3 t bb e)) * v (ix3 t bb d) := by
  unfold accStep
  match bb with
  | ⟨0, h0⟩ =>
    refine (merge2_row0 _ _ r ⟨0, h0⟩ d rfl).trans ?_
    refine (pay5_apply _ _ _ _ r 0 d).trans ?_
    exact congrArg₂ (· + ·) (ld_row0 S _ r 0 d ⟨0, h0⟩ rfl)
      (Finset.sum_congr rfl fun t _ => congrArg₂ (· * ·)
        (congrArg Ideal.tanh (Finset.sum_congr rfl fun e _ =>
          congrArg₂ (· * ·) (ld_row0 q _ r 0 e ⟨0, h0⟩ rfl) (ld_row0 k _ t 0 e ⟨0, h0⟩ rfl)))
        (ld_row0 v _ t 0 d ⟨0, h0⟩ rfl))
  | ⟨1, h1⟩ =>
    refine (merge2_row1 _ _ r ⟨1, h1⟩ d rfl).trans ?_
    refine (pay1_apply _ _ _ _ r 0 d).trans ?_
    exact congrArg₂ (· + ·) (ld_row1 S _ r 0 d ⟨1, h1⟩ rfl)
      (Finset.sum_congr rfl fun t _ => congrArg₂ (· * ·)
        (congrArg Ideal.tanh (Finset.sum_congr rfl fun e _ =>
          congrArg₂ (· * ·) (ld_row1 q _ r 0 e ⟨1, h1⟩ rfl) (ld_row1 k _ t 0 e ⟨1, h1⟩ rfl)))
        (ld_row1 v _ t 0 d ⟨1, h1⟩ rfl))

/-- The two zeros of a rank-2 offset, as the constant function. -/
theorem zero2' : (![0, 0] : Fin 2 → Nat) = fun _ => 0 := by
  funext a; match a with | ⟨0, _⟩ => rfl | ⟨1, _⟩ => rfl

theorem outFinal_apply (g : Vec Ideal S1x1 .f32) (S val : Vec Ideal S2048x2x512 .f32) (i : S2048x2x512.Idx) :
    outFinal (F := Ideal) g S val i = g (ix2 (0 : Fin 1) (0 : Fin 1)) * S i + val i := by
  have hg : View.ld g rG = g := View.ld_unit_zero (S := S1x1) zero2' inb_S1x1_S1x1_0_0 g
  have hv : View.ld val qAll = val :=
    View.ld_unit_zero (S := S2048x2x512) Cert.Rows.zero3 inb_S2048x2x512_S2048x2x512_0_0_0 val
  unfold outFinal k1_pay2 k1_pay4
  show extractAt ![0, 0] (View.ld g rG) inpos_S1x1_p0_0 * S i + View.ld val qAll i = _
  refine congrArg₂ (· + ·) (congrArg (· * S i) ?_) (congrFun hv i)
  refine (congrArg (fun G => extractAt ![0, 0] G inpos_S1x1_p0_0) hg).trans ?_
  exact congrArg g (funext fun a => Fin.ext (by match a with | ⟨0, _⟩ => rfl | ⟨1, _⟩ => rfl))

end Cert.KernelIdeal.Hand

end
-- ==== Proof.LibBlockSum.lean ====
/-
  Summing a sequence block by block.

  A sequence of n * w terms of an additive commutative monoid is cut into n consecutive blocks of w terms: block j holds
  the terms at positions j * w + k for k below w. The running total that starts from zero and adds one block's sum after
  another, nested to the left as ((0 + B0) + B1) + ..., ends at the sum of the whole sequence: every position below n * w
  is j * w + k for exactly one pair (j, k), so the sum over the positions is the sum over the pairs, block by block.
  The instance for four blocks of 1024 terms of a sequence of 4096 terms is stated with literal sizes.
-/
import Mathlib.Algebra.BigOperators.Fin

namespace Cert.BlockSum

open scoped BigOperators

variable {M : Type*} [AddCommMonoid M]

/-- Position k of block j lies in the sequence: j * w + k is below n * w when j is below n and k below w. -/
theorem idx_lt {n w : ℕ} (j : Fin n) (k : Fin w) : j.val * w + k.val < n * w :=
  calc j.val * w + k.val < j.val * w + w := Nat.add_lt_add_left k.isLt _
    _ = (j.val + 1) * w := (Nat.succ_mul _ _).symm
    _ ≤ n * w := Nat.mul_le_mul_right _ j.isLt

/-- The sum of block j: the w terms at positions j * w + k. -/
def blockSum (w : ℕ) {n : ℕ} (f : Fin (n * w) → M) (j : Fin n) : M :=
  ∑ k : Fin w, f ⟨j.val * w + k.val, idx_lt j k⟩

/-- The running total after the first m blocks, accumulated block by block from zero and nested to the left:
    ((0 + B0) + B1) + ... -/
def accBlocks (w : ℕ) {n : ℕ} (f : Fin (n * w) → M) : (m : ℕ) → m ≤ n → M
  | 0, _ => 0
  | m + 1, h => accBlocks w f m (Nat.le_of_succ_le h) + blockSum w f ⟨m, h⟩

/-- The running total after m blocks is the sum of the first m blocks' sums. -/
theorem accBlocks_eq_sum (w : ℕ) {n : ℕ} (f : Fin (n * w) → M) :
    ∀ (m : ℕ) (h : m ≤ n), accBlocks w f m h = ∑ j : Fin m, blockSum w f ⟨j.val, Nat.lt_of_lt_of_le j.isLt h⟩
  | 0, _ => (Finset.sum_empty).symm
  | m + 1, h => by
    rw [accBlocks, accBlocks_eq_sum w f m (Nat.le_of_succ_le h), Fin.sum_univ_castSucc]
    rfl

/-- The blocks' sums add up to the sum of the whole sequence: the positions below n * w are the pairs (block, place in
    the block). -/
theorem sum_blockSum (w : ℕ) {n : ℕ} (f : Fin (n * w) → M) : ∑ j : Fin n, blockSum w f j = ∑ t : Fin (n * w), f t := by
  rw [← Equiv.sum_comp finProdFinEquiv f, Fintype.sum_prod_type]
  refine Finset.sum_congr rfl fun j _ => Finset.sum_congr rfl fun k _ => congrArg f (Fin.ext ?_)
  show j.val * w + k.val = k.val + w * j.val
  rw [Nat.add_comm, Nat.mul_comm]

/-- Accumulating all n blocks from zero gives the sum of the whole sequence. -/
theorem accBlocks_all (w : ℕ) {n : ℕ} (f : Fin (n * w) → M) : accBlocks w f n le_rfl = ∑ t : Fin (n * w), f t :=
  (accBlocks_eq_sum w f n le_rfl).trans (sum_blockSum w f)

/-! ## Four blocks of 1024 terms -/

/-- The sum of block j of a sequence of 4096 terms cut into four blocks of 1024: the terms at positions j * 1024 + k. -/
def blockSum4 (f : Fin 4096 → M) (j : Fin 4) : M :=
  ∑ k : Fin 1024, f ⟨j.val * 1024 + k.val, by have := j.isLt; have := k.isLt; omega⟩

/-- With the literal sizes, a block's sum is the general one (4 * 1024 is 4096). -/
theorem blockSum4_eq (f : Fin 4096 → M) (j : Fin 4) : blockSum4 f j = blockSum 1024 (n := 4) f j := rfl

/-- The four blocks' sums, accumulated from zero and nested to the left, are the sum of all 4096 terms. -/
theorem sum_four_blocks (f : Fin 4096 → M) :
    (((0 + blockSum4 f 0) + blockSum4 f 1) + blockSum4 f 2) + blockSum4 f 3 = ∑ t : Fin 4096, f t := by
  rw [zero_add, blockSum4_eq, blockSum4_eq, blockSum4_eq, blockSum4_eq]
  exact (Fin.sum_univ_four (fun j : Fin 4 => blockSum 1024 (n := 4) f j)).symm.trans (sum_blockSum 1024 (n := 4) f)

end Cert.BlockSum
-- ==== Proof.KI_Value1.lean ====
import proofs.«180238_j18949395710129_2_alg».proof.Proof.KI_Region1
import proofs.«180238_j18949395710129_2_alg».proof.Proof.KI_Value1Pt
import proofs.«180238_j18949395710129_2_alg».proof.Proof.LibBlockSum
import proofs.«180238_j18949395710129_2_alg».proof.Proof.Arrays
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Arrays (termAt attnArr)

/-! # What the attention region leaves in its output array

For a block of 2048 query positions the scratch total is restarted at the first of the four key blocks and increased at
each; so when the fourth has been added it holds, at (r, b, d), the sum over ALL 4096 key positions t of
tanh(sum over e of Q(s, b, e) * K(t, b, e)) * V(t, b, d) for the block's position s of row r: the four blocks' sums,
accumulated one after the other from zero, are the whole sum. The output block stored there is gamma times that plus
the value block; the two query blocks' outputs tile the output array. -/

section
variable (V : (c : Dev nD) → (b : Ref sig .tc) → Buf (Elt Ideal) ((c : Thread nD τ).loc b))

/-- The printed index maps, decided over the grid: the query, value and output blocks follow the point's first coordinate,
    the key and projected-value blocks its second. -/
theorem idx_facts1 : ∀ s : Fin cfg1.N,
    win1_0.index s (0 : Fin 3) = s.val / 4 ∧ win1_0.index s (1 : Fin 3) = 0 ∧ win1_0.index s (2 : Fin 3) = 0
    ∧ win1_1.index s (0 : Fin 3) = s.val % 4 ∧ win1_1.index s (1 : Fin 3) = 0 ∧ win1_1.index s (2 : Fin 3) = 0
    ∧ win1_2.index s (0 : Fin 3) = s.val % 4 ∧ win1_2.index s (1 : Fin 3) = 0 ∧ win1_2.index s (2 : Fin 3) = 0
    ∧ win1_3.index s (0 : Fin 3) = s.val / 4 ∧ win1_3.index s (1 : Fin 3) = 0 ∧ win1_3.index s (2 : Fin 3) = 0
    ∧ win1_4.index s (0 : Fin 2) = 0 ∧ win1_4.index s (1 : Fin 2) = 0
    ∧ win1_5.index s (0 : Fin 3) = s.val / 4 ∧ win1_5.index s (1 : Fin 3) = 0 ∧ win1_5.index s (2 : Fin 3) = 0 :=
  (by decide +kernel : ∀ s : Fin grid1.N, _)

theorem idx_onto1 : ∀ q0 : Fin 2, ∃ t : Fin cfg1.N, (cfg1.win 5).flush t = true ∧ win1_5.index t = ![q0.val, 0, 0] :=
  (by decide +kernel : ∀ q0 : Fin 2, ∃ t : Fin grid1.N, win1_5.flush t = true ∧ win1_5.index t = ![q0.val, 0, 0])

/-- One point's increment, at a block index: that point's key block's share of the whole sum. -/
theorem step_sum (c : Dev nD) (s : Fin cfg1.N) (r : Fin 2048) (bb : Fin 2) (d : Fin 512)
    (hs : s.val / 4 * 2048 + r.val < 4096) (hq : s.val % 4 < 4)
    (qB : Vec Ideal S2048x2x512 .bf16) (kB vB : Vec Ideal S1024x2x512 .bf16)
    (hqB : qB = iblk1 V c 0 s) (hkB : kB = iblk1 V c 1 s) (hvB : vB = iblk1 V c 2 s) :
    (∑ t : Fin 1024, Ideal.tanh (∑ e : Fin 512, qB (ix3 r bb e) * kB (ix3 t bb e)) * vB (ix3 t bb d))
      = Cert.BlockSum.blockSum4 (termAt (V c main_v4_0) (V c main_v4_1) (V c main_v4_2) ⟨s.val / 4 * 2048 + r.val, hs⟩ bb d) ⟨s.val % 4, hq⟩ := by
  obtain ⟨a0, a1, a2, b0, b1, b2, c0, c1, c2, -⟩ := idx_facts1 s
  subst hqB hkB hvB
  unfold Cert.BlockSum.blockSum4 termAt
  refine Finset.sum_congr rfl fun t _ => ?_
  have eQ : ∀ e : Fin 512, iblk1 V c 0 s (ix3 r bb e) = V c main_v4_0 (ix3 (⟨s.val / 4 * 2048 + r.val, hs⟩ : Fin 4096) bb e) := fun e => by
    show V c main_v4_0 (((cfg1.win 0).blk s).view.emb (ix3 r bb e)) = _
    refine congrArg _ (funext fun a => Fin.ext ?_)
    match a with
    | ⟨0, _⟩ => show win1_0.index s (0 : Fin 3) * 2048 + 1 * r.val = s.val / 4 * 2048 + r.val; omega
    | ⟨1, _⟩ => show win1_0.index s (1 : Fin 3) * 2 + 1 * bb.val = bb.val; omega
    | ⟨2, _⟩ => show win1_0.index s (2 : Fin 3) * 512 + 1 * e.val = e.val; omega
  have ht : s.val % 4 * 1024 + t.val < 4096 := by have := t.isLt; omega
  have eK : ∀ e : Fin 512, iblk1 V c 1 s (ix3 t bb e) = V c main_v4_1 (ix3 (⟨s.val % 4 * 1024 + t.val, ht⟩ : Fin 4096) bb e) := fun e => by
    show V c main_v4_1 (((cfg1.win 1).blk s).view.emb (ix3 t bb e)) = _
    refine congrArg _ (funext fun a => Fin.ext ?_)
    match a with
    | ⟨0, _⟩ => show win1_1.index s (0 : Fin 3) * 1024 + 1 * t.val = s.val % 4 * 1024 + t.val; omega
    | ⟨1, _⟩ => show win1_1.index s (1 : Fin 3) * 2 + 1 * bb.val = bb.val; omega
    | ⟨2, _⟩ => show win1_1.index s (2 : Fin 3) * 512 + 1 * e.val = e.val; omega
  have eV : iblk1 V c 2 s (ix3 t bb d) = V c main_v4_2 (ix3 (⟨s.val % 4 * 1024 + t.val, ht⟩ : Fin 4096) bb d) := by
    show V c main_v4_2 (((cfg1.win 2).blk s).view.emb (ix3 t bb d)) = _
    refine congrArg _ (funext fun a => Fin.ext ?_)
    match a with
    | ⟨0, _⟩ => show win1_2.index s (0 : Fin 3) * 1024 + 1 * t.val = s.val % 4 * 1024 + t.val; omega
    | ⟨1, _⟩ => show win1_2.index s (1 : Fin 3) * 2 + 1 * bb.val = bb.val; omega
    | ⟨2, _⟩ => show win1_2.index s (2 : Fin 3) * 512 + 1 * d.val = d.val; omega
  rw [eV]
  refine congrArg (fun z => Ideal.tanh z * _) (Finset.sum_congr rfl fun e _ => ?_)
  rw [eQ e, eK e]

/-- The scratch total after the fourth key block of a query block, at a block index: the whole sum over key positions. -/
theorem accAt_last (c : Dev nD) (t : Fin cfg1.N) (h3 : t.val % 4 = 3) (r : Fin 2048) (bb : Fin 2) (d : Fin 512)
    (hs : t.val / 4 * 2048 + r.val < 4096) :
    accAt V c t.val t.isLt (ix3 r bb d)
      = ∑ tt : Fin 4096, termAt (V c main_v4_0) (V c main_v4_1) (V c main_v4_2) ⟨t.val / 4 * 2048 + r.val, hs⟩ bb d tt := by
  have hN : t.val < 8 := lt_of_lt_of_eq t.isLt (show cfg1.N = 8 from N_1)
  have l2 : t.val - 1 < cfg1.N := Nat.lt_of_le_of_lt (Nat.sub_le _ _) t.isLt
  have l1 : t.val - 1 - 1 < cfg1.N := Nat.lt_of_le_of_lt (Nat.sub_le _ _) l2
  have l0 : t.val - 1 - 1 - 1 < cfg1.N := Nat.lt_of_le_of_lt (Nat.sub_le _ _) l1
  have e3 := accAt_step V c t (by omega)
  have e2 := accAt_step V c ⟨t.val - 1, l2⟩ (by show ¬(t.val - 1) % 4 = 0; omega)
  have e1 := accAt_step V c ⟨t.val - 1 - 1, l1⟩ (by show ¬(t.val - 1 - 1) % 4 = 0; omega)
  have e0 := accAt_reset V c ⟨t.val - 1 - 1 - 1, l0⟩ (by show (t.val - 1 - 1 - 1) % 4 = 0; omega)
  rw [e3, accStep_apply, e2, accStep_apply, e1, accStep_apply, e0, accStep_apply, zeros_apply]
  rw [step_sum V c t r bb d hs (by omega) _ _ _ rfl rfl rfl,
    step_sum V c ⟨t.val - 1, l2⟩ r bb d (by show (t.val - 1) / 4 * 2048 + r.val < 4096; omega) (by show (t.val - 1) % 4 < 4; omega) _ _ _ rfl rfl rfl,
    step_sum V c ⟨t.val - 1 - 1, l1⟩ r bb d (by show (t.val - 1 - 1) / 4 * 2048 + r.val < 4096; omega) (by show (t.val - 1 - 1) % 4 < 4; omega) _ _ _ rfl rfl rfl,
    step_sum V c ⟨t.val - 1 - 1 - 1, l0⟩ r bb d (by show (t.val - 1 - 1 - 1) / 4 * 2048 + r.val < 4096; omega) (by show (t.val - 1 - 1 - 1) % 4 < 4; omega) _ _ _ rfl rfl rfl]
  have q2 : (⟨(t.val - 1) / 4 * 2048 + r.val, by omega⟩ : Fin 4096) = ⟨t.val / 4 * 2048 + r.val, hs⟩ := Fin.ext (by show (t.val - 1) / 4 * 2048 + r.val = t.val / 4 * 2048 + r.val; omega)
  have q1 : (⟨(t.val - 1 - 1) / 4 * 2048 + r.val, by omega⟩ : Fin 4096) = ⟨t.val / 4 * 2048 + r.val, hs⟩ := Fin.ext (by show (t.val - 1 - 1) / 4 * 2048 + r.val = t.val / 4 * 2048 + r.val; omega)
  have q0 : (⟨(t.val - 1 - 1 - 1) / 4 * 2048 + r.val, by omega⟩ : Fin 4096) = ⟨t.val / 4 * 2048 + r.val, hs⟩ := Fin.ext (by show (t.val - 1 - 1 - 1) / 4 * 2048 + r.val = t.val / 4 * 2048 + r.val; omega)
  have j3 : (⟨t.val % 4, by omega⟩ : Fin 4) = 3 := Fin.ext (by show t.val % 4 = 3; omega)
  have j2 : (⟨(t.val - 1) % 4, by omega⟩ : Fin 4) = 2 := Fin.ext (by show (t.val - 1) % 4 = 2; omega)
  have j1 : (⟨(t.val - 1 - 1) % 4, by omega⟩ : Fin 4) = 1 := Fin.ext (by show (t.val - 1 - 1) % 4 = 1; omega)
  have j0 : (⟨(t.val - 1 - 1 - 1) % 4, by omega⟩ : Fin 4) = 0 := Fin.ext (by show (t.val - 1 - 1 - 1) % 4 = 0; omega)
  show (((((0 : EReal) + Cert.BlockSum.blockSum4 (termAt _ _ _ ⟨(t.val - 1 - 1 - 1) / 4 * 2048 + r.val, _⟩ bb d) ⟨(t.val - 1 - 1 - 1) % 4, _⟩)
        + Cert.BlockSum.blockSum4 (termAt _ _ _ ⟨(t.val - 1 - 1) / 4 * 2048 + r.val, _⟩ bb d) ⟨(t.val - 1 - 1) % 4, _⟩)
        + Cert.BlockSum.blockSum4 (termAt _ _ _ ⟨(t.val - 1) / 4 * 2048 + r.val, _⟩ bb d) ⟨(t.val - 1) % 4, _⟩)
        + Cert.BlockSum.blockSum4 (termAt _ _ _ ⟨t.val / 4 * 2048 + r.val, _⟩ bb d) ⟨t.val % 4, _⟩) = _
  rw [q2, q1, q0, j3, j2, j1, j0]
  exact Cert.BlockSum.sum_four_blocks _

/-- What a flushing point writes back is its block of the attention result. -/
theorem flushed5_eq (c : Dev nD) (t : Fin cfg1.N) (hf : (cfg1.win 5).flush t = true) :
    (dat1 V c).flushed 5 t = ((cfg1.win 5).blk t).view.read (Elt Ideal)
      (attnArr (V c main_v4_0) (V c main_v4_1) (V c main_v4_2) (V c main_arg2) (V c main_v3)) := by
  have h3 : t.val % 4 = 3 := (flush1_5 t).mp hf
  have hN : t.val < 8 := lt_of_lt_of_eq t.isLt (show cfg1.N = 8 from N_1)
  show (cfg1.win 5).cut (grid1.coords t) ((dat1 V c).after 5 t) = _
  rw [after1_5]
  obtain ⟨-, -, -, -, -, -, -, -, -, d0, d1, d2, g0, g1, o0, o1, o2⟩ := idx_facts1 t
  funext j
  have hj0 : (j 0).val < 2048 := (j 0).isLt
  have hj1 : (j 1).val < 2 := (j 1).isLt
  have hj2 : (j 2).val < 512 := (j 2).isLt
  have ej : j = ix3 (⟨(j 0).val, hj0⟩ : Fin 2048) (⟨(j 1).val, hj1⟩ : Fin 2) (⟨(j 2).val, hj2⟩ : Fin 512) :=
    funext fun a => Fin.ext (by match a with | ⟨0, _⟩ => rfl | ⟨1, _⟩ => rfl | ⟨2, _⟩ => rfl)
  refine (outFinal_apply (iblk1 V c 4 t) (accAt V c t.val t.isLt) (iblk1 V c 3 t) j).trans ?_
  show _ = attnArr (V c main_v4_0) (V c main_v4_1) (V c main_v4_2) (V c main_arg2) (V c main_v3) (((cfg1.win 5).blk t).view.emb j)
  unfold attnArr
  have hs : t.val / 4 * 2048 + (j 0).val < 4096 := by omega
  refine congr (congrArg HAdd.hAdd (congr (congrArg HMul.hMul ?_) ?_)) ?_
  · show V c main_v3 (((cfg1.win 4).blk t).view.emb (ix2 (0 : Fin 1) (0 : Fin 1))) = V c main_v3 _
    refine congrArg _ (funext fun a => Fin.ext ?_)
    match a with
    | ⟨0, _⟩ => show win1_4.index t (0 : Fin 2) * 1 + 1 * 0 = 0; omega
    | ⟨1, _⟩ => show win1_4.index t (1 : Fin 2) * 1 + 1 * 0 = 0; omega
  · refine ((congrArg (accAt V c t.val t.isLt) ej).trans (accAt_last V c t h3 _ _ _ hs)).trans ?_
    refine Finset.sum_congr rfl fun tt _ => ?_
    have es : (⟨t.val / 4 * 2048 + (j 0).val, hs⟩ : Fin 4096) = ⟨((((cfg1.win 5).blk t).view.emb j) 0).val, ((((cfg1.win 5).blk t).view.emb j) 0).isLt⟩ :=
      Fin.ext (by show t.val / 4 * 2048 + (j 0).val = win1_5.index t (0 : Fin 3) * 2048 + 1 * (j 0).val; omega)
    have eb : (⟨(j 1).val, hj1⟩ : Fin 2) = ⟨((((cfg1.win 5).blk t).view.emb j) 1).val, ((((cfg1.win 5).blk t).view.emb j) 1).isLt⟩ :=
      Fin.ext (by show (j 1).val = win1_5.index t (1 : Fin 3) * 2 + 1 * (j 1).val; omega)
    have ed : (⟨(j 2).val, hj2⟩ : Fin 512) = ⟨((((cfg1.win 5).blk t).view.emb j) 2).val, ((((cfg1.win 5).blk t).view.emb j) 2).isLt⟩ :=
      Fin.ext (by show (j 2).val = win1_5.index t (2 : Fin 3) * 512 + 1 * (j 2).val; omega)
    rw [es, eb, ed]
  · show V c main_arg2 (((cfg1.win 3).blk t).view.emb j) = V c main_arg2 (((cfg1.win 5).blk t).view.emb j)
    refine congrArg _ (funext fun a => Fin.ext ?_)
    match a with
    | ⟨0, _⟩ => show win1_3.index t (0 : Fin 3) * 2048 + 1 * (j 0).val = win1_5.index t (0 : Fin 3) * 2048 + 1 * (j 0).val; omega
    | ⟨1, _⟩ => show win1_3.index t (1 : Fin 3) * 2 + 1 * (j 1).val = win1_5.index t (1 : Fin 3) * 2 + 1 * (j 1).val; omega
    | ⟨2, _⟩ => show win1_3.index t (2 : Fin 3) * 512 + 1 * (j 2).val = win1_5.index t (2 : Fin 3) * 512 + 1 * (j 2).val; omega

theorem mem_blk5 (t : Fin cfg1.N) (i : S4096x2x512.Idx) :
    i ∈ ((cfg1.win 5).blk t).view.set ↔ ∀ a : Fin 3, win1_5.index t a * S2048x2x512.size a ≤ (i a).val ∧ (i a).val < win1_5.index t a * S2048x2x512.size a + S2048x2x512.size a := by
  show i ∈ ((View.whole main_v5).slice (win1_5.rect t)).set ↔ _
  rw [View.set_slice_whole, Rect.mem_set_unit]
  exact Iff.rfl

theorem cover5 (i : S4096x2x512.Idx) : ∃ t : Fin cfg1.N, (cfg1.win 5).flush t = true ∧ i ∈ ((cfg1.win 5).blk t).view.set := by
  have hi0 : (i 0).val < 4096 := (i 0).isLt
  have hi1 : (i 1).val < 2 := (i 1).isLt
  have hi2 : (i 2).val < 512 := (i 2).isLt
  obtain ⟨t, hf, ht⟩ := idx_onto1 ⟨(i 0).val / 2048, by omega⟩
  have q0 : win1_5.index t (0 : Fin 3) = (i 0).val / 2048 := congrFun ht 0
  have q1 : win1_5.index t (1 : Fin 3) = 0 := congrFun ht 1
  have q2 : win1_5.index t (2 : Fin 3) = 0 := congrFun ht 2
  refine ⟨t, hf, ?_⟩
  rw [mem_blk5]
  intro a
  match a with
  | ⟨0, _⟩ => show win1_5.index t (0 : Fin 3) * 2048 ≤ (i 0).val ∧ (i 0).val < win1_5.index t (0 : Fin 3) * 2048 + 2048; omega
  | ⟨1, _⟩ => show win1_5.index t (1 : Fin 3) * 2 ≤ (i 1).val ∧ (i 1).val < win1_5.index t (1 : Fin 3) * 2 + 2; omega
  | ⟨2, _⟩ => show win1_5.index t (2 : Fin 3) * 512 ≤ (i 2).val ∧ (i 2).val < win1_5.index t (2 : Fin 3) * 512 + 512; omega

/-- The output array after the region: the attention result of the arrays the region found. -/
theorem final5 (c : Dev nD) : (dat1 V c).arrAt 5 cfg1.N
    = attnArr (V c main_v4_0) (V c main_v4_1) (V c main_v4_2) (V c main_arg2) (V c main_v3) :=
  (dat1 V c).arrAt_eq_of_cover 5 _ (fun t hf => flushed5_eq V c t hf) cover5

end

end Cert.KernelIdeal.Hand

end
-- ==== Proof.KI_Claim.lean ====
import proofs.«180238_j18949395710129_2_alg».proof.Proof.KI_Frame
import proofs.«180238_j18949395710129_2_alg».proof.Proof.Spec
import proofs.«180238_j18949395710129_2_alg».proof.Proof.Arrays
import proofs.«180238_j18949395710129_2_alg».proof.Proof.Bridge
import proofs.«180238_j18949395710129_2_alg».proof.Proof.KI_Value0
import proofs.«180238_j18949395710129_2_alg».proof.Proof.KI_Value1
import Idealize.ShloMosaic.Lib.StableHlo.Run
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

open Cert.Arrays (projArr termAt attnArr)

/-! # The idealized kernel's result, as the specification's function of the ten arguments

The contents at each boundary, read back to the launch memory: the reshapes' results are casts of the bias and gamma
arguments; the projection region's three outputs are the projections of query, key and value; the attention region's
output is the attention result of those; and that is the specification's function. -/

/-! ## After the host reshapes -/

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg5 (c : Dev nD) : V1 m ρ c main_arg5 = m ((c : Thread nD τ).loc main_arg5) := by
  show StableHlo.after hostOps0 (W0 m ρ c) (Proc.devRef .tc main_arg5) = _
  after_results
theorem V1_arg7 (c : Dev nD) : V1 m ρ c main_arg7 = m ((c : Thread nD τ).loc main_arg7) := by
  show StableHlo.after hostOps0 (W0 m ρ c) (Proc.devRef .tc main_arg7) = _
  after_results
theorem V1_v0 (c : Dev nD) : (V1 m ρ c main_v0 : S1x512.Idx → EReal) = shapeCast S1x512 (m ((c : Thread nD τ).loc main_arg4)) shapeCasts_S512_S1x512 := by
  show StableHlo.after hostOps0 (W0 m ρ c) (Proc.devRef .tc main_v0) = _
  after_results
  rfl
theorem V1_v1 (c : Dev nD) : (V1 m ρ c main_v1 : S1x512.Idx → EReal) = shapeCast S1x512 (m ((c : Thread nD τ).loc main_arg6)) shapeCasts_S512_S1x512 := by
  show StableHlo.after hostOps0 (W0 m ρ c) (Proc.devRef .tc main_v1) = _
  after_results
  rfl
theorem V1_v2 (c : Dev nD) : (V1 m ρ c main_v2 : S1x512.Idx → EReal) = shapeCast S1x512 (m ((c : Thread nD τ).loc main_arg8)) shapeCasts_S512_S1x512 := by
  show StableHlo.after hostOps0 (W0 m ρ c) (Proc.devRef .tc main_v2) = _
  after_results
  rfl
theorem V1_v3 (c : Dev nD) : (V1 m ρ c main_v3 : S1x1.Idx → EReal) = shapeCast S1x1 (m ((c : Thread nD τ).loc main_arg9)) shapeCasts_S1_S1x1 := by
  show StableHlo.after hostOps0 (W0 m ρ c) (Proc.devRef .tc main_v3) = _
  after_results
  rfl

/-! ## After the projection region -/

theorem V2_v4_0 (c : Dev nD) : V2 m ρ c main_v4_0
    = projArr (m ((c : Thread nD τ).loc main_arg0)) (m ((c : Thread nD τ).loc main_arg3)) (shapeCast S1x512 (m ((c : Thread nD τ).loc main_arg4)) shapeCasts_S512_S1x512) :=
  calc V2 m ρ c main_v4_0 = (dat0 (V1 m ρ) c).arrAt 9 cfg0.N := W2_arr m ρ c 9
    _ = projArr (V1 m ρ c main_arg0) (V1 m ρ c main_arg3) (V1 m ρ c main_v0) := final9 (V1 m ρ) c
    _ = _ := by rw [V1_arg0, V1_arg3, V1_v0]
theorem V2_v4_1 (c : Dev nD) : V2 m ρ c main_v4_1
    = projArr (m ((c : Thread nD τ).loc main_arg1)) (m ((c : Thread nD τ).loc main_arg5)) (shapeCast S1x512 (m ((c : Thread nD τ).loc main_arg6)) shapeCasts_S512_S1x512) :=
  calc V2 m ρ c main_v4_1 = (dat0 (V1 m ρ) c).arrAt 10 cfg0.N := W2_arr m ρ c 10
    _ = projArr (V1 m ρ c main_arg1) (V1 m ρ c main_arg5) (V1 m ρ c main_v1) := final10 (V1 m ρ) c
    _ = _ := by rw [V1_arg1, V1_arg5, V1_v1]
theorem V2_v4_2 (c : Dev nD) : V2 m ρ c main_v4_2
    = projArr (m ((c : Thread nD τ).loc main_arg2)) (m ((c : Thread nD τ).loc main_arg7)) (shapeCast S1x512 (m ((c : Thread nD τ).loc main_arg8)) shapeCasts_S512_S1x512) :=
  calc V2 m ρ c main_v4_2 = (dat0 (V1 m ρ) c).arrAt 11 cfg0.N := W2_arr m ρ c 11
    _ = projArr (V1 m ρ c main_arg2) (V1 m ρ c main_arg7) (V1 m ρ c main_v2) := final11 (V1 m ρ) c
    _ = _ := by rw [V1_arg2, V1_arg7, V1_v2]
theorem V2_arg2 (c : Dev nD) : V2 m ρ c main_arg2 = m ((c : Thread nD τ).loc main_arg2) :=
  ((W2_arr m ρ c 2).trans (((dat0 (V1 m ρ) c).arrAt_in 2 rfl _).trans (A_eq0 (V1 m ρ) c 2))).trans (V1_arg2 m ρ c)
theorem V2_v3 (c : Dev nD) : (V2 m ρ c main_v3 : S1x1.Idx → EReal) = shapeCast S1x1 (m ((c : Thread nD τ).loc main_arg9)) shapeCasts_S1_S1x1 :=
  (W2_of_ne m ρ c main_v3 (by decide)).trans (V1_v3 m ρ c)

/-! ## After the attention region -/

theorem result_value (c : Dev nD) : W3 m ρ c (Proc.devRef .tc main_v5)
    = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  calc W3 m ρ c (Proc.devRef .tc main_v5) = (dat1 (V2 m ρ) c).arrAt 5 cfg1.N := result_at m ρ c
    _ = attnArr (V2 m ρ c main_v4_0) (V2 m ρ c main_v4_1) (V2 m ρ c main_v4_2) (V2 m ρ c main_arg2) (V2 m ρ c main_v3) := final5 (V2 m ρ) c
    _ = attnArr (projArr (m ((c : Thread nD τ).loc main_arg0)) (m ((c : Thread nD τ).loc main_arg3)) (shapeCast S1x512 (m ((c : Thread nD τ).loc main_arg4)) shapeCasts_S512_S1x512))
          (projArr (m ((c : Thread nD τ).loc main_arg1)) (m ((c : Thread nD τ).loc main_arg5)) (shapeCast S1x512 (m ((c : Thread nD τ).loc main_arg6)) shapeCasts_S512_S1x512))
          (projArr (m ((c : Thread nD τ).loc main_arg2)) (m ((c : Thread nD τ).loc main_arg7)) (shapeCast S1x512 (m ((c : Thread nD τ).loc main_arg8)) shapeCasts_S512_S1x512))
          (m ((c : Thread nD τ).loc main_arg2)) (shapeCast S1x1 (m ((c : Thread nD τ).loc main_arg9)) shapeCasts_S1_S1x1) := by
      rw [V2_v4_0, V2_v4_1, V2_v4_2, V2_arg2, V2_v3]
    _ = _ := Cert.Bridge.result_eq _ _ _ _ _ _ _ _ _ _ _ _

/-- Every weakly fair execution of the idealized kernel's @main terminates, the result array holding the
    specification's function of the arguments and the arguments unchanged. -/
theorem run_value : θ_run defs (onTc (τ := τ) (main (F := Ideal))) ⟨m, fun _ => 0, ρ⟩ (fun r => ∀ c : Dev nD,
      r.2.mem ((c.tc : Thread nD τ).loc main_v5) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v5 (by decide))).trans (result_value m ρ c),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c)⟩) (run_main m ρ)

end Cert.KernelIdeal.Hand

end
-- ==== Proof.RefSide.lean ====
/-
  The reference program is the specification.

  The reference computes three linear projections (a weight matrix contracted with the last axis of an input array, the
  result re-laid from [feature, position, batch] to [batch, position, feature], plus a bias broadcast along batch and
  position), the batched inner products of projected queries and keys, their tanh, the batched product of those weights
  with the projected values, a swap of the batch and position axes, the product with the scalar gamma and the sum with
  the value array. Read at an index, each of these stages is one of the specification's formulas; the only algebra is the
  commutativity of the product under the projections' sums (the reference multiplies weight by input, the specification
  input by weight).
-/
import proofs.«180238_j18949395710129_2_alg».proof.Proof.Gen.ReferenceIdeal.Read
import proofs.«180238_j18949395710129_2_alg».proof.Proof.Spec
import Idealize.ShloMosaic.Lib.ValueIdx
import Idealize.ShloMosaic.Lib.Pipeline.Value
import Idealize.ShloMosaic.PureOps.Ideal.Laws

noncomputable section

namespace Cert.RefSide

open Idealize.ShloMosaic Idealize.ShloMosaic.ValueIdx Idealize.ShloMosaic.TcCoe Idealize.SL.Sem
open Cert.ReferenceIdeal Cert.ReferenceIdeal.Gen Cert.ReferenceIdeal.Read Cert.Spec

/-! ## The projections

Each projection is a contraction of a weight matrix with the last axis of an input array, laid out
[feature, position, batch], then re-laid to [batch, position, feature], plus the bias broadcast along batch and
position. At (batch b, position s, feature e) that is the sum over the input feature i of W(e, i) * x(s, b, i), plus
bias(e): the specification's projection, with the product's factors in the other order. -/

/-- The query projection at (batch b, position s, feature e) is the specification's projection at (s, b, e). -/
theorem proj_q (x : SX.Idx → EReal) (W : SW.Idx → EReal) (bias : SB.Idx → EReal) (b : Fin 2) (s : Fin 4096) (e : Fin 512) :
    val_main_v4 (F := Ideal) x W bias (ix3 b s e) = proj x W bias s b e := by
  rw [val_main_v4_apply, val_main_v1_apply, val_main_v3_apply, val_main_v2_apply, val_main_v0_apply]
  unfold proj
  rw [Ideal.addf_def]
  refine congrArg₂ (· + ·) (Finset.sum_congr rfl fun i _ => ?_) ?_
  · refine (mul_comm _ _).trans (congrArg₂ (· * ·) (congrArg x ?_) (congrArg W ?_))
    · funext a; match a with | ⟨0, _⟩ => rfl | ⟨1, _⟩ => rfl | ⟨2, _⟩ => rfl
    · funext a; match a with | ⟨0, _⟩ => rfl | ⟨1, _⟩ => rfl
  · refine congrArg bias ?_
    funext a; match a with | ⟨0, _⟩ => rfl

/-- The key projection at (batch b, position s, feature e) is the specification's projection at (s, b, e). -/
theorem proj_k (x : SX.Idx → EReal) (W : SW.Idx → EReal) (bias : SB.Idx → EReal) (b : Fin 2) (s : Fin 4096) (e : Fin 512) :
    val_main_v9 (F := Ideal) x W bias (ix3 b s e) = proj x W bias s b e := by
  rw [val_main_v9_apply, val_main_v6_apply, val_main_v8_apply, val_main_v7_apply, val_main_v5_apply]
  unfold proj
  rw [Ideal.addf_def]
  refine congrArg₂ (· + ·) (Finset.sum_congr rfl fun i _ => ?_) ?_
  · refine (mul_comm _ _).trans (congrArg₂ (· * ·) (congrArg x ?_) (congrArg W ?_))
    · funext a; match a with | ⟨0, _⟩ => rfl | ⟨1, _⟩ => rfl | ⟨2, _⟩ => rfl
    · funext a; match a with | ⟨0, _⟩ => rfl | ⟨1, _⟩ => rfl
  · refine congrArg bias ?_
    funext a; match a with | ⟨0, _⟩ => rfl

/-- The value projection at (batch b, position s, feature e) is the specification's projection at (s, b, e). -/
theorem proj_v (x : SX.Idx → EReal) (W : SW.Idx → EReal) (bias : SB.Idx → EReal) (b : Fin 2) (s : Fin 4096) (e : Fin 512) :
    val_main_v14 (F := Ideal) x W bias (ix3 b s e) = proj x W bias s b e := by
  rw [val_main_v14_apply, val_main_v11_apply, val_main_v13_apply, val_main_v12_apply, val_main_v10_apply]
  unfold proj
  rw [Ideal.addf_def]
  refine congrArg₂ (· + ·) (Finset.sum_congr rfl fun i _ => ?_) ?_
  · refine (mul_comm _ _).trans (congrArg₂ (· * ·) (congrArg x ?_) (congrArg W ?_))
    · funext a; match a with | ⟨0, _⟩ => rfl | ⟨1, _⟩ => rfl | ⟨2, _⟩ => rfl
    · funext a; match a with | ⟨0, _⟩ => rfl | ⟨1, _⟩ => rfl
  · refine congrArg bias ?_
    funext a; match a with | ⟨0, _⟩ => rfl

/-! ## The scores and the attention output -/

/-- The batched inner product of projected queries and keys at (batch b, query position s, key position t) is the
    specification's score: the sum over the feature e of Q(s, b, e) * K(t, b, e). -/
theorem score_stage (x0 x1 : SX.Idx → EReal) (x3 : SW.Idx → EReal) (x4 : SB.Idx → EReal) (x5 : SW.Idx → EReal) (x6 : SB.Idx → EReal)
    (b : Fin 2) (s t : Fin 4096) :
    val_main_v15 (F := Ideal) x0 x1 x3 x4 x5 x6 (ix3 b s t) = score (proj x0 x3 x4) (proj x1 x5 x6) s b t := by
  rw [val_main_v15_apply]
  unfold score
  refine Finset.sum_congr rfl fun e _ => ?_
  refine congrArg₂ (· * ·) (Eq.trans (congrArg _ ?_) (proj_q x0 x3 x4 b s e)) (Eq.trans (congrArg _ ?_) (proj_k x1 x5 x6 b t e))
  · funext a; match a with | ⟨0, _⟩ => rfl | ⟨1, _⟩ => rfl | ⟨2, _⟩ => rfl
  · funext a; match a with | ⟨0, _⟩ => rfl | ⟨1, _⟩ => rfl | ⟨2, _⟩ => rfl

/-- The batched product of the tanh weights with the projected values at (batch b, position s, feature d) is the
    specification's attention output: the sum over the key position t of tanh(score(s, b, t)) * V(t, b, d). -/
theorem attn_stage (x0 x1 x2 : SX.Idx → EReal) (x3 : SW.Idx → EReal) (x4 : SB.Idx → EReal) (x5 : SW.Idx → EReal) (x6 : SB.Idx → EReal)
    (x7 : SW.Idx → EReal) (x8 : SB.Idx → EReal) (b : Fin 2) (s : Fin 4096) (d : Fin 512) :
    val_main_v17 (F := Ideal) x0 x1 x2 x3 x4 x5 x6 x7 x8 (ix3 b s d)
      = attn (proj x0 x3 x4) (proj x1 x5 x6) (proj x2 x7 x8) s b d := by
  rw [val_main_v17_apply]
  unfold attn term
  refine Finset.sum_congr rfl fun t _ => ?_
  refine congrArg₂ (· * ·) ?_ (Eq.trans (congrArg _ ?_) (proj_v x2 x7 x8 b t d))
  · rw [val_main_v16_apply, Ideal.hostUnary_tanh_def]
    refine congrArg Ideal.tanh (Eq.trans (congrArg _ ?_) (score_stage x0 x1 x3 x4 x5 x6 b s t))
    funext a; match a with | ⟨0, _⟩ => rfl | ⟨1, _⟩ => rfl | ⟨2, _⟩ => rfl
  · funext a; match a with | ⟨0, _⟩ => rfl | ⟨1, _⟩ => rfl | ⟨2, _⟩ => rfl

/-! ## The result -/

/-- The reference's result array is the specification: at (position s, batch b, feature d) it is gamma times the
    attention output (read with batch and position swapped back) plus the value array. -/
theorem result_eq (x0 x1 x2 : Cert.Spec.SX.Idx → EReal) (x3 : Cert.Spec.SW.Idx → EReal) (x4 : Cert.Spec.SB.Idx → EReal)
    (x5 : Cert.Spec.SW.Idx → EReal) (x6 : Cert.Spec.SB.Idx → EReal) (x7 : Cert.Spec.SW.Idx → EReal) (x8 : Cert.Spec.SB.Idx → EReal)
    (x9 : Cert.Spec.SG.Idx → EReal) :
    Cert.ReferenceIdeal.Read.val_main_v22 (F := Ideal) x0 x1 x2 x3 x4 x5 x6 x7 x8 x9 = Cert.Spec.G x0 x1 x2 x3 x4 x5 x6 x7 x8 x9 := by
  funext j
  obtain ⟨s, b, d, rfl⟩ : ∃ (s : Fin 4096) (b : Fin 2) (d : Fin 512), j = ix3 s b d := ⟨j 0, j 1, j 2, eq_ix3 j⟩
  rw [val_main_v22_apply, val_main_v21_apply, val_main_v20_apply, val_main_v19_apply, val_main_v18_apply,
    Ideal.addf_def, Ideal.mulf_def]
  unfold G
  refine congrArg₂ (· + ·) (congrArg₂ (· * ·) (congrArg x9 ?_) ?_) rfl
  · funext a; match a with | ⟨0, _⟩ => rfl
  · refine Eq.trans (congrArg _ ?_) (attn_stage x0 x1 x2 x3 x4 x5 x6 x7 x8 b s d)
    funext a; match a with | ⟨0, _⟩ => rfl | ⟨1, _⟩ => rfl | ⟨2, _⟩ => rfl

/-! ## The reference's run -/

/-- Every weakly fair execution of the reference terminates with its result array equal to the specification of the ten
    argument arrays as they were at launch, and the arguments unchanged: the generated run, with the composed term of
    the operations read as the specification. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread nD τ).loc main_v22)
        = Cert.Spec.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono
    (fun _ h c => ⟨(h c).1.trans ((val_main_v22_eq (F := Ideal) _ _ _ _ _ _ _ _ _ _).trans (result_eq _ _ _ _ _ _ _ _ _ _)), (h c).2⟩)
    (Cert.ReferenceIdeal.Value.run (F := Ideal) m ρ)

end Cert.RefSide

end
-- ==== Proof.lean ====
/-
  Tanh-attention over [4096, 2, 512] arrays: a fused Q/K/V projection kernel followed by a blockwise attention kernel,
  against the plain reference  gamma * (tanh(Q Kᵀ) V) + value  with Q, K, V the biased linear projections.

  Over the extended reals a change of float format is the identity and every sum may be regrouped, so:
  * the projection kernel's three outputs are the projections of its whole inputs (each grid point projects its 1024
    positions, batch row by batch row; the four points' blocks tile the arrays);
  * the attention kernel's scratch, restarted at the first of four key blocks and increased at each, holds after the
    fourth the sum over all 4096 key positions of tanh(score) * V — four block sums added one after the other from zero
    are the whole sum (associativity only; no finiteness is used, and the precondition is never opened);
  * the stored output, gamma times that total plus the value block, is the reference's result, entry by entry.
  The frames (every execution terminates without fault and leaves the arguments unchanged) come from the same runs:
  @main as the host reshapes and the two launches in order, each launch's body run at every grid point against proof
  data naming what each window's buffer holds, the attention launch's invariant carrying the scratch total between
  points. The word-level kernel's frame is the same argument at its own instance. There is nothing to preserve: the
  idealized kernel is the kernel's own text.
-/
import proofs.«180238_j18949395710129_2_alg».proof.Defs
import proofs.«180238_j18949395710129_2_alg».proof.Proof.Gen.Kernel
import proofs.«180238_j18949395710129_2_alg».proof.Proof.Gen.KernelIdeal
import proofs.«180238_j18949395710129_2_alg».proof.Proof.Gen.ReferenceIdeal
import proofs.«180238_j18949395710129_2_alg».proof.Proof.Gen.Pre_finite_inputs
import proofs.«180238_j18949395710129_2_alg».proof.Proof.K_Frame
import proofs.«180238_j18949395710129_2_alg».proof.Proof.KI_Claim
import proofs.«180238_j18949395710129_2_alg».proof.Proof.RefSide
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.RefSide.run m ρ)

theorem preserves : Cert.preserves_Kernel_KernelIdeal := trivial

/-- Both idealized programs end with the result array at the specification's function of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), Cert.KernelIdeal.Hand.run_value m ρ, ?_⟩
  refine (θ_run Cert.ReferenceIdeal.defs _ _).mono (fun _ h c => ⟨(h c).1.trans ?_, (h c).2⟩) (Cert.RefSide.run m' ρ')
  obtain ⟨a0, a1, a2, a3, a4, a5, a6, a7, a8, a9⟩ := hagree c
  rw [a0, a1, a2, a3, a4, a5, a6, a7, a8, a9]

end Cert.Proof

namespace Cert.Proof

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
